-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x256x1 : Shape := ⟨4, ![128, 256, 256, 1]⟩
abbrev S131328x768 : Shape := ⟨2, ![131328, 768]⟩
abbrev S768 : Shape := ⟨1, ![768]⟩
abbrev S768x10 : Shape := ⟨2, ![768, 10]⟩
abbrev S10 : Shape := ⟨1, ![10]⟩
abbrev S10x10 : Shape := ⟨2, ![10, 10]⟩
abbrev S_ : Shape := ⟨0, ![]⟩

class Facts : Prop where
  bcast_S_S128x256x256x1 : S_.BroadcastsInDim S128x256x256x1 (![] : Fin 0 → Fin S128x256x256x1.rank)
  reducesTo_S128x256x256x1_S_d0_1_2_3 : S128x256x256x1.ReducesTo [0, 1, 2, 3] S_
  h_S_ : 0 < S_.numel
  bcast_S_S131328x768 : S_.BroadcastsInDim S131328x768 (![] : Fin 0 → Fin S131328x768.rank)
  reducesTo_S131328x768_S_d0_1 : S131328x768.ReducesTo [0, 1] S_
  bcast_S_S768 : S_.BroadcastsInDim S768 (![] : Fin 0 → Fin S768.rank)
  reducesTo_S768_S_d0 : S768.ReducesTo [0] S_
  bcast_S_S768x10 : S_.BroadcastsInDim S768x10 (![] : Fin 0 → Fin S768x10.rank)
  reducesTo_S768x10_S_d0_1 : S768x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_

variable [Facts]

def fn_part1 {F : FTy → Type} [FloatOps F] (main_arg4 : FVec F S10 .f32) (main_arg5 : FVec F S10x10 .f32) (main_arg6 : FVec F S10 .f32) (main_v13 : IVec S_ 1) (main_v16 : IVec S768x10 1) : IVec S_ 1 :=
  let main_c_5 : IVec S_ 1 := constantI S_ 1 1#1
  let main_v17 : IVec S_ 1 := (fun x v => Host.reduce IntOp.andi x v reducesTo_S768x10_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S128x256x256x1 .f32) (main_arg1 : FVec F S131328x768 .f32) (main_arg2 : FVec F S768 .f32) (main_arg3 : FVec F S768x10 .f32) (main_arg4 : FVec F S10 .f32) (main_arg5 : FVec F S10x10 .f32) (main_arg6 : FVec F S10 .f32) : IVec S_ 1 :=
  let main_v0 : FVec F S128x256x256x1 .f32 := Host.absf main_arg0
  let main_cst : FVec F S_ .f32 := constant S_ .f32 0x7F800000#32
  let main_v1 : FVec F S128x256x256x1 .f32 := broadcastInDim S128x256x256x1 ![] bcast_S_S128x256x256x1 main_cst
  let main_v2 : IVec S128x256x256x1 1 := cmpf .olt main_v0 main_v1
  let main_c : IVec S_ 1 := constantI S_ 1 1#1
  let main_v3 : IVec S_ 1 := (fun x v => Host.reduce IntOp.andi x v reducesTo_S128x256x256x1_S_d0_1_2_3 h_S_) main_v2 main_c
  let main_v4 : FVec F S131328x768 .f32 := Host.absf main_arg1
  let main_cst_0 : FVec F S_ .f32 := constant S_ .f32 0x7F800000#32
  let main_v5 : FVec F S131328x768 .f32 := broadcastInDim S131328x768 ![] bcast_S_S131328x768 main_cst_0
  let main_v6 : IVec S131328x768 1 := cmpf .olt main_v4 main_v5
  let main_c_1 : IVec S_ 1 := constantI S_ 1 1#1
  let main_v7 : IVec S_ 1 := (fun x v => Host.reduce IntOp.andi x v reducesTo_S131328x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x10 .f32 := Host.absf main_arg3
  let main_cst_4 : FVec F S_ .f32 := constant S_ .f32 0x7F800000#32
  let main_v15 : FVec F S768x10 .f32 := broadcastInDim S768x10 ![] bcast_S_S768x10 main_cst_4
  let main_v16 : IVec S768x10 1 := cmpf .olt main_v14 main_v15
  fn_part1 (F := F) main_arg4 main_arg5 main_arg6 main_v13 main_v16
-- ==== Kernel.lean ====
abbrev S128x256x256x1 : Shape := ⟨4, ![128, 256, 256, 1]⟩
abbrev S131328x768 : Shape := ⟨2, ![131328, 768]⟩
abbrev S768 : Shape := ⟨1, ![768]⟩
abbrev S768x10 : Shape := ⟨2, ![768, 10]⟩
abbrev S10 : Shape := ⟨1, ![10]⟩
abbrev S10x10 : Shape := ⟨2, ![10, 10]⟩
abbrev S128x256x513 : Shape := ⟨3, ![128, 256, 513]⟩
abbrev S16x256x256x1 : Shape := ⟨4, ![16, 256, 256, 1]⟩
abbrev S16x256x513 : Shape := ⟨3, ![16, 256, 513]⟩
abbrev S256x256 : Shape := ⟨2, ![256, 256]⟩
abbrev S16x256x256 : Shape := ⟨3, ![16, 256, 256]⟩
abbrev S1x256x256 : Shape := ⟨3, ![1, 256, 256]⟩
abbrev S16x256 : Shape := ⟨2, ![16, 256]⟩
abbrev S16x256x1 : Shape := ⟨3, ![16, 256, 1]⟩
abbrev S16 : Shape := ⟨1, ![16]⟩
abbrev S16x1 : Shape := ⟨2, ![16, 1]⟩
abbrev S16x1x1 : Shape := ⟨3, ![16, 1, 1]⟩
abbrev S128x131328 : Shape := ⟨2, ![128, 131328]⟩
abbrev S1x768 : Shape := ⟨2, ![1, 768]⟩
abbrev S1x10 : Shape := ⟨2, ![1, 10]⟩
abbrev S128x10 : Shape := ⟨2, ![128, 10]⟩
abbrev S128x3456 : Shape := ⟨2, ![128, 3456]⟩
abbrev S3456x768 : Shape := ⟨2, ![3456, 768]⟩
abbrev S128x768 : Shape := ⟨2, ![128, 768]⟩

abbrev nBuf : Space → Nat
  | .hbm => 13
  | .vmem => 15
  | .smem => 0
  | _ => 0

abbrev bufTy : (tb : Table) → Fin (tcTables nBuf tb) → BufTy
  | .hbm, ⟨0, _⟩ => ⟨S128x256x256x1, .f32⟩
  | .hbm, ⟨1, _⟩ => ⟨S131328x768, .f32⟩
  | .hbm, ⟨2, _⟩ => ⟨S768, .f32⟩
  | .hbm, ⟨3, _⟩ => ⟨S768x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S128x256x513, .bf16⟩
  | .hbm, ⟨8, _⟩ => ⟨S128x131328, .bf16⟩
  | .hbm, ⟨9, _⟩ => ⟨S1x768, .f32⟩
  | .hbm, ⟨10, _⟩ => ⟨S1x10, .f32⟩
  | .hbm, ⟨11, _⟩ => ⟨S1x10, .f32⟩
  | .hbm, ⟨12, _⟩ => ⟨S128x10, .f32⟩
  | .local _ .vmem, ⟨0, _⟩ => ⟨S16x256x256x1, .f32⟩
  | .local _ .vmem, ⟨1, _⟩ => ⟨S16x256x256x1, .f32⟩
  | .local _ .vmem, ⟨2, _⟩ => ⟨S16x256x513, .bf16⟩
  | .local _ .vmem, ⟨3, _⟩ => ⟨S16x256x513, .bf16⟩
  | .local _ .vmem, ⟨4, _⟩ => ⟨S128x3456, .bf16⟩
  | .local _ .vmem, ⟨5, _⟩ => ⟨S128x3456, .bf16⟩
  | .local _ .vmem, ⟨6, _⟩ => ⟨S3456x768, .f32⟩
  | .local _ .vmem, ⟨7, _⟩ => ⟨S3456x768, .f32⟩
  | .local _ .vmem, ⟨8, _⟩ => ⟨S1x768, .f32⟩
  | .local _ .vmem, ⟨9, _⟩ => ⟨S768x10, .f32⟩
  | .local _ .vmem, ⟨10, _⟩ => ⟨S1x10, .f32⟩
  | .local _ .vmem, ⟨11, _⟩ => ⟨S10x10, .f32⟩
  | .local _ .vmem, ⟨12, _⟩ => ⟨S1x10, .f32⟩
  | .local _ .vmem, ⟨13, _⟩ => ⟨S128x10, .f32⟩
  | .local _ .vmem, ⟨14, _⟩ => ⟨S128x768, .f32⟩
  | _, _ => ⟨S128x256x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x513 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![38], ![false]⟩

def k1_cond2 (i : grid1.Coords) : BitVec 1 :=
  let arg0 : BitVec 32 := BitVec.ofNat 32 (i 0).val
  let c37_i32 : BitVec 32 := 37#32
  let v13 : BitVec 1 := Scalar.cmpi .eq arg0 c37_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x3456 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3456x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x10 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  iota_S256x256_d0_w32 : S256x256.Iotas .tc 32 [0]
  iota_S256x256_d1_w32 : S256x256.Iotas .tc 32 [1]
  natLt_1_32 : 1 < 32
  inb_S16x256x256x1_S16x256x256x1_0_0_0_0 : ∀ a, (![0, 0, 0, 0] : Fin 4 → Nat) a + S16x256x256x1.size a ≤ S16x256x256x1.size a
  h_S16x256x256x1 : 0 < S16x256x256x1.numel
  shapeCasts_S16x256x256x1_S16x256x256 : S16x256x256x1.ShapeCasts S16x256x256
  shapeCasts_S256x256_S1x256x256 : S256x256.ShapeCasts S1x256x256
  broadcasts_S1x256x256_S16x256x256 : S1x256x256.Broadcasts S16x256x256
  reduces_S16x256x256_S16x256 : S16x256x256.Reduces [2] S16x256
  shapeCasts_S16x256_S16x256x1 : S16x256.ShapeCasts S16x256x1
  slices_S16x256x256_o0_0_0_S16x256x1 : S16x256x256.Slices ![0, 0, 0] S16x256x1
  shapeCasts_S16x256x1_S16x256 : S16x256x1.ShapeCasts S16x256
  reduces_S16x256_S16 : S16x256.Reduces [1] S16
  shapeCasts_S16_S16x1 : S16.ShapeCasts S16x1
  shapeCasts_S16x1_S16x1x1 : S16x1.ShapeCasts S16x1x1
  broadcasts_S16x1x1_S16x256x1 : S16x1x1.Broadcasts S16x256x1
  reduces_S16x256x1_S16x256 : S16x256x1.Reduces [2] S16x256
  broadcasts_S16x256x1_S16x256x256 : S16x256x1.Broadcasts S16x256x256
  bitsLt_bf16_f32 : FTy.bits .bf16 < FTy.bits .f32
  inb_S16x256x513_S16x256x1_0_0_0 : ∀ a, (![0, 0, 0] : Fin 3 → Nat) a + S16x256x1.size a ≤ S16x256x513.size a
  h_S16x256x1 : 0 < S16x256x1.numel
  packedbf16_S16x256x513_S16x256x1_0_0_0 : (Rect.unit (s := S16x256x513) ![0, 0, 0] S16x256x1.size inb_S16x256x513_S16x256x1_0_0_0).PackedRows (EltTy.packing .bf16)
  inb_S16x256x513_S16x256x256_0_0_1 : ∀ a, (![0, 0, 1] : Fin 3 → Nat) a + S16x256x256.size a ≤ S16x256x513.size a
  h_S16x256x256 : 0 < S16x256x256.numel
  packedbf16_S16x256x513_S16x256x256_0_0_1 : (Rect.unit (s := S16x256x513) ![0, 0, 1] S16x256x256.size inb_S16x256x513_S16x256x256_0_0_1).PackedRows (EltTy.packing .bf16)
  inb_S16x256x513_S16x256x256_0_0_257 : ∀ a, (![0, 0, 257] : Fin 3 → Nat) a + S16x256x256.size a ≤ S16x256x513.size a
  packedbf16_S16x256x513_S16x256x256_0_0_257 : (Rect.unit (s := S16x256x513) ![0, 0, 257] S16x256x256.size inb_S16x256x513_S16x256x256_0_0_257).PackedRows (EltTy.packing .bf16)
  shapeCasts_S128x256x513_S128x131328 : S128x256x513.ShapeCasts S128x131328
  shapeCasts_S768_S1x768 : S768.ShapeCasts S1x768
  shapeCasts_S10_S1x10 : S10.ShapeCasts S1x10
  inb_S128x768_S128x768_0_0 : ∀ a, (![0, 0] : Fin 2 → Nat) a + S128x768.size a ≤ S128x768.size a
  h_S128x768 : 0 < S128x768.numel
  shapeCasts_S128x768_S128x768 : S128x768.ShapeCasts S128x768
  inb_S128x3456_S128x3456_0_0 : ∀ a, (![0, 0] : Fin 2 → Nat) a + S128x3456.size a ≤ S128x3456.size a
  h_S128x3456 : 0 < S128x3456.numel
  shapeCasts_S128x3456_S128x3456 : S128x3456.ShapeCasts S128x3456
  inb_S3456x768_S3456x768_0_0 : ∀ a, (![0, 0] : Fin 2 → Nat) a + S3456x768.size a ≤ S3456x768.size a
  h_S3456x768 : 0 < S3456x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S128x768 : S1x768.Broadcasts S128x768
  inb_S768x10_S768x10_0_0 : ∀ a, (![0, 0] : Fin 2 → Nat) a + S768x10.size a ≤ S768x10.size a
  h_S768x10 : 0 < S768x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S10x10_S10x10_0_0 : ∀ a, (![0, 0] : Fin 2 → Nat) a + S10x10.size a ≤ S10x10.size a
  h_S10x10 : 0 < S10x10.numel
  inb_S128x10_S128x10_0_0 : ∀ a, (![0, 0] : Fin 2 → Nat) a + S128x10.size a ≤ S128x10.size a
  h_S128x10 : 0 < S128x10.numel
  dot_S128x3456_S3456x768_S128x768_1_0_0_1_n_n_wf : DotDims.WF S128x3456 S3456x768 S128x768 [1] [0] [0] [1] [] []
  dot_S128x768_S768x10_S128x10_1_0_0_1_n_n_wf : DotDims.WF S128x768 S768x10 S128x10 [1] [0] [0] [1] [] []
  dot_S128x10_S10x10_S128x10_1_0_0_1_n_n_wf : DotDims.WF S128x10 S10x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256x1.size a ≤ S128x256x256x1.size a
  hwx0_0 : ∀ i : grid0.Coords, EltTy.bits .f32 = 32 ∨ (Rect.block (s := S128x256x256x1) S16x256x256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x513.size a ≤ S128x256x513.size a
  hwx0_1 : ∀ i : grid0.Coords, EltTy.bits .bf16 = 32 ∨ (Rect.block (s := S128x256x513) S16x256x513.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x3456.size a ≤ S128x131328.size a
  hwx1_0 : ∀ i : grid1.Coords, EltTy.bits .bf16 = 32 ∨ (Rect.block (s := S128x131328) S128x3456.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3456x768.size a ≤ S131328x768.size a
  hwx1_1 : ∀ i : grid1.Coords, EltTy.bits .f32 = 32 ∨ (Rect.block (s := S131328x768) S3456x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x10.size a ≤ S768x10.size a
  hwx1_3 : ∀ i : grid1.Coords, EltTy.bits .f32 = 32 ∨ (Rect.block (s := S768x10) S768x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10x10.size a ≤ S10x10.size a
  hwx1_5 : ∀ i : grid1.Coords, EltTy.bits .f32 = 32 ∨ (Rect.block (s := S10x10) S10x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x10.size a ≤ S128x10.size a
  hwx1_7 : ∀ i : grid1.Coords, EltTy.bits .f32 = 32 ∨ (Rect.block (s := S128x10) S128x10.size (cc1_transform_7 i) (hinb1_7 i)).WholeWords (EltTy.packing .f32)

variable [Facts₀]

def dot_S128x3456_S3456x768_S128x768_1_0_0_1_n_n : DotDims S128x3456 S3456x768 S128x768 where
  lhsContracting := [1]
  rhsContracting := [0]
  lhsNonContracting := [0]
  rhsNonContracting := [1]
  lhsBatch := []
  rhsBatch := []
  wf := dot_S128x3456_S3456x768_S128x768_1_0_0_1_n_n_wf
def dot_S128x768_S768x10_S128x10_1_0_0_1_n_n : DotDims S128x768 S768x10 S128x10 where
  lhsContracting := [1]
  rhsContracting := [0]
  lhsNonContracting := [0]
  rhsNonContracting := [1]
  lhsBatch := []
  rhsBatch := []
  wf := dot_S128x768_S768x10_S128x10_1_0_0_1_n_n_wf
def dot_S128x10_S10x10_S128x10_1_0_0_1_n_n : DotDims S128x10 S10x10 S128x10 where
  lhsContracting := [1]
  rhsContracting := [0]
  lhsNonContracting := [0]
  rhsNonContracting := [1]
  lhsBatch := []
  rhsBatch := []
  wf := dot_S128x10_S10x10_S128x10_1_0_0_1_n_n_wf

abbrev win0_0 : Pipeline.Window sig grid0 :=
  Pipeline.Window.ofSpec (Memref.whole main_arg0) S16x256x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x256x513.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S128x3456.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S3456x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S768x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S10x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S128x10.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S128x256x256x1 : Shape := ⟨4, ![128, 256, 256, 1]⟩
abbrev S131328x768 : Shape := ⟨2, ![131328, 768]⟩
abbrev S768 : Shape := ⟨1, ![768]⟩
abbrev S768x10 : Shape := ⟨2, ![768, 10]⟩
abbrev S10 : Shape := ⟨1, ![10]⟩
abbrev S10x10 : Shape := ⟨2, ![10, 10]⟩
abbrev S_ : Shape := ⟨0, ![]⟩
abbrev S256x256 : Shape := ⟨2, ![256, 256]⟩
abbrev S1x256x256x1 : Shape := ⟨4, ![1, 256, 256, 1]⟩
abbrev S1 : Shape := ⟨1, ![1]⟩
abbrev S256 : Shape := ⟨1, ![256]⟩
abbrev S128x256x1 : Shape := ⟨3, ![128, 256, 1]⟩
abbrev S128x256x1x1 : Shape := ⟨4, ![128, 256, 1, 1]⟩
abbrev S128x1x256x1 : Shape := ⟨4, ![128, 1, 256, 1]⟩
abbrev S128x1x1 : Shape := ⟨3, ![128, 1, 1]⟩
abbrev S128x1x1x1 : Shape := ⟨4, ![128, 1, 1, 1]⟩
abbrev S128x256x513x1 : Shape := ⟨4, ![128, 256, 513, 1]⟩
abbrev S128x131328 : Shape := ⟨2, ![128, 131328]⟩
abbrev S128x768 : Shape := ⟨2, ![128, 768]⟩
abbrev S1x768 : Shape := ⟨2, ![1, 768]⟩
abbrev S128x10 : Shape := ⟨2, ![128, 10]⟩
abbrev S1x10 : Shape := ⟨2, ![1, 10]⟩

abbrev nBuf : Space → Nat
  | .hbm => 102
  | .vmem => 0
  | .smem => 0
  | _ => 0

abbrev bufTy : (tb : Table) → Fin (tcTables nBuf tb) → BufTy
  | .hbm, ⟨0, _⟩ => ⟨S128x256x256x1, .f32⟩
  | .hbm, ⟨1, _⟩ => ⟨S131328x768, .f32⟩
  | .hbm, ⟨2, _⟩ => ⟨S768, .f32⟩
  | .hbm, ⟨3, _⟩ => ⟨S768x10, .f32⟩
  | .hbm, ⟨4, _⟩ => ⟨S10, .f32⟩
  | .hbm, ⟨5, _⟩ => ⟨S10x10, .f32⟩
  | .hbm, ⟨6, _⟩ => ⟨S10, .f32⟩
  | .hbm, ⟨7, _⟩ => ⟨S_, .f32⟩
  | .hbm, ⟨8, _⟩ => ⟨S256x256, .f32⟩
  | .hbm, ⟨9, _⟩ => ⟨S256x256, .i32⟩
  | .hbm, ⟨10, _⟩ => ⟨S_, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S1x256x256x1, .f32⟩
  | .hbm, ⟨19, _⟩ => ⟨S_, .f32⟩
  | .hbm, ⟨20, _⟩ => ⟨S256x256, .f32⟩
  | .hbm, ⟨21, _⟩ => ⟨S_, .i32⟩
  | .hbm, ⟨22, _⟩ => ⟨S1, .i32⟩
  | .hbm, ⟨23, _⟩ => ⟨S_, .f32⟩
  | .hbm, ⟨24, _⟩ => ⟨S256, .f32⟩
  | .hbm, ⟨25, _⟩ => ⟨S256x256, .f32⟩
  | .hbm, ⟨26, _⟩ => ⟨S_, .i32⟩
  | .hbm, ⟨27, _⟩ => ⟨S1, .i32⟩
  | .hbm, ⟨28, _⟩ => ⟨S_, .f32⟩
  | .hbm, ⟨29, _⟩ => ⟨S256, .f32⟩
  | .hbm, ⟨30, _⟩ => ⟨S256x256, .f32⟩
  | .hbm, ⟨31, _⟩ => ⟨S1x256x256x1, .f32⟩
  | .hbm, ⟨32, _⟩ => ⟨S128x256x256x1, .f32⟩
  | .hbm, ⟨33, _⟩ => ⟨S128x256x256x1, .f32⟩
  | .hbm, ⟨34, _⟩ => ⟨S_, .f32⟩
  | .hbm, ⟨35, _⟩ => ⟨S128x256x1, .f32⟩
  | .hbm, ⟨36, _⟩ => ⟨S128x256x1x1, .f32⟩
  | .hbm, ⟨37, _⟩ => ⟨S_, .f32⟩
  | .hbm, ⟨38, _⟩ => ⟨S128x256x1, .f32⟩
  | .hbm, ⟨39, _⟩ => ⟨S128x1x256x1, .f32⟩
  | .hbm, ⟨40, _⟩ => ⟨S128x256x256x1, .f32⟩
  | .hbm, ⟨41, _⟩ => ⟨S128x256x256x1, .f32⟩
  | .hbm, ⟨42, _⟩ => ⟨S128x256x256x1, .f32⟩
  | .hbm, ⟨43, _⟩ => ⟨S_, .f32⟩
  | .hbm, ⟨44, _⟩ => ⟨S128x256x256x1, .f32⟩
  | .hbm, ⟨45, _⟩ => ⟨S128x256x256x1, .f32⟩
  | .hbm, ⟨46, _⟩ => ⟨S128x256x256x1, .f32⟩
  | .hbm, ⟨47, _⟩ => ⟨S128x256x1x1, .f32⟩
  | .hbm, ⟨48, _⟩ => ⟨S_, .f32⟩
  | .hbm, ⟨49, _⟩ => ⟨S128x256x1, .f32⟩
  | .hbm, ⟨50, _⟩ => ⟨S128x256x1x1, .f32⟩
  | .hbm, ⟨51, _⟩ => ⟨S_, .f32⟩
  | .hbm, ⟨52, _⟩ => ⟨S128x1x1, .f32⟩
  | .hbm, ⟨53, _⟩ => ⟨S128x1x1x1, .f32⟩
  | .hbm, ⟨54, _⟩ => ⟨S128x256x1x1, .f32⟩
  | .hbm, ⟨55, _⟩ => ⟨S128x256x1x1, .f32⟩
  | .hbm, ⟨56, _⟩ => ⟨S_, .f32⟩
  | .hbm, ⟨57, _⟩ => ⟨S128x256x1x1, .f32⟩
  | .hbm, ⟨58, _⟩ => ⟨S128x256x1x1, .f32⟩
  | .hbm, ⟨59, _⟩ => ⟨S128x256x1x1, .f32⟩
  | .hbm, ⟨60, _⟩ => ⟨S128x256x1x1, .f32⟩
  | .hbm, ⟨61, _⟩ => ⟨S128x256x256x1, .f32⟩
  | .hbm, ⟨62, _⟩ => ⟨S128x256x256x1, .f32⟩
  | .hbm, ⟨63, _⟩ => ⟨S128x256x256x1, .f32⟩
  | .hbm, ⟨64, _⟩ => ⟨S_, .f32⟩
  | .hbm, ⟨65, _⟩ => ⟨S128x256x1, .f32⟩
  | .hbm, ⟨66, _⟩ => ⟨S128x256x1x1, .f32⟩
  | .hbm, ⟨67, _⟩ => ⟨S_, .f32⟩
  | .hbm, ⟨68, _⟩ => ⟨S128x256x1, .f32⟩
  | .hbm, ⟨69, _⟩ => ⟨S128x1x256x1, .f32⟩
  | .hbm, ⟨70, _⟩ => ⟨S128x256x256x1, .f32⟩
  | .hbm, ⟨71, _⟩ => ⟨S128x256x256x1, .f32⟩
  | .hbm, ⟨72, _⟩ => ⟨S128x256x256x1, .f32⟩
  | .hbm, ⟨73, _⟩ => ⟨S_, .f32⟩
  | .hbm, ⟨74, _⟩ => ⟨S128x256x256x1, .f32⟩
  | .hbm, ⟨75, _⟩ => ⟨S128x256x256x1, .f32⟩
  | .hbm, ⟨76, _⟩ => ⟨S128x256x256x1, .f32⟩
  | .hbm, ⟨77, _⟩ => ⟨S128x256x1x1, .f32⟩
  | .hbm, ⟨78, _⟩ => ⟨S128x256x256x1, .f32⟩
  | .hbm, ⟨79, _⟩ => ⟨S128x256x256x1, .f32⟩
  | .hbm, ⟨80, _⟩ => ⟨S128x256x256x1, .f32⟩
  | .hbm, ⟨81, _⟩ => ⟨S128x256x256x1, .f32⟩
  | .hbm, ⟨82, _⟩ => ⟨S128x256x513x1, .f32⟩
  | .hbm, ⟨83, _⟩ => ⟨S128x131328, .f32⟩
  | .hbm, ⟨84, _⟩ => ⟨S128x768, .f32⟩
  | .hbm, ⟨85, _⟩ => ⟨S1x768, .f32⟩
  | .hbm, ⟨86, _⟩ => ⟨S128x768, .f32⟩
  | .hbm, ⟨87, _⟩ => ⟨S128x768, .f32⟩
  | .hbm, ⟨88, _⟩ => ⟨S_, .f32⟩
  | .hbm, ⟨89, _⟩ => ⟨S128x768, .f32⟩
  | .hbm, ⟨90, _⟩ => ⟨S128x768, .f32⟩
  | .hbm, ⟨91, _⟩ => ⟨S128x10, .f32⟩
  | .hbm, ⟨92, _⟩ => ⟨S1x10, .f32⟩
  | .hbm, ⟨93, _⟩ => ⟨S128x10, .f32⟩
  | .hbm, ⟨94, _⟩ => ⟨S128x10, .f32⟩
  | .hbm, ⟨95, _⟩ => ⟨S_, .f32⟩
  | .hbm, ⟨96, _⟩ => ⟨S128x10, .f32⟩
  | .hbm, ⟨97, _⟩ => ⟨S128x10, .f32⟩
  | .hbm, ⟨98, _⟩ => ⟨S128x10, .f32⟩
  | .hbm, ⟨99, _⟩ => ⟨S1x10, .f32⟩
  | .hbm, ⟨100, _⟩ => ⟨S128x10, .f32⟩
  | .hbm, ⟨101, _⟩ => ⟨S128x10, .f32⟩
  | _, _ => ⟨S128x256x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_c_2 : Ref sig .tc := ⟨.hbm, 26, rfl⟩
abbrev main_v7 : Ref sig .tc := ⟨.hbm, 27, rfl⟩
abbrev main_cst_3 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_cst_5 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_9 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_cst_11 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_12 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call1_cst : Ref sig .tc := ⟨.hbm, 88, rfl⟩
abbrev main_call1_v0 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_cst : Ref sig .tc := ⟨.hbm, 95, rfl⟩
abbrev main_call2_v0 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S1x256x256x1_1_2 : S256x256.BroadcastsInDim S1x256x256x1 (![1, 2] : Fin 2 → Fin S1x256x256x1.rank)
  bcast_S_S1 : S_.BroadcastsInDim S1 (![] : Fin 0 → Fin S1.rank)
  bcast_S_S256 : S_.BroadcastsInDim S256 (![] : Fin 0 → Fin S256.rank)
  bcast_S1x256x256x1_S128x256x256x1_0_1_2_3 : S1x256x256x1.BroadcastsInDim S128x256x256x1 (![0, 1, 2, 3] : Fin 4 → Fin S128x256x256x1.rank)
  reducesTo_S128x256x256x1_S128x256x1_d2 : S128x256x256x1.ReducesTo [2] S128x256x1
  h_S_ : 0 < S_.numel
  bcast_S128x256x1_S128x256x1x1_0_1_3 : S128x256x1.BroadcastsInDim S128x256x1x1 (![0, 1, 3] : Fin 3 → Fin S128x256x1x1.rank)
  reducesTo_S128x256x256x1_S128x256x1_d1 : S128x256x256x1.ReducesTo [1] S128x256x1
  bcast_S128x256x1_S128x1x256x1_0_2_3 : S128x256x1.BroadcastsInDim S128x1x256x1 (![0, 2, 3] : Fin 3 → Fin S128x1x256x1.rank)
  bcast_S128x256x1x1_S128x256x256x1_0_1_2_3 : S128x256x1x1.BroadcastsInDim S128x256x256x1 (![0, 1, 2, 3] : Fin 4 → Fin S128x256x256x1.rank)
  bcast_S128x1x256x1_S128x256x256x1_0_1_2_3 : S128x1x256x1.BroadcastsInDim S128x256x256x1 (![0, 1, 2, 3] : Fin 4 → Fin S128x256x256x1.rank)
  bcast_S_S128x256x256x1 : S_.BroadcastsInDim S128x256x256x1 (![] : Fin 0 → Fin S128x256x256x1.rank)
  slices_S128x256x256x1_S128x256x1x1_0_0_0_0 : S128x256x256x1.Slices ![0, 0, 0, 0] S128x256x1x1
  reducesTo_S128x256x1x1_S128x256x1_d2 : S128x256x1x1.ReducesTo [2] S128x256x1
  reducesTo_S128x256x1x1_S128x1x1_d1 : S128x256x1x1.ReducesTo [1] S128x1x1
  bcast_S128x1x1_S128x1x1x1_0_2_3 : S128x1x1.BroadcastsInDim S128x1x1x1 (![0, 2, 3] : Fin 3 → Fin S128x1x1x1.rank)
  bcast_S128x1x1x1_S128x256x1x1_0_1_2_3 : S128x1x1x1.BroadcastsInDim S128x256x1x1 (![0, 1, 2, 3] : Fin 4 → Fin S128x256x1x1.rank)
  bcast_S_S128x256x1x1 : S_.BroadcastsInDim S128x256x1x1 (![] : Fin 0 → Fin S128x256x1x1.rank)
  concatenates_S128x256x1x1_S128x256x256x1_S128x256x256x1_S128x256x513x1_d2 : Shape.Concatenates [S128x256x1x1, S128x256x256x1, S128x256x256x1] S128x256x513x1 2
  shapeCasts_S128x256x513x1_S128x131328 : S128x256x513x1.ShapeCasts S128x131328
  bcast_S768_S1x768_1 : S768.BroadcastsInDim S1x768 (![1] : Fin 1 → Fin S1x768.rank)
  bcast_S1x768_S128x768_0_1 : S1x768.BroadcastsInDim S128x768 (![0, 1] : Fin 2 → Fin S128x768.rank)
  bcast_S_S128x768 : S_.BroadcastsInDim S128x768 (![] : Fin 0 → Fin S128x768.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  bcast_S_S128x10 : S_.BroadcastsInDim S128x10 (![] : Fin 0 → Fin S128x10.rank)
  scatter_S256x256_S1_S256_0_0_0_0_wf : ScatterDims.WF S256x256 S1 S256 [0] [0] [0] 0
  scatter_S256x256_S1_S256_0_1_1_0_wf : ScatterDims.WF S256x256 S1 S256 [0] [1] [1] 0
  dot_S128x131328_S131328x768_S128x768_1_0_0_1_n_n_wf : DotDims.WF S128x131328 S131328x768 S128x768 [1] [0] [0] [1] [] []
  dot_S128x768_S768x10_S128x10_1_0_0_1_n_n_wf : DotDims.WF S128x768 S768x10 S128x10 [1] [0] [0] [1] [] []
  dot_S128x10_S10x10_S128x10_1_0_0_1_n_n_wf : DotDims.WF S128x10 S10x10 S128x10 [1] [0] [0] [1] [] []

variable [Facts₀]

def scatter_S256x256_S1_S256_0_0_0_0 : ScatterDims S256x256 S1 S256 where
  updateWindowDims := [0]
  insertedWindowDims := [0]
  scatterDimsToOperandDims := [0]
  indexVectorDim := 0
  wf := scatter_S256x256_S1_S256_0_0_0_0_wf
def scatter_S256x256_S1_S256_0_1_1_0 : ScatterDims S256x256 S1 S256 where
  updateWindowDims := [0]
  insertedWindowDims := [1]
  scatterDimsToOperandDims := [1]
  indexVectorDim := 0
  wf := scatter_S256x256_S1_S256_0_1_1_0_wf
def dot_S128x131328_S131328x768_S128x768_1_0_0_1_n_n : DotDims S128x131328 S131328x768 S128x768 where
  lhsContracting := [1]
  rhsContracting := [0]
  lhsNonContracting := [0]
  rhsNonContracting := [1]
  lhsBatch := []
  rhsBatch := []
  wf := dot_S128x131328_S131328x768_S128x768_1_0_0_1_n_n_wf
def dot_S128x768_S768x10_S128x10_1_0_0_1_n_n : DotDims S128x768 S768x10 S128x10 where
  lhsContracting := [1]
  rhsContracting := [0]
  lhsNonContracting := [0]
  rhsNonContracting := [1]
  lhsBatch := []
  rhsBatch := []
  wf := dot_S128x768_S768x10_S128x10_1_0_0_1_n_n_wf
def dot_S128x10_S10x10_S128x10_1_0_0_1_n_n : DotDims S128x10 S10x10 S128x10 where
  lhsContracting := [1]
  rhsContracting := [0]
  lhsNonContracting := [0]
  rhsNonContracting := [1]
  lhsBatch := []
  rhsBatch := []
  wf := dot_S128x10_S10x10_S128x10_1_0_0_1_n_n_wf

class Facts : Prop extends Facts₀ where

variable [Facts]
-- ==== Proof.KI.Region0.lean ====
/-
  The first kernel's half of the frame: per grid point it loads a block of 16 images, and writes the block's 16 x 256
  rows of 513 features with three stores (column 0, columns 1..256, columns 257..512).
-/
import proofs.«125702_j58712202936346_2_alg».proof.Proof.Gen.KernelIdeal.Launch
import proofs.«125702_j58712202936346_2_alg».proof.Proof.Gen.KernelIdeal.Skeleton
import proofs.«125702_j58712202936346_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rin0 : Rect S16x256x256x1 := Rect.unit (s := S16x256x256x1) ![0, 0, 0, 0] S16x256x256x1.size inb_S16x256x256x1_S16x256x256x1_0_0_0_0
abbrev r0_a : Rect S16x256x513 := Rect.unit (s := S16x256x513) ![0, 0, 0] S16x256x1.size inb_S16x256x513_S16x256x1_0_0_0
abbrev r0_b : Rect S16x256x513 := Rect.unit (s := S16x256x513) ![0, 0, 1] S16x256x256.size inb_S16x256x513_S16x256x256_0_0_1
abbrev r0_c : Rect S16x256x513 := Rect.unit (s := S16x256x513) ![0, 0, 257] S16x256x256.size inb_S16x256x513_S16x256x256_0_0_257

/-- The output block after the body, from the input block: its three stores as pieces, last first. -/
def out0_1 (x0 : Vec F S16x256x256x1 .f32) : Vec F S16x256x513 .bf16 :=
  View.canon [⟨r0_c, k0_pay3 (k0_pay6 (View.ld x0 rin0))⟩,
    ⟨r0_b, k0_pay2 (k0_pay5 (F := F)) (k0_pay6 (View.ld x0 rin0))⟩,
    ⟨r0_a, k0_pay1 (k0_pay7 (F := F)) (k0_pay8 (View.ld x0 rin0))⟩]

/-- The three column ranges [0,1), [1,257), [257,513) exhaust the 513 columns, so the three stores cover the block. -/
theorem cover0_1 (p0 : r0_c.shape.Idx → Elt F .bf16) (p1 : r0_b.shape.Idx → Elt F .bf16) (p2 : r0_a.shape.Idx → Elt F .bf16) (y : S16x256x513.Idx) :
    ∃ pc ∈ ([⟨r0_c, p0⟩, ⟨r0_b, p1⟩, ⟨r0_a, p2⟩] : List (View.Piece (Elt F) S16x256x513 .bf16)), y ∈ pc.1.set := by
  have h0 : (y 0).val < 16 := (y 0).isLt
  have h1 : (y 1).val < 256 := (y 1).isLt
  have h2 : (y 2).val < 513 := (y 2).isLt
  by_cases hc : 257 ≤ (y 2).val
  · refine ⟨⟨r0_c, p0⟩, List.mem_cons_self, ?_⟩
    show y ∈ r0_c.set
    refine (Rect.mem_set_unit (s := S16x256x513)).mpr fun a => ?_
    fin_cases a
    · exact ⟨Nat.zero_le _, h0⟩
    · exact ⟨Nat.zero_le _, h1⟩
    · exact ⟨hc, h2⟩
  by_cases hb : 1 ≤ (y 2).val
  · refine ⟨⟨r0_b, p1⟩, List.mem_cons_of_mem _ List.mem_cons_self, ?_⟩
    show y ∈ r0_b.set
    refine (Rect.mem_set_unit (s := S16x256x513)).mpr fun a => ?_
    fin_cases a
    · exact ⟨Nat.zero_le _, h0⟩
    · exact ⟨Nat.zero_le _, h1⟩
    · exact ⟨hb, by show (y 2).val < 1 + 256; omega⟩
  · refine ⟨⟨r0_a, p2⟩, List.mem_cons_of_mem _ (List.mem_cons_of_mem _ List.mem_cons_self), ?_⟩
    show y ∈ r0_a.set
    refine (Rect.mem_set_unit (s := S16x256x513)).mpr fun a => ?_
    fin_cases a
    · exact ⟨Nat.zero_le _, h0⟩
    · exact ⟨Nat.zero_le _, h1⟩
    · exact ⟨Nat.zero_le _, by show (y 2).val < 0 + 1; omega⟩

set_option maxHeartbeats 1000000 in
/-- The kernel body on whole staging memrefs, the input's at read contents x0 and the output's at anything, runs to the
    continuation holding the input's as it was and the output's at out0_1 of the input. -/
theorem sound_kernel0 (c : Dev nD) (E : Set ℕ) (i : grid0.Coords) (arg0 : Memref sig .tc .vmem S16x256x256x1 .f32) (harg0 : arg0.IsWhole)
    (arg1 : Memref sig .tc .vmem S16x256x513 .bf16) (harg1 : arg1.IsWhole)
    (x0 : Vec F S16x256x256x1 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_cross_conv_kernel i arg0 harg0 arg1 harg1) K := by
  simp only [cc0_cross_conv_kernel_eq_skeleton]; unfold cc0_cross_conv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so sound_kernel0 applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
/-
  The second kernel on any staging memrefs, case by case. Its two conditionals depend on the grid coordinate only:
  the first (zero the accumulator) holds at point 0, the second (read the accumulator out through the two small dense
  layers) at point 37. In every case the body loads its two blocks and the accumulator and stores their product added
  to the accumulator over the whole accumulator.
-/
import proofs.«125702_j58712202936346_2_alg».proof.Proof.Gen.KernelIdeal.Launch
import proofs.«125702_j58712202936346_2_alg».proof.Proof.Gen.KernelIdeal.Skeleton
import proofs.«125702_j58712202936346_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions, in closed form over the grid -/

/-- The first conditional's condition: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 38 = 0 :=
  (by decide +kernel : ∀ t : Fin grid1.N, cond1_0 (grid1.coords t) ↔ t.val % 38 = 0)

/-- The second conditional's condition: the grid coordinate is 37. -/
abbrev cond1_1 (i : grid1.Coords) : Prop := k1_cond2 i = 1#1
theorem hcond1_1 : ∀ t : Fin cfg1.N, cond1_1 (grid1.coords t) ↔ t.val % 38 = 37 :=
  (by decide +kernel : ∀ t : Fin grid1.N, cond1_1 (grid1.coords t) ↔ t.val % 38 = 37)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last point the body stores nothing into the output's buffer, and the block is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last point it stores the result there. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S128x3456 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3456x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x10 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S128x768 .f32 := Memref.whole cc1_scratch0
abbrev VS1 : View sig .tc .vmem S128x768 .f32 := scM1.view
/-- One staging buffer of the output window, through which its contents are stated. -/
abbrev VO1 : View sig .tc .vmem S128x10 .f32 := (Memref.whole cc1_stg7_0 : Memref sig .tc .vmem S128x10 .f32).view

/-! ## The scoped buffers no window of this kernel stages -/

/-- The first kernel's four staging buffers at anything, beside the accumulator at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- What the region is entered with: those buffers, the accumulator at anything, the generator register at some state. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA scoped1; rw [scopedRest1_eq]; simp only [scM1, owns_whole]; try rfl

/-! ## The body's runs -/

set_option maxHeartbeats 1000000 in
/-- Point 0: the accumulator, found at anything, is zeroed and then accumulated into; the stores into it, last first. -/
noncomputable def kernelRun1_A (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : cond1_0 i) (hc1 : ¬cond1_1 i)
    (x0 : Vec F S128x3456 .bf16) (x1 : Vec F S3456x768 .f32) :
    { LS0 : List (View.Piece (Elt F) S128x768 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, fun E K => ?run⟩
  case run =>
    simp only [cc1_matmul_kernel_eq_skeleton]; unfold cc1_matmul_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Points 1..36: the accumulator, found at `xs0`, is accumulated into. -/
noncomputable def kernelRun1_B (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : ¬cond1_0 i) (hc1 : ¬cond1_1 i)
    (x0 : Vec F S128x3456 .bf16) (x1 : Vec F S3456x768 .f32) (xs0 : Vec F S128x768 .f32) :
    { LS0 : List (View.Piece (Elt F) S128x768 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, fun E K => ?run⟩
  case run =>
    simp only [cc1_matmul_kernel_eq_skeleton]; unfold cc1_matmul_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 2000000 in
/-- Point 37: the accumulator, found at `xs0`, is accumulated into and read out through the two dense layers into the
    output's buffer, found at anything. -/
noncomputable def kernelRun1_C (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : ¬cond1_0 i) (hc1 : cond1_1 i)
    (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32) :
    Σ' (L7 : List (View.Piece (Elt F) S128x10 .f32)), { LS0 : List (View.Piece (Elt F) S128x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Hand

end
-- ==== Proof.KI.Region1.lean ====
/-
  The second kernel's half of the frame: 38 grid points, each adding one block product into an accumulator the kernel
  keeps between points; the first point zeroes it, the last reads it for the two small dense layers.

  Every store of this kernel rewrites a whole buffer, so what a buffer holds after the body is the last store's payload:
  after point 0 the accumulator is the blocks' product added to the zero fill, after a later point the product added to
  what the point before left, and at the last point the output's buffer is the dense layers of the new accumulator.
-/
import proofs.«125702_j58712202936346_2_alg».proof.Proof.KI.Region1Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Whole-buffer stores and loads -/

theorem h00 : (![0, 0] : Fin 2 → ℕ) = fun _ => 0 := by funext a; fin_cases a <;> rfl

/-- After stores (last first) the last of which rewrote the whole buffer, the buffer reads that store's payload. -/
theorem read_writes_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load of the whole of a whole memref's buffer reads its contents. -/
theorem readAt_unread_whole {sig' : RefSig} {κ : Kind} {sp : Space} {S : Shape} {e : EltTy} {Val : EltTy → Type}
    (m : Memref sig' κ sp S e) (hm : m.IsWhole) {off : Fin S.rank → ℕ} (h : off = fun _ => 0)
    (inb : ∀ a, off a + S.size a ≤ S.size a) (x : S.Idx → Val e) :
    m.view.readAt Val (Rect.unit off S.size inb).toLoadRect (hm.unread x) = x := by
  rw [View.readAt_eq_ld, hm.read_unread, View.ld_unit_zero h inb]

/-! ## What the runs' stores leave, read back -/

section ReadBack
variable (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole)

theorem sread1_A (hc0 : cond1_0 i) (hc1 : ¬cond1_1 i) (x0 : Vec F S128x3456 .bf16) (x1 : Vec F S3456x768 .f32)
    (f : arg9.view.ty.Contents (Elt F)) :
    arg9.view.read (Elt F) (arg9.view.writes (Elt F) f (kernelRun1_A c i arg1 harg1 arg2 harg2 arg3 harg3 arg4 harg4 arg5 harg5 arg6 harg6 arg7 harg7 arg8 harg8 arg9 harg9 hc0 hc1 x0 x1).1)
      = k1_pay2 x0 x1 (k1_pay1 (F := F)) := by
  have e : kernelRun1_A.sl.v7 (F := F) c arg9 = k1_pay1 (F := F) := by
    unfold kernelRun1_A.sl.v7 kernelRun1_A.sl.HS0_1
    exact View.readCov_unit_zero arg9.view h00 _ _
  dsimp only [kernelRun1_A]
  refine (read_writes_whole arg9.view f h00 _ _ _).trans ?_
  rw [readAt_unread_whole arg1 harg1 h00, readAt_unread_whole arg2 harg2 h00, e]

theorem sread1_B (hc0 : ¬cond1_0 i) (hc1 : ¬cond1_1 i) (x0 : Vec F S128x3456 .bf16) (x1 : Vec F S3456x768 .f32) (xs0 : Vec F S128x768 .f32)
    (f : arg9.view.ty.Contents (Elt F)) :
    arg9.view.read (Elt F) (arg9.view.writes (Elt F) f (kernelRun1_B c i arg1 harg1 arg2 harg2 arg3 harg3 arg4 harg4 arg5 harg5 arg6 harg6 arg7 harg7 arg8 harg8 arg9 harg9 hc0 hc1 x0 x1 xs0).1)
      = k1_pay2 x0 x1 xs0 := by
  dsimp only [kernelRun1_B]
  refine (read_writes_whole arg9.view f h00 _ _ _).trans ?_
  rw [readAt_unread_whole arg1 harg1 h00, readAt_unread_whole arg2 harg2 h00, readAt_unread_whole arg9 harg9 h00]

theorem sread1_C (hc0 : ¬cond1_0 i) (hc1 : cond1_1 i) (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32)
    (f : arg9.view.ty.Contents (Elt F)) :
    arg9.view.read (Elt F) (arg9.view.writes (Elt F) f (kernelRun1_C c i arg1 harg1 arg2 harg2 arg3 harg3 arg4 harg4 arg5 harg5 arg6 harg6 arg7 harg7 arg8 harg8 arg9 harg9 hc0 hc1 x0 x1 x2 x3 x4 x5 x6 xs0).2.1)
      = k1_pay2 x0 x1 xs0 := by
  dsimp only [kernelRun1_C]
  unfold kernelRun1_C.sl.HS0_1
  refine (read_writes_whole arg9.view f h00 _ _ _).trans ?_
  rw [readAt_unread_whole arg1 harg1 h00, readAt_unread_whole arg2 harg2 h00, readAt_unread_whole arg9 harg9 h00]

theorem oread1_C (hc0 : ¬cond1_0 i) (hc1 : cond1_1 i) (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32)
    (f : arg8.view.ty.Contents (Elt F)) :
    arg8.view.read (Elt F) (arg8.view.writes (Elt F) f (kernelRun1_C c i arg1 harg1 arg2 harg2 arg3 harg3 arg4 harg4 arg5 harg5 arg6 harg6 arg7 harg7 arg8 harg8 arg9 harg9 hc0 hc1 x0 x1 x2 x3 x4 x5 x6 xs0).1)
      = k1_pay3 (k1_pay2 x0 x1 xs0) x2 x3 x4 x5 x6 := by
  have e : kernelRun1_C.sl.v16 (F := F) c arg1 harg1 arg2 harg2 arg9 harg9 x0 x1 xs0 = k1_pay2 x0 x1 xs0 := by
    unfold kernelRun1_C.sl.v16 kernelRun1_C.sl.HS0_1
    refine (View.readCov_unit_zero arg9.view h00 _ _).trans ?_
    rw [readAt_unread_whole arg1 harg1 h00, readAt_unread_whole arg2 harg2 h00, readAt_unread_whole arg9 harg9 h00]
  dsimp only [kernelRun1_C]
  refine (read_writes_whole arg8.view f h00 _ _ _).trans ?_
  rw [e, readAt_unread_whole arg3 harg3 h00, readAt_unread_whole arg4 harg4 h00, readAt_unread_whole arg5 harg5 h00, readAt_unread_whole arg6 harg6 h00, readAt_unread_whole arg7 harg7 h00]

end ReadBack

/-! ## What the output's buffer and the accumulator hold after each point -/

/-- What the output's staging buffer and the accumulator hold after the body at position n: the accumulator is the
    point's block product added to the zero fill (point 0) or to what the point before left; the output's buffer is the
    two dense layers of that accumulator — stored at the last point only, and consulted nowhere else. -/
def outsAt1 (V : (c : Dev nD) → (b : Ref sig .tc) → Buf (Elt F) ((c : Thread nD τ).loc b)) (c : Dev nD) :
    (n : ℕ) → n < cfg1.N → Vec F S128x10 .f32 × Vec F S128x768 .f32
  | 0, hn => (k1_pay3 (k1_pay2 (iblk1 V c 0 ⟨0, hn⟩) (iblk1 V c 1 ⟨0, hn⟩) (k1_pay1 (F := F))) (iblk1 V c 2 ⟨0, hn⟩) (iblk1 V c 3 ⟨0, hn⟩) (iblk1 V c 4 ⟨0, hn⟩) (iblk1 V c 5 ⟨0, hn⟩) (iblk1 V c 6 ⟨0, hn⟩),
      k1_pay2 (iblk1 V c 0 ⟨0, hn⟩) (iblk1 V c 1 ⟨0, hn⟩) (k1_pay1 (F := F)))
  | n + 1, hn => (k1_pay3 (k1_pay2 (iblk1 V c 0 ⟨n + 1, hn⟩) (iblk1 V c 1 ⟨n + 1, hn⟩) (outsAt1 V c n (Nat.lt_of_succ_lt hn)).2) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
      k1_pay2 (iblk1 V c 0 ⟨n + 1, hn⟩) (iblk1 V c 1 ⟨n + 1, hn⟩) (outsAt1 V c n (Nat.lt_of_succ_lt hn)).2)

theorem outsAt1_zero (c : Dev nD) (t : Fin cfg1.N) (hz : t.val = 0) :
    outsAt1 V c t.val t.isLt = (k1_pay3 (k1_pay2 (iblk1 V c 0 t) (iblk1 V c 1 t) (k1_pay1 (F := F))) (iblk1 V c 2 t) (iblk1 V c 3 t) (iblk1 V c 4 t) (iblk1 V c 5 t) (iblk1 V c 6 t), k1_pay2 (iblk1 V c 0 t) (iblk1 V c 1 t) (k1_pay1 (F := F))) := by
  obtain ⟨n, hn⟩ := t
  cases n with
  | zero => rfl
  | succ n => exact absurd hz (Nat.succ_ne_zero _)

theorem outsAt1_pos (c : Dev nD) (t : Fin cfg1.N) (hz : t.val ≠ 0) :
    outsAt1 V c t.val t.isLt = (k1_pay3 (k1_pay2 (iblk1 V c 0 t) (iblk1 V c 1 t) (outsAt1 V c (t.val - 1) (Nat.lt_of_le_of_lt (Nat.sub_le _ _) t.isLt)).2) (iblk1 V c 2 t) (iblk1 V c 3 t) (iblk1 V c 4 t) (iblk1 V c 5 t) (iblk1 V c 6 t),
      k1_pay2 (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => rfl

/-- The region's invariant before position n: before the first point what the region is entered with; afterwards the
    first kernel's staging buffers at anything, the accumulator at what the point before left, and the generator
    register at some state. -/
def PhiS1 (V : (c : Dev nD) → (b : Ref sig .tc) → Buf (Elt F) ((c : Thread nD τ).loc b)) (c : Dev nD) :
    (n : ℕ) → n ≤ cfg1.N → sProp 𝕄
  | 0, _ => Pipeline.ΦA spec1 c
  | n + 1, hn => iprop(scoped1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not: where it is not fetched
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]

set_option maxHeartbeats 4800000 in
/-- The body at any point. The inputs' memrefs hold their blocks; the closed forms of the two conditions say which case
    the point is in, and that case's run applies: the invariant hands it the accumulator at what the point before left
    (at anything at the first point) and takes it back at this point's contents; away from the last point the output's
    buffer is handed back as found, at the last point it holds the dense layers of the new accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 38 := lt_of_lt_of_eq t.isLt (show cfg1.N = 38 from N_1)
  by_cases h0 : t.val % 38 = 0
  · have h1 : ¬t.val % 38 = 37 := by omega
    have hz : t.val = 0 := by omega
    rw [Dat.leavesExact_idle (dat1 V c) 7 t (idleAt1_7 t (fun h => h1 ((hcond1_1 t).mp h))) (noFlush1_7 t (fun h => h1 ((hcond1_1 t).mp h)))]
    rw [outsAt1_zero V c t hz]; dsimp only
    rw [PhiS1_castSucc V c t, PhiS1_zero V c _ _ hz, PhiA1_eq]
    unfold scoped1
    iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [Ha Hb Hc Hd HS0 Hg]
    · isplitl [Ha Hb Hc Hd HS0]
      · isplitl [Ha]; · iexact Ha
        isplitl [Hb]; · iexact Hb
        isplitl [Hc]; · iexact Hc
        isplitl [Hd]; · iexact Hd
        unfold owns; iexists _; isplitr
        swap; · iexact HS0
        ipureintro; exact sread1_A c _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := by omega
    rw [outsAt1_pos V c t hz]; dsimp only
    rw [PhiS1_castSucc V c t, PhiS1_pos V c _ _ hz]
    unfold scoped1
    by_cases h1 : t.val % 38 = 37
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_pos V c t hz]; dsimp only
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact sread1_C c _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact oread1_C c _ _ _ _ _ _ _ _ _ _ _ _ _ _ _ _ _ _ _ _ _ _ _ _ _ _ _ _ _ _
    · rw [Dat.leavesExact_idle (dat1 V c) 7 t (idleAt1_7 t (fun h => h1 ((hcond1_1 t).mp h))) (noFlush1_7 t (fun h => h1 ((hcond1_1 t).mp h)))]
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact sread1_B c _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold scoped1
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 38 := N_1; omega)

end Cert.KernelIdeal.Hand

end
-- ==== Proof.KI.Run.lean ====
/-
  The run of the whole program: the first kernel's region, four reshapes on the host, the second kernel's region.

  The buffers' contents are followed from the launch memory through the three items: the first region leaves the
  feature block in its output array and everything else as it was; the reshapes write four new arrays; the second region
  leaves the result in its output array.  No item writes an argument array, so each argument ends as launched; and the
  result array ends at what the second region's write-back leaves.
-/
import proofs.«125702_j58712202936346_2_alg».proof.Proof.KI.Region0
import proofs.«125702_j58712202936346_2_alg».proof.Proof.KI.Region1
import proofs.«125702_j58712202936346_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: what the first region is entered from. -/
abbrev W0 : Dev nD → Valuation τ sig (Elt F) := fun c b => m ((c : Dev nD), b)
/-- The same read at the core's own references. -/
abbrev U0 : (c : Dev nD) → (b : Ref sig .tc) → Buf (Elt F) ((c : Thread nD τ).loc b) := fun c b => W0 m c b
/-- After the first region: its arrays at what its write-backs leave, every other buffer as entered. -/
def W2 (c : Dev nD) : Valuation τ sig (Elt F) :=
  Pipeline.withArrays spec0 c (W0 m c) fun w => (dat0 (U0 m) c).arrAt w cfg0.N
theorem W2_arr (c : Dev nD) (w : Fin cfg0.W) :
    W2 m c (Proc.devRef .tc (Pipeline.arrRef spec0 w)) = (dat0 (U0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U0 m) c).arrAt w cfg0.N = U2 m c (Pipeline.arrRef spec0 w) :=
  (W2_arr m c w).symm
theorem hrest0 (c : Dev nD) : ∀ b, b ∉ Finset.univ.image (Pipeline.arrRef spec0) → U2 m c b = U0 m c b :=
  fun b hb => W2_of_ne m c b fun w e => hb (Finset.mem_image.mpr ⟨w, Finset.mem_univ _, e⟩)

/-- After the four reshapes: what the second region is entered from. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- A buffer the reshapes do not write is unchanged by them. -/
theorem W3_of (c : Dev nD) (r : Ref sig .tc) (h : r ∉ hostOps1_W) : W3 m c r = W2 m c r :=
  StableHlo.after_of_writes_sub hostOps1 _ hostOps1_writes h

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W0 m c (Proc.devRef .tc main_arg0) := (W2_arr m c 0).trans (((dat0 (U0 m) c).arrAt_in 0 rfl _).trans (A_eq0 (U0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (U3 m) c).arrAt_in 1 rfl _).trans (A_eq1 (U3 m) c 1))
    _ = W2 m c (Proc.devRef .tc main_arg1) := W3_of m c main_arg1 (by decide)
    _ = W0 m c (Proc.devRef .tc main_arg1) := W2_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W0 m c (Proc.devRef .tc main_arg2) := W2_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 3).trans (((dat1 (U3 m) c).arrAt_in 3 rfl _).trans (A_eq1 (U3 m) c 3))
    _ = W2 m c (Proc.devRef .tc main_arg3) := W3_of m c main_arg3 (by decide)
    _ = W0 m c (Proc.devRef .tc main_arg3) := W2_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W0 m c (Proc.devRef .tc main_arg4) := W2_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 5).trans (((dat1 (U3 m) c).arrAt_in 5 rfl _).trans (A_eq1 (U3 m) c 5))
    _ = W2 m c (Proc.devRef .tc main_arg5) := W3_of m c main_arg5 (by decide)
    _ = W0 m c (Proc.devRef .tc main_arg5) := W2_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W0 m c (Proc.devRef .tc main_arg6) := W2_of_ne m c main_arg6 (by decide)
    _ = m ((c : Thread nD τ).loc main_arg6) := rfl

/-- The result array ends at what the second region's write-back leaves. -/
theorem W4_main_v5 (c : Dev nD) : W4 m c (Proc.devRef .tc main_v5) = (dat1 (U3 m) c).arrAt 7 cfg1.N := W4_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The reshapes as one item. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- The first region: entered from the launch contents, left with its output array rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered after the reshapes, left with the result array written; its invariant is the class's
    before the first point and gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .region (reg0 m),
    .host (hseg (W2 m)),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates, and every unscoped buffer of
    every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.KernelIdeal.Hand

end
-- ==== Proof.K.Region0.lean ====
/-
  The first kernel's half of the frame: per grid point it loads a block of 16 images, and writes the block's 16 x 256
  rows of 513 features with three stores (column 0, columns 1..256, columns 257..512).
-/
import proofs.«125702_j58712202936346_2_alg».proof.Proof.Gen.Kernel.Launch
import proofs.«125702_j58712202936346_2_alg».proof.Proof.Gen.Kernel.Skeleton
import proofs.«125702_j58712202936346_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev rin0 : Rect S16x256x256x1 := Rect.unit (s := S16x256x256x1) ![0, 0, 0, 0] S16x256x256x1.size inb_S16x256x256x1_S16x256x256x1_0_0_0_0
abbrev r0_a : Rect S16x256x513 := Rect.unit (s := S16x256x513) ![0, 0, 0] S16x256x1.size inb_S16x256x513_S16x256x1_0_0_0
abbrev r0_b : Rect S16x256x513 := Rect.unit (s := S16x256x513) ![0, 0, 1] S16x256x256.size inb_S16x256x513_S16x256x256_0_0_1
abbrev r0_c : Rect S16x256x513 := Rect.unit (s := S16x256x513) ![0, 0, 257] S16x256x256.size inb_S16x256x513_S16x256x256_0_0_257

/-- The output block after the body, from the input block: its three stores as pieces, last first. -/
def out0_1 (x0 : Vec F S16x256x256x1 .f32) : Vec F S16x256x513 .bf16 :=
  View.canon [⟨r0_c, k0_pay3 (k0_pay6 (View.ld x0 rin0))⟩,
    ⟨r0_b, k0_pay2 (k0_pay5 (F := F)) (k0_pay6 (View.ld x0 rin0))⟩,
    ⟨r0_a, k0_pay1 (k0_pay7 (F := F)) (k0_pay8 (View.ld x0 rin0))⟩]

/-- The three column ranges [0,1), [1,257), [257,513) exhaust the 513 columns, so the three stores cover the block. -/
theorem cover0_1 (p0 : r0_c.shape.Idx → Elt F .bf16) (p1 : r0_b.shape.Idx → Elt F .bf16) (p2 : r0_a.shape.Idx → Elt F .bf16) (y : S16x256x513.Idx) :
    ∃ pc ∈ ([⟨r0_c, p0⟩, ⟨r0_b, p1⟩, ⟨r0_a, p2⟩] : List (View.Piece (Elt F) S16x256x513 .bf16)), y ∈ pc.1.set := by
  have h0 : (y 0).val < 16 := (y 0).isLt
  have h1 : (y 1).val < 256 := (y 1).isLt
  have h2 : (y 2).val < 513 := (y 2).isLt
  by_cases hc : 257 ≤ (y 2).val
  · refine ⟨⟨r0_c, p0⟩, List.mem_cons_self, ?_⟩
    show y ∈ r0_c.set
    refine (Rect.mem_set_unit (s := S16x256x513)).mpr fun a => ?_
    fin_cases a
    · exact ⟨Nat.zero_le _, h0⟩
    · exact ⟨Nat.zero_le _, h1⟩
    · exact ⟨hc, h2⟩
  by_cases hb : 1 ≤ (y 2).val
  · refine ⟨⟨r0_b, p1⟩, List.mem_cons_of_mem _ List.mem_cons_self, ?_⟩
    show y ∈ r0_b.set
    refine (Rect.mem_set_unit (s := S16x256x513)).mpr fun a => ?_
    fin_cases a
    · exact ⟨Nat.zero_le _, h0⟩
    · exact ⟨Nat.zero_le _, h1⟩
    · exact ⟨hb, by show (y 2).val < 1 + 256; omega⟩
  · refine ⟨⟨r0_a, p2⟩, List.mem_cons_of_mem _ (List.mem_cons_of_mem _ List.mem_cons_self), ?_⟩
    show y ∈ r0_a.set
    refine (Rect.mem_set_unit (s := S16x256x513)).mpr fun a => ?_
    fin_cases a
    · exact ⟨Nat.zero_le _, h0⟩
    · exact ⟨Nat.zero_le _, h1⟩
    · exact ⟨Nat.zero_le _, by show (y 2).val < 0 + 1; omega⟩

set_option maxHeartbeats 1000000 in
/-- The kernel body on whole staging memrefs, the input's at read contents x0 and the output's at anything, runs to the
    continuation holding the input's as it was and the output's at out0_1 of the input. -/
theorem sound_kernel0 (c : Dev nD) (E : Set ℕ) (i : grid0.Coords) (arg0 : Memref sig .tc .vmem S16x256x256x1 .f32) (harg0 : arg0.IsWhole)
    (arg1 : Memref sig .tc .vmem S16x256x513 .bf16) (harg1 : arg1.IsWhole)
    (x0 : Vec F S16x256x256x1 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_cross_conv_kernel i arg0 harg0 arg1 harg1) K := by
  simp only [cc0_cross_conv_kernel_eq_skeleton]; unfold cc0_cross_conv_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so sound_kernel0 applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
/-
  The second kernel on any staging memrefs, case by case. Its two conditionals depend on the grid coordinate only:
  the first (zero the accumulator) holds at point 0, the second (read the accumulator out through the two small dense
  layers) at point 37. In every case the body loads its two blocks and the accumulator and stores their product added
  to the accumulator over the whole accumulator.
-/
import proofs.«125702_j58712202936346_2_alg».proof.Proof.Gen.Kernel.Launch
import proofs.«125702_j58712202936346_2_alg».proof.Proof.Gen.Kernel.Skeleton
import proofs.«125702_j58712202936346_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions, in closed form over the grid -/

/-- The first conditional's condition: the grid coordinate is 0. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 38 = 0 :=
  (by decide +kernel : ∀ t : Fin grid1.N, cond1_0 (grid1.coords t) ↔ t.val % 38 = 0)

/-- The second conditional's condition: the grid coordinate is 37. -/
abbrev cond1_1 (i : grid1.Coords) : Prop := k1_cond2 i = 1#1
theorem hcond1_1 : ∀ t : Fin cfg1.N, cond1_1 (grid1.coords t) ↔ t.val % 38 = 37 :=
  (by decide +kernel : ∀ t : Fin grid1.N, cond1_1 (grid1.coords t) ↔ t.val % 38 = 37)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Away from the last point the body stores nothing into the output's buffer, and the block is not written back. -/
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
/-- At the last point it stores the result there. -/
theorem liveAt1_7 : ∀ t : Fin cfg1.N, cond1_1 (grid1.coords t) → cfg1.idle 7 (grid1.coords t) = false := by decide +kernel

/-! ## The memrefs the body is called with -/

abbrev ms1_0 (t : Fin cfg1.N) : Memref sig .tc .vmem S128x3456 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3456x768 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S768x10 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x10 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10x10 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x10 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S128x10 .f32 := win1_7.stage (cfg1.slots t 7)
abbrev hs1_7 (t : Fin cfg1.N) : (ms1_7 t).IsWhole := hstage1_7 ((cfg1.slots t 7).cast nbuf1_7)
/-- The accumulator: a whole scoped buffer of the kernel's own, passed beside the windows. -/
abbrev scM1 : Memref sig .tc .vmem S128x768 .f32 := Memref.whole cc1_scratch0
abbrev VS1 : View sig .tc .vmem S128x768 .f32 := scM1.view
/-- One staging buffer of the output window, through which its contents are stated. -/
abbrev VO1 : View sig .tc .vmem S128x10 .f32 := (Memref.whole cc1_stg7_0 : Memref sig .tc .vmem S128x10 .f32).view

/-! ## The scoped buffers no window of this kernel stages -/

/-- The first kernel's four staging buffers at anything, beside the accumulator at `S`. -/
def scoped1 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ S)

/-- What the region is entered with: those buffers, the accumulator at anything, the generator register at some state. -/
theorem PhiA1_eq (c : Dev nD) :
    (Pipeline.ΦA spec1 c : sProp 𝕄)
      = iprop(scoped1 c (iprop(∃ d, owns (c : Thread nD τ) scM1 fullShare d)) ∗ (∃ r, prngReg c r)) := by
  unfold Pipeline.ΦA scoped1; rw [scopedRest1_eq]; simp only [scM1, owns_whole]; try rfl

/-! ## The body's runs -/

set_option maxHeartbeats 1000000 in
/-- Point 0: the accumulator, found at anything, is zeroed and then accumulated into; the stores into it, last first. -/
noncomputable def kernelRun1_A (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : cond1_0 i) (hc1 : ¬cond1_1 i)
    (x0 : Vec F S128x3456 .bf16) (x1 : Vec F S3456x768 .f32) :
    { LS0 : List (View.Piece (Elt F) S128x768 .f32) //
      ∀ (E : Set ℕ) (K : PUnit → sProp 𝕄),
        iprop(owns (c : Thread nD τ) arg1 fullShare x0 ∗ owns (c : Thread nD τ) arg2 fullShare x1 ∗ (∃ d, owns (c : Thread nD τ) arg9 fullShare d)
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, fun E K => ?run⟩
  case run =>
    simp only [cc1_matmul_kernel_eq_skeleton]; unfold cc1_matmul_kernel_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
/-- Points 1..36: the accumulator, found at `xs0`, is accumulated into. -/
noncomputable def kernelRun1_B (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : ¬cond1_0 i) (hc1 : ¬cond1_1 i)
    (x0 : Vec F S128x3456 .bf16) (x1 : Vec F S3456x768 .f32) (xs0 : Vec F S128x768 .f32) :
    { LS0 : List (View.Piece (Elt F) S128x768 .f32) //
      ∀ (E : Set ℕ) (K : PUnit → sProp 𝕄),
        iprop(owns (c : Thread nD τ) arg1 fullShare x0 ∗ owns (c : Thread nD τ) arg2 fullShare x1 ∗ owns (c : Thread nD τ) arg9 fullShare xs0
            ∗ (iprop(owns (c : Thread nD τ) arg1 fullShare x0 ∗ owns (c : Thread nD τ) arg2 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, fun E K => ?run⟩
  case run =>
    simp only [cc1_matmul_kernel_eq_skeleton]; unfold cc1_matmul_kernel_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 2000000 in
/-- Point 37: the accumulator, found at `xs0`, is accumulated into and read out through the two dense layers into the
    output's buffer, found at anything. -/
noncomputable def kernelRun1_C (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole) (hc0 : ¬cond1_0 i) (hc1 : cond1_1 i)
    (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32) :
    Σ' (L7 : List (View.Piece (Elt F) S128x10 .f32)), { LS0 : List (View.Piece (Elt F) S128x768 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc1_matmul_kernel i arg1 harg1 arg2 harg2 arg3 harg3 arg4 harg4 arg5 harg5 arg6 harg6 arg7 harg7 arg8 harg8 arg9 harg9) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Hand

end
-- ==== Proof.K.Region1.lean ====
/-
  The second kernel's half of the frame: 38 grid points, each adding one block product into an accumulator the kernel
  keeps between points; the first point zeroes it, the last reads it for the two small dense layers.

  Every store of this kernel rewrites a whole buffer, so what a buffer holds after the body is the last store's payload:
  after point 0 the accumulator is the blocks' product added to the zero fill, after a later point the product added to
  what the point before left, and at the last point the output's buffer is the dense layers of the new accumulator.
-/
import proofs.«125702_j58712202936346_2_alg».proof.Proof.K.Region1Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Whole-buffer stores and loads -/

theorem h00 : (![0, 0] : Fin 2 → ℕ) = fun _ => 0 := by funext a; fin_cases a <;> rfl

/-- After stores (last first) the last of which rewrote the whole buffer, the buffer reads that store's payload. -/
theorem read_writes_whole {sig' : RefSig} {κ : Kind} {sp : Space} {S : Shape} {e : EltTy} {Val : EltTy → Type}
    (v : View sig' κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load of the whole of a whole memref's buffer reads its contents. -/
theorem readAt_unread_whole {sig' : RefSig} {κ : Kind} {sp : Space} {S : Shape} {e : EltTy} {Val : EltTy → Type}
    (m : Memref sig' κ sp S e) (hm : m.IsWhole) {off : Fin S.rank → ℕ} (h : off = fun _ => 0)
    (inb : ∀ a, off a + S.size a ≤ S.size a) (x : S.Idx → Val e) :
    m.view.readAt Val (Rect.unit off S.size inb).toLoadRect (hm.unread x) = x := by
  rw [View.readAt_eq_ld, hm.read_unread, View.ld_unit_zero h inb]

/-! ## What the runs' stores leave, read back -/

section ReadBack
variable (c : Dev nD) (i : grid1.Coords) (arg1 : Memref sig .tc .vmem S128x3456 .bf16) (harg1 : arg1.IsWhole) (arg2 : Memref sig .tc .vmem S3456x768 .f32) (harg2 : arg2.IsWhole) (arg3 : Memref sig .tc .vmem S1x768 .f32) (harg3 : arg3.IsWhole) (arg4 : Memref sig .tc .vmem S768x10 .f32) (harg4 : arg4.IsWhole) (arg5 : Memref sig .tc .vmem S1x10 .f32) (harg5 : arg5.IsWhole) (arg6 : Memref sig .tc .vmem S10x10 .f32) (harg6 : arg6.IsWhole) (arg7 : Memref sig .tc .vmem S1x10 .f32) (harg7 : arg7.IsWhole) (arg8 : Memref sig .tc .vmem S128x10 .f32) (harg8 : arg8.IsWhole) (arg9 : Memref sig .tc .vmem S128x768 .f32) (harg9 : arg9.IsWhole)

theorem sread1_A (hc0 : cond1_0 i) (hc1 : ¬cond1_1 i) (x0 : Vec F S128x3456 .bf16) (x1 : Vec F S3456x768 .f32)
    (f : arg9.view.ty.Contents (Elt F)) :
    arg9.view.read (Elt F) (arg9.view.writes (Elt F) f (kernelRun1_A c i arg1 harg1 arg2 harg2 arg3 harg3 arg4 harg4 arg5 harg5 arg6 harg6 arg7 harg7 arg8 harg8 arg9 harg9 hc0 hc1 x0 x1).1)
      = k1_pay2 x0 x1 (k1_pay1 (F := F)) := by
  have e : kernelRun1_A.sl.v7 (F := F) c arg9 = k1_pay1 (F := F) := by
    unfold kernelRun1_A.sl.v7 kernelRun1_A.sl.HS0_1
    exact View.readCov_unit_zero arg9.view h00 _ _
  dsimp only [kernelRun1_A]
  refine (read_writes_whole arg9.view f h00 _ _ _).trans ?_
  rw [readAt_unread_whole arg1 harg1 h00, readAt_unread_whole arg2 harg2 h00, e]

theorem sread1_B (hc0 : ¬cond1_0 i) (hc1 : ¬cond1_1 i) (x0 : Vec F S128x3456 .bf16) (x1 : Vec F S3456x768 .f32) (xs0 : Vec F S128x768 .f32)
    (f : arg9.view.ty.Contents (Elt F)) :
    arg9.view.read (Elt F) (arg9.view.writes (Elt F) f (kernelRun1_B c i arg1 harg1 arg2 harg2 arg3 harg3 arg4 harg4 arg5 harg5 arg6 harg6 arg7 harg7 arg8 harg8 arg9 harg9 hc0 hc1 x0 x1 xs0).1)
      = k1_pay2 x0 x1 xs0 := by
  dsimp only [kernelRun1_B]
  refine (read_writes_whole arg9.view f h00 _ _ _).trans ?_
  rw [readAt_unread_whole arg1 harg1 h00, readAt_unread_whole arg2 harg2 h00, readAt_unread_whole arg9 harg9 h00]

theorem sread1_C (hc0 : ¬cond1_0 i) (hc1 : cond1_1 i) (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32)
    (f : arg9.view.ty.Contents (Elt F)) :
    arg9.view.read (Elt F) (arg9.view.writes (Elt F) f (kernelRun1_C c i arg1 harg1 arg2 harg2 arg3 harg3 arg4 harg4 arg5 harg5 arg6 harg6 arg7 harg7 arg8 harg8 arg9 harg9 hc0 hc1 x0 x1 x2 x3 x4 x5 x6 xs0).2.1)
      = k1_pay2 x0 x1 xs0 := by
  dsimp only [kernelRun1_C]
  unfold kernelRun1_C.sl.HS0_1
  refine (read_writes_whole arg9.view f h00 _ _ _).trans ?_
  rw [readAt_unread_whole arg1 harg1 h00, readAt_unread_whole arg2 harg2 h00, readAt_unread_whole arg9 harg9 h00]

theorem oread1_C (hc0 : ¬cond1_0 i) (hc1 : cond1_1 i) (x0 : Vec F S128x3456 .bf16) (x1 : Vec F S3456x768 .f32) (x2 : Vec F S1x768 .f32) (x3 : Vec F S768x10 .f32) (x4 : Vec F S1x10 .f32) (x5 : Vec F S10x10 .f32) (x6 : Vec F S1x10 .f32) (xs0 : Vec F S128x768 .f32)
    (f : arg8.view.ty.Contents (Elt F)) :
    arg8.view.read (Elt F) (arg8.view.writes (Elt F) f (kernelRun1_C c i arg1 harg1 arg2 harg2 arg3 harg3 arg4 harg4 arg5 harg5 arg6 harg6 arg7 harg7 arg8 harg8 arg9 harg9 hc0 hc1 x0 x1 x2 x3 x4 x5 x6 xs0).1)
      = k1_pay3 (k1_pay2 x0 x1 xs0) x2 x3 x4 x5 x6 := by
  have e : kernelRun1_C.sl.v16 (F := F) c arg1 harg1 arg2 harg2 arg9 harg9 x0 x1 xs0 = k1_pay2 x0 x1 xs0 := by
    unfold kernelRun1_C.sl.v16 kernelRun1_C.sl.HS0_1
    refine (View.readCov_unit_zero arg9.view h00 _ _).trans ?_
    rw [readAt_unread_whole arg1 harg1 h00, readAt_unread_whole arg2 harg2 h00, readAt_unread_whole arg9 harg9 h00]
  dsimp only [kernelRun1_C]
  refine (read_writes_whole arg8.view f h00 _ _ _).trans ?_
  rw [e, readAt_unread_whole arg3 harg3 h00, readAt_unread_whole arg4 harg4 h00, readAt_unread_whole arg5 harg5 h00, readAt_unread_whole arg6 harg6 h00, readAt_unread_whole arg7 harg7 h00]

end ReadBack

/-! ## What the output's buffer and the accumulator hold after each point -/

/-- What the output's staging buffer and the accumulator hold after the body at position n: the accumulator is the
    point's block product added to the zero fill (point 0) or to what the point before left; the output's buffer is the
    two dense layers of that accumulator — stored at the last point only, and consulted nowhere else. -/
def outsAt1 (V : (c : Dev nD) → (b : Ref sig .tc) → Buf (Elt F) ((c : Thread nD τ).loc b)) (c : Dev nD) :
    (n : ℕ) → n < cfg1.N → Vec F S128x10 .f32 × Vec F S128x768 .f32
  | 0, hn => (k1_pay3 (k1_pay2 (iblk1 V c 0 ⟨0, hn⟩) (iblk1 V c 1 ⟨0, hn⟩) (k1_pay1 (F := F))) (iblk1 V c 2 ⟨0, hn⟩) (iblk1 V c 3 ⟨0, hn⟩) (iblk1 V c 4 ⟨0, hn⟩) (iblk1 V c 5 ⟨0, hn⟩) (iblk1 V c 6 ⟨0, hn⟩),
      k1_pay2 (iblk1 V c 0 ⟨0, hn⟩) (iblk1 V c 1 ⟨0, hn⟩) (k1_pay1 (F := F)))
  | n + 1, hn => (k1_pay3 (k1_pay2 (iblk1 V c 0 ⟨n + 1, hn⟩) (iblk1 V c 1 ⟨n + 1, hn⟩) (outsAt1 V c n (Nat.lt_of_succ_lt hn)).2) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩),
      k1_pay2 (iblk1 V c 0 ⟨n + 1, hn⟩) (iblk1 V c 1 ⟨n + 1, hn⟩) (outsAt1 V c n (Nat.lt_of_succ_lt hn)).2)

theorem outsAt1_zero (c : Dev nD) (t : Fin cfg1.N) (hz : t.val = 0) :
    outsAt1 V c t.val t.isLt = (k1_pay3 (k1_pay2 (iblk1 V c 0 t) (iblk1 V c 1 t) (k1_pay1 (F := F))) (iblk1 V c 2 t) (iblk1 V c 3 t) (iblk1 V c 4 t) (iblk1 V c 5 t) (iblk1 V c 6 t), k1_pay2 (iblk1 V c 0 t) (iblk1 V c 1 t) (k1_pay1 (F := F))) := by
  obtain ⟨n, hn⟩ := t
  cases n with
  | zero => rfl
  | succ n => exact absurd hz (Nat.succ_ne_zero _)

theorem outsAt1_pos (c : Dev nD) (t : Fin cfg1.N) (hz : t.val ≠ 0) :
    outsAt1 V c t.val t.isLt = (k1_pay3 (k1_pay2 (iblk1 V c 0 t) (iblk1 V c 1 t) (outsAt1 V c (t.val - 1) (Nat.lt_of_le_of_lt (Nat.sub_le _ _) t.isLt)).2) (iblk1 V c 2 t) (iblk1 V c 3 t) (iblk1 V c 4 t) (iblk1 V c 5 t) (iblk1 V c 6 t),
      k1_pay2 (iblk1 V c 0 t) (iblk1 V c 1 t) (outsAt1 V c (t.val - 1) (Nat.lt_of_le_of_lt (Nat.sub_le _ _) t.isLt)).2) := by
  obtain ⟨n, hn⟩ := t
  cases n with
  | zero => exact absurd rfl hz
  | succ n => rfl

/-- The region's invariant before position n: before the first point what the region is entered with; afterwards the
    first kernel's staging buffers at anything, the accumulator at what the point before left, and the generator
    register at some state. -/
def PhiS1 (V : (c : Dev nD) → (b : Ref sig .tc) → Buf (Elt F) ((c : Thread nD τ).loc b)) (c : Dev nD) :
    (n : ℕ) → n ≤ cfg1.N → sProp 𝕄
  | 0, _ => Pipeline.ΦA spec1 c
  | n + 1, hn => iprop(scoped1 c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(scoped1 c (owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(scoped1 c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

/-- Each input's current staging buffer holds its block at every point, fetched there or not: where it is not fetched
    the block index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1_5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1_6 t, after1_6]

set_option maxHeartbeats 4800000 in
/-- The body at any point. The inputs' memrefs hold their blocks; the closed forms of the two conditions say which case
    the point is in, and that case's run applies: the invariant hands it the accumulator at what the point before left
    (at anything at the first point) and takes it back at this point's contents; away from the last point the output's
    buffer is handed back as found, at the last point it holds the dense layers of the new accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5, leaves1_6]
  have hN : t.val < 38 := lt_of_lt_of_eq t.isLt (show cfg1.N = 38 from N_1)
  by_cases h0 : t.val % 38 = 0
  · have h1 : ¬t.val % 38 = 37 := by omega
    have hz : t.val = 0 := by omega
    rw [Dat.leavesExact_idle (dat1 V c) 7 t (idleAt1_7 t (fun h => h1 ((hcond1_1 t).mp h))) (noFlush1_7 t (fun h => h1 ((hcond1_1 t).mp h)))]
    rw [outsAt1_zero V c t hz]; dsimp only
    rw [PhiS1_castSucc V c t, PhiS1_zero V c _ _ hz, PhiA1_eq]
    unfold scoped1
    iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) ((hcond1_0 t).mpr h0) (fun h => h1 ((hcond1_1 t).mp h)) (iblk1 V c 0 t) (iblk1 V c 1 t)).2 Set.univ _)
    isplitl [H0]; · iexact H0
    isplitl [H1]; · iexact H1
    isplitl [HS0]; · iexact HS0
    iintro ⟨H0, H1, ⟨%es0, HS0⟩⟩
    isplitl [Ha Hb Hc Hd HS0 Hg]
    · isplitl [Ha Hb Hc Hd HS0]
      · isplitl [Ha]; · iexact Ha
        isplitl [Hb]; · iexact Hb
        isplitl [Hc]; · iexact Hc
        isplitl [Hd]; · iexact Hd
        unfold owns; iexists _; isplitr
        swap; · iexact HS0
        ipureintro; exact sread1_A c _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hz : t.val ≠ 0 := by omega
    rw [outsAt1_pos V c t hz]; dsimp only
    rw [PhiS1_castSucc V c t, PhiS1_pos V c _ _ hz]
    unfold scoped1
    by_cases h1 : t.val % 38 = 37
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_pos V c t hz]; dsimp only
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact sread1_C c _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact oread1_C c _ _ _ _ _ _ _ _ _ _ _ _ _ _ _ _ _ _ _ _ _ _ _ _ _ _ _ _ _ _
    · rw [Dat.leavesExact_idle (dat1 V c) 7 t (idleAt1_7 t (fun h => h1 ((hcond1_1 t).mp h))) (noFlush1_7 t (fun h => h1 ((hcond1_1 t).mp h)))]
      iintro ⟨⟨⟨Ha, Hb, Hc, Hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1 (Memref.isWhole_whole _) (fun h => h0 ((hcond1_0 t).mp h)) (fun h => h1 ((hcond1_1 t).mp h)) (iblk1 V c 0 t) (iblk1 V c 1 t) _).2 Set.univ _)
      isplitl [H0]; · iexact H0
      isplitl [H1]; · iexact H1
      isplitl [HS0]; · iexact HS0
      iintro ⟨H0, H1, ⟨%es0, HS0⟩⟩
      isplitl [Ha Hb Hc Hd HS0 Hg]
      · isplitl [Ha Hb Hc Hd HS0]
        · isplitl [Ha]; · iexact Ha
          isplitl [Hb]; · iexact Hb
          isplitl [Hc]; · iexact Hc
          isplitl [Hd]; · iexact Hd
          unfold owns; iexists _; isplitr
          swap; · iexact HS0
          ipureintro; exact sread1_B c _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: the accumulator's named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  unfold scoped1
  iintro ⟨⟨Ha, Hb, Hc, Hd, HS0⟩, Hg⟩
  isplitl [Ha Hb Hc Hd HS0]
  · isplitl [Ha]; · iexact Ha
    isplitl [Hb]; · iexact Hb
    isplitl [Hc]; · iexact Hc
    isplitl [Hd]; · iexact Hd
    iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 38 := N_1; omega)

end Cert.Kernel.Hand

end
-- ==== Proof.K.Run.lean ====
/-
  The run of the whole program: the first kernel's region, four reshapes on the host, the second kernel's region.

  The buffers' contents are followed from the launch memory through the three items: the first region leaves the
  feature block in its output array and everything else as it was; the reshapes write four new arrays; the second region
  leaves the result in its output array.  No item writes an argument array, so each argument ends as launched; and the
  result array ends at what the second region's write-back leaves.
-/
import proofs.«125702_j58712202936346_2_alg».proof.Proof.K.Region0
import proofs.«125702_j58712202936346_2_alg».proof.Proof.K.Region1
import proofs.«125702_j58712202936346_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch: what the first region is entered from. -/
abbrev W0 : Dev nD → Valuation τ sig (Elt F) := fun c b => m ((c : Dev nD), b)
/-- The same read at the core's own references. -/
abbrev U0 : (c : Dev nD) → (b : Ref sig .tc) → Buf (Elt F) ((c : Thread nD τ).loc b) := fun c b => W0 m c b
/-- After the first region: its arrays at what its write-backs leave, every other buffer as entered. -/
def W2 (c : Dev nD) : Valuation τ sig (Elt F) :=
  Pipeline.withArrays spec0 c (W0 m c) fun w => (dat0 (U0 m) c).arrAt w cfg0.N
theorem W2_arr (c : Dev nD) (w : Fin cfg0.W) :
    W2 m c (Proc.devRef .tc (Pipeline.arrRef spec0 w)) = (dat0 (U0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U0 m) c).arrAt w cfg0.N = U2 m c (Pipeline.arrRef spec0 w) :=
  (W2_arr m c w).symm
theorem hrest0 (c : Dev nD) : ∀ b, b ∉ Finset.univ.image (Pipeline.arrRef spec0) → U2 m c b = U0 m c b :=
  fun b hb => W2_of_ne m c b fun w e => hb (Finset.mem_image.mpr ⟨w, Finset.mem_univ _, e⟩)

/-- After the four reshapes: what the second region is entered from. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- A buffer the reshapes do not write is unchanged by them. -/
theorem W3_of (c : Dev nD) (r : Ref sig .tc) (h : r ∉ hostOps1_W) : W3 m c r = W2 m c r :=
  StableHlo.after_of_writes_sub hostOps1 _ hostOps1_writes h

/-! ## The arguments end as launched -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W0 m c (Proc.devRef .tc main_arg0) := (W2_arr m c 0).trans (((dat0 (U0 m) c).arrAt_in 0 rfl _).trans (A_eq0 (U0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (U3 m) c).arrAt_in 1 rfl _).trans (A_eq1 (U3 m) c 1))
    _ = W2 m c (Proc.devRef .tc main_arg1) := W3_of m c main_arg1 (by decide)
    _ = W0 m c (Proc.devRef .tc main_arg1) := W2_of_ne m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W0 m c (Proc.devRef .tc main_arg2) := W2_of_ne m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := (W4_arr m c 3).trans (((dat1 (U3 m) c).arrAt_in 3 rfl _).trans (A_eq1 (U3 m) c 3))
    _ = W2 m c (Proc.devRef .tc main_arg3) := W3_of m c main_arg3 (by decide)
    _ = W0 m c (Proc.devRef .tc main_arg3) := W2_of_ne m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W0 m c (Proc.devRef .tc main_arg4) := W2_of_ne m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) := (W4_arr m c 5).trans (((dat1 (U3 m) c).arrAt_in 5 rfl _).trans (A_eq1 (U3 m) c 5))
    _ = W2 m c (Proc.devRef .tc main_arg5) := W3_of m c main_arg5 (by decide)
    _ = W0 m c (Proc.devRef .tc main_arg5) := W2_of_ne m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W0 m c (Proc.devRef .tc main_arg6) := W2_of_ne m c main_arg6 (by decide)
    _ = m ((c : Thread nD τ).loc main_arg6) := rfl

/-- The result array ends at what the second region's write-back leaves. -/
theorem W4_main_v5 (c : Dev nD) : W4 m c (Proc.devRef .tc main_v5) = (dat1 (U3 m) c).arrAt 7 cfg1.N := W4_arr m c 7

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The reshapes as one item. -/
abbrev hseg (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- The first region: entered from the launch contents, left with its output array rewritten. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered after the reshapes, left with the result array written; its invariant is the class's
    before the first point and gives the class's back after the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (U3 m) c)
    unfold Pipeline.ΦA
    iintro ⟨Hp, -, Hr⟩
    isplitl [Hr]; · iexact Hr
    iexact Hp
  hout c := by
    rw [Pipeline.ownSems0_none]
    refine (hout1 (U3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

abbrev segs : List (Pipeline.Seg (pcfgs (F := F)) adm (pdats m) () defs₀ 𝒱₀ L lv) :=
  [ .region (reg0 m),
    .host (hseg (W2 m)),
    .region (reg1 m) ]
theorem main_run (c : Dev nD) : main (F := F) c = Pipeline.Seg.run (segs m) := (main_chain c).trans (by chain_rfl)

set_option backward.isDefEq.respectTransparency.types false in
/-- Every weakly fair execution of the program from memory m with zero counters terminates, and every unscoped buffer of
    every core ends at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.Kernel.Hand

end
-- ==== Proof.Spec.lean ====
/-
  The function both programs compute, written once over coordinates.

  An image x[b,i,j] (128 images of 256 by 256) is first masked to its lower triangle, x1 = x * tri with
  tri i j = 1 for j <= i and 0 otherwise.  The "cross" of an image f at row i is the sum of row i plus the sum of
  column 0 minus twice the corner entry f[i,0]: the middle row plus the middle column of a cross-shaped filter read at
  column 0.  From x1 the chain is
      xe  = cross x1                       (one number per image row)
      xe2 = (xe + (sum over the rows of xe) - 2 * xe) * xe
      x3  = xe2 * tri                      (spread back over the columns, masked again)
      x4  = cross x3.
  Beside it y = (x * mark)^2 with mark = -1 on row 0 and on column 0 and 1 elsewhere, and z = x * x.
  Row i of image b contributes the 513 features  x4[b,i], y[b,i,0..255], z[b,i,0..255]  in that order, and feature
  number k of the flattened image is row k / 513, column k % 513.  Three dense layers follow:
      h1 = max (feat . w1 + b1) 0,   h2 = max (h1 . w2 + b2) 0,   out = h2 . w3 + b3.
  The float words of 2 and of 0 are kept as words: the same word stands on both sides and is never evaluated.
-/
import Idealize.ShloMosaic.PureOps.Ideal
import Idealize.ShloMosaic.Lib.ValueIdx

noncomputable section

open scoped BigOperators

namespace Cert.Spec

open Idealize.ShloMosaic Idealize.ShloMosaic.ValueIdx

/-- The word of 2.0 read at the ideal instance. -/
def two : EReal := Ideal.ofBits .f32 0x40000000#32
/-- The word of 0.0 read at the ideal instance. -/
def zero : EReal := Ideal.ofBits .f32 0x00000000#32

/-- The lower triangle, diagonal included. -/
def tri (i j : Fin 256) : EReal := if j.val ≤ i.val then 1 else 0
/-- Minus one on the first row and the first column, one elsewhere. -/
def mark (i j : Fin 256) : EReal :=
  if i.val = 0 ∨ j.val = 0 then Ideal.ofBits .f32 0xBF800000#32 else Ideal.ofBits .f32 0x3F800000#32

/-- An image stack: image, row, column. -/
abbrev Img := Fin 128 → Fin 256 → Fin 256 → EReal

/-- Row sum plus the sum of column 0 minus twice the entry in column 0. -/
def cross (f : Img) (b : Fin 128) (i : Fin 256) : EReal :=
  (∑ j : Fin 256, f b i j) + (∑ r : Fin 256, f b r 0) - two * f b i 0

def x1 (x : Img) : Img := fun b i j => x b i j * tri i j
def xe (x : Img) (b : Fin 128) (i : Fin 256) : EReal := cross (x1 x) b i
def xe2 (x : Img) (b : Fin 128) (i : Fin 256) : EReal :=
  (xe x b i + (∑ r : Fin 256, xe x b r) - two * xe x b i) * xe x b i
def x3 (x : Img) : Img := fun b i j => xe2 x b i * tri i j
def x4 (x : Img) (b : Fin 128) (i : Fin 256) : EReal := cross (x3 x) b i
def y (x : Img) : Img := fun b i j => (x b i j * mark i j) * (x b i j * mark i j)
def z (x : Img) : Img := fun b i j => x b i j * x b i j

/-- The 513 features of row i of image b: x4, then the row of y, then the row of z. -/
def cat (x : Img) (b : Fin 128) (i : Fin 256) (col : Fin 513) : EReal :=
  if h0 : col.val = 0 then x4 x b i
  else if h1 : col.val ≤ 256 then y x b i ⟨col.val - 1, by omega⟩
  else z x b i ⟨col.val - 257, by have := col.isLt; omega⟩

/-- Feature k of the flattened image: row k / 513, column k % 513. -/
def feat (x : Img) (b : Fin 128) (k : Fin 131328) : EReal :=
  cat x b ⟨k.val / 513, by have := k.isLt; omega⟩ ⟨k.val % 513, Nat.mod_lt _ (by decide)⟩

/-- The first dense layer over a feature matrix f[b,k]: every feature times its weight, summed, plus the bias, clamped at 0. -/
def h1 (f : Fin 128 → Fin 131328 → EReal) (w1 : Fin 131328 → Fin 768 → EReal) (b1 : Fin 768 → EReal) (b : Fin 128) (c : Fin 768) : EReal :=
  max ((∑ k : Fin 131328, f b k * w1 k c) + b1 c) zero
def h2 (f : Fin 128 → Fin 131328 → EReal) (w1 : Fin 131328 → Fin 768 → EReal) (b1 : Fin 768 → EReal) (w2 : Fin 768 → Fin 10 → EReal)
    (b2 : Fin 10 → EReal) (b : Fin 128) (c : Fin 10) : EReal :=
  max ((∑ k : Fin 768, h1 f w1 b1 b k * w2 k c) + b2 c) zero
def out (f : Fin 128 → Fin 131328 → EReal) (w1 : Fin 131328 → Fin 768 → EReal) (b1 : Fin 768 → EReal) (w2 : Fin 768 → Fin 10 → EReal)
    (b2 : Fin 10 → EReal) (w3 : Fin 10 → Fin 10 → EReal) (b3 : Fin 10 → EReal) (b : Fin 128) (c : Fin 10) : EReal :=
  (∑ k : Fin 10, h2 f w1 b1 w2 b2 b k * w3 k c) + b3 c

/-- The image stack behind the first argument array (its last axis has extent 1). -/
def img (A0 : (⟨4, ![128, 256, 256, 1]⟩ : Shape).Idx → EReal) : Img := fun b i j => A0 (ix4 b i j 0)

/-- THE RESULT ARRAY as one function of the seven argument arrays. -/
def G (A0 : (⟨4, ![128, 256, 256, 1]⟩ : Shape).Idx → EReal) (A1 : (⟨2, ![131328, 768]⟩ : Shape).Idx → EReal)
    (A2 : (⟨1, ![768]⟩ : Shape).Idx → EReal) (A3 : (⟨2, ![768, 10]⟩ : Shape).Idx → EReal)
    (A4 : (⟨1, ![10]⟩ : Shape).Idx → EReal) (A5 : (⟨2, ![10, 10]⟩ : Shape).Idx → EReal)
    (A6 : (⟨1, ![10]⟩ : Shape).Idx → EReal) : (⟨2, ![128, 10]⟩ : Shape).Idx → EReal :=
  fun i => out (feat (img A0)) (fun k c => A1 (ix2 k c)) (fun c => A2 (ix1 c)) (fun k c => A3 (ix2 k c)) (fun c => A4 (ix1 c))
    (fun k c => A5 (ix2 k c)) (fun c => A6 (ix1 c)) (i 0) (i 1)

/-- The three dense layers over ARRAYS as the second kernel meets them: the flattened feature matrix [128, 131328],
    the weights, and each bias laid out as a one-row matrix [1, n]. -/
def tailArr (Fm : (⟨2, ![128, 131328]⟩ : Shape).Idx → EReal) (A1 : (⟨2, ![131328, 768]⟩ : Shape).Idx → EReal)
    (R2 : (⟨2, ![1, 768]⟩ : Shape).Idx → EReal) (A3 : (⟨2, ![768, 10]⟩ : Shape).Idx → EReal)
    (R4 : (⟨2, ![1, 10]⟩ : Shape).Idx → EReal) (A5 : (⟨2, ![10, 10]⟩ : Shape).Idx → EReal)
    (R6 : (⟨2, ![1, 10]⟩ : Shape).Idx → EReal) : (⟨2, ![128, 10]⟩ : Shape).Idx → EReal :=
  fun i => out (fun b k => Fm (ix2 b k)) (fun k c => A1 (ix2 k c)) (fun c => R2 (ix2 0 c)) (fun k c => A3 (ix2 k c))
    (fun c => R4 (ix2 0 c)) (fun k c => A5 (ix2 k c)) (fun c => R6 (ix2 0 c)) (i 0) (i 1)

/-- The flattened feature matrix [128, 131328] as an array: what both programs feed the first dense layer. -/
def featArr (A0 : (⟨4, ![128, 256, 256, 1]⟩ : Shape).Idx → EReal) : (⟨2, ![128, 131328]⟩ : Shape).Idx → EReal :=
  fun i => feat (img A0) (i 0) (i 1)

/-- The feature block [128, 256, 513] as an array: what the first kernel writes. -/
def catArr (A0 : (⟨4, ![128, 256, 256, 1]⟩ : Shape).Idx → EReal) : (⟨3, ![128, 256, 513]⟩ : Shape).Idx → EReal :=
  fun i => cat (img A0) (i 0) (i 1) (i 2)

end Cert.Spec

end
-- ==== Proof.KernelValue.lean ====
/-
  What the program leaves in its result array, as the specification's function of the seven argument arrays.

  The first region leaves the feature block [128, 256, 513]; the host flattens it to [128, 131328] — position
  (b, k) of the flat matrix is position (b, k / 513, k % 513) of the block, both at row-major offset b * 131328 + k —
  and lays each bias vector out as a one-row matrix; the second region applies the three dense layers to those.
-/
import proofs.«125702_j58712202936346_2_alg».proof.Proof.KI.Run
import proofs.«125702_j58712202936346_2_alg».proof.Proof.Spec
import Idealize.ShloMosaic.Lib.Pipeline.Value
import Idealize.ShloMosaic.Lib.ValueLayout
import Idealize.ShloMosaic.Lib.StableHlo.Run

set_option maxRecDepth 16384

noncomputable section

namespace Cert.Spec

open Idealize.ShloMosaic Idealize.ShloMosaic.ValueIdx

/-- The dense layers over the flattened features and one-row biases are the result function, once each one-row
    bias reads as its vector. -/
theorem tailArr_featArr (A0 : (⟨4, ![128, 256, 256, 1]⟩ : Shape).Idx → EReal) (A1 : (⟨2, ![131328, 768]⟩ : Shape).Idx → EReal)
    (A2 : (⟨1, ![768]⟩ : Shape).Idx → EReal) (A3 : (⟨2, ![768, 10]⟩ : Shape).Idx → EReal)
    (A4 : (⟨1, ![10]⟩ : Shape).Idx → EReal) (A5 : (⟨2, ![10, 10]⟩ : Shape).Idx → EReal)
    (A6 : (⟨1, ![10]⟩ : Shape).Idx → EReal)
    (R2 : (⟨2, ![1, 768]⟩ : Shape).Idx → EReal) (R4 R6 : (⟨2, ![1, 10]⟩ : Shape).Idx → EReal)
    (h2 : ∀ c : Fin 768, R2 (ix2 0 c) = A2 (ix1 c)) (h4 : ∀ c : Fin 10, R4 (ix2 0 c) = A4 (ix1 c))
    (h6 : ∀ c : Fin 10, R6 (ix2 0 c) = A6 (ix1 c)) :
    tailArr (featArr A0) A1 R2 A3 R4 A5 R6 = G A0 A1 A2 A3 A4 A5 A6 := by
  funext i
  unfold tailArr G
  simp only [h2, h4, h6]
  rfl

end Cert.Spec

namespace Cert.KernelIdeal.HandValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ)

/-! ## The host's four reshapes, from the contents the first region leaves -/

theorem U3_v1 (c : Dev nD) : (U3 m c main_v1 : S128x131328.Idx → EReal)
    = shapeCast S128x131328 (U2 m c main_v0 : S128x256x513.Idx → EReal) shapeCasts_S128x256x513_S128x131328 := by
  show StableHlo.after hostOps1 (W2 m c) (Proc.devRef .tc main_v1) = _
  after_results; rfl
theorem U3_v2 (c : Dev nD) : (U3 m c main_v2 : S1x768.Idx → EReal)
    = shapeCast S1x768 (U2 m c main_arg2 : S768.Idx → EReal) shapeCasts_S768_S1x768 := by
  show StableHlo.after hostOps1 (W2 m c) (Proc.devRef .tc main_v2) = _
  after_results; rfl
theorem U3_v3 (c : Dev nD) : (U3 m c main_v3 : S1x10.Idx → EReal)
    = shapeCast S1x10 (U2 m c main_arg4 : S10.Idx → EReal) shapeCasts_S10_S1x10 := by
  show StableHlo.after hostOps1 (W2 m c) (Proc.devRef .tc main_v3) = _
  after_results; rfl
theorem U3_v4 (c : Dev nD) : (U3 m c main_v4 : S1x10.Idx → EReal)
    = shapeCast S1x10 (U2 m c main_arg6 : S10.Idx → EReal) shapeCasts_S10_S1x10 := by
  show StableHlo.after hostOps1 (W2 m c) (Proc.devRef .tc main_v4) = _
  after_results; rfl

/-- An argument array no item writes is, at the second region's entry, as launched. -/
theorem U3_arg (c : Dev nD) (r : Ref sig .tc) (h3 : r ∉ hostOps1_W) (h0 : ∀ w, Pipeline.arrRef spec0 w ≠ r) :
    U3 m c r = m ((c : Thread nD τ).loc r) :=
  (W3_of m c r h3).trans (W2_of_ne m c r h0)
theorem U2_arg (c : Dev nD) (r : Ref sig .tc) (h0 : ∀ w, Pipeline.arrRef spec0 w ≠ r) :
    U2 m c r = m ((c : Thread nD τ).loc r) := W2_of_ne m c r h0

/-- THE KERNEL'S VALUE, given what each region's write-backs leave. -/
theorem value
    (arr0 : ∀ (V : (c : Dev nD) → (b : Ref sig .tc) → Buf (Elt Ideal) ((c : Thread nD τ).loc b)) (c : Dev nD),
      ((dat0 (F := Ideal) V c).arrAt 1 cfg0.N : S128x256x513.Idx → EReal) = Cert.Spec.catArr (V c main_arg0))
    (arr1 : ∀ (V : (c : Dev nD) → (b : Ref sig .tc) → Buf (Elt Ideal) ((c : Thread nD τ).loc b)) (c : Dev nD),
      ((dat1 (F := Ideal) V c).arrAt 7 cfg1.N : S128x10.Idx → EReal)
        = Cert.Spec.tailArr (V c main_v1) (V c main_arg1) (V c main_v2) (V c main_arg3) (V c main_v3) (V c main_arg5) (V c main_v4))
    (c : Dev nD) :
    (W4 m c (Proc.devRef .tc main_v5) : S128x10.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  -- the flat feature matrix the second region is entered with
  have hfeat : (U3 m c main_v1 : S128x131328.Idx → EReal) = Cert.Spec.featArr (m ((c : Thread nD τ).loc main_arg0)) := by
    funext j
    obtain ⟨b, k, rfl⟩ : ∃ (b : Fin 128) (k : Fin 131328), j = ix2 b k := ⟨j 0, j 1, eq_ix2 j⟩
    rw [U3_v1]
    refine (shapeCast_apply _ _ _ (ix3 b (⟨k.val / 513, by have := k.isLt; omega⟩ : Fin 256) (⟨k.val % 513, Nat.mod_lt _ (by decide)⟩ : Fin 513)) ?_).trans ?_
    · rw [Shape.rowMajor_val_three, Shape.rowMajor_val_two]
      show (b.val * 256 + k.val / 513) * 513 + k.val % 513 = b.val * 131328 + k.val
      omega
    · rw [show (U2 m c main_v0 : S128x256x513.Idx → EReal) = (dat0 (F := Ideal) (U0 m) c).arrAt 1 cfg0.N from W2_arr m c 1, arr0 (U0 m) c]
      rfl
  have h2 : ∀ q : Fin 768, (U3 m c main_v2 : S1x768.Idx → EReal) (ix2 0 q) = m ((c : Thread nD τ).loc main_arg2) (ix1 q) := fun q => by
    rw [U3_v2, shapeCast_a_1a_apply, U2_arg m c main_arg2 (by decide)]
  have h4 : ∀ q : Fin 10, (U3 m c main_v3 : S1x10.Idx → EReal) (ix2 0 q) = m ((c : Thread nD τ).loc main_arg4) (ix1 q) := fun q => by
    rw [U3_v3, shapeCast_a_1a_apply, U2_arg m c main_arg4 (by decide)]
  have h6 : ∀ q : Fin 10, (U3 m c main_v4 : S1x10.Idx → EReal) (ix2 0 q) = m ((c : Thread nD τ).loc main_arg6) (ix1 q) := fun q => by
    rw [U3_v4, shapeCast_a_1a_apply, U2_arg m c main_arg6 (by decide)]
  rw [show (W4 m c (Proc.devRef .tc main_v5) : S128x10.Idx → EReal) = (dat1 (F := Ideal) (U3 m) c).arrAt 7 cfg1.N from W4_main_v5 m c,
    arr1 (U3 m) c, hfeat,
    show (U3 m c main_arg1) = m ((c : Thread nD τ).loc main_arg1) from U3_arg m c main_arg1 (by decide) (by decide),
    show (U3 m c main_arg3) = m ((c : Thread nD τ).loc main_arg3) from U3_arg m c main_arg3 (by decide) (by decide),
    show (U3 m c main_arg5) = m ((c : Thread nD τ).loc main_arg5) from U3_arg m c main_arg5 (by decide) (by decide)]
  exact Cert.Spec.tailArr_featArr _ _ _ _ _ _ _ _ _ _ h2 h4 h6

end Cert.KernelIdeal.HandValue

end
-- ==== Proof.LibRank3.lean ====
/-
  Rank-3 arrays [a, b, c] read at an entry: a trailing unit axis, the last axis reduced, and products that
  keep the leading axis as a batch.

  `shapeCast_ab_ab1_apply`      [a, b] cast to [a, b, 1] reads, at (p, q, u), the operand at (p, q);
  `broadcastTo_ab1_abc_apply`   [a, b, 1] broadcast to [a, b, c] reads, at (p, q, r), the operand at (p, q, 0);
  `multiReduction_add_last`     the sum over the last axis, at the ideal instance, read at (p, q): the sum over r;
  `multiReduction_max_last`     the maximum over the last axis, read at (p, q): the fold of max from the start word's
                                 value over r;
  `contr_sum_last_last`, `matmul_zero_last_last`   [a, w, n] by [a, v, n], batch axis 0, both last axes contracted:
                                 entry (p, i, j) is the sum over k of left (p, i, k) times right (p, j, k);
  `contr_sum_last_mid`, `matmul_zero_last_mid`     [a, w, n] by [a, n, c], batch axis 0, the left's last axis against
                                 the right's middle one: entry (p, i, j) is the sum over k of left (p, i, k) times
                                 right (p, k, j).
  The dimension numbers enter through the facts saying where the two operand indices sit; a caller proves them for its
  own record.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-- An [a, b] matrix cast to [a, b, 1] reads, at (p, q, u), the operand at (p, q): both sit at row-major position
    p * b + q. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b, 1] array broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum over the last axis of an [a, b, c] array of extended reals, read at (p, q): the sum over r of the
    operand at (p, q, r). -/
theorem multiReduction_add_last {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ r : Fin c, src (ix3 p q r) :=
  (Ideal.multiReduction_add_single src 0x00000000#32 h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- The maximum over the last axis of an [a, b, c] array of extended reals, read at (p, q): the fold of max, from
    the start word's value, over r of the operand at (p, q, r). -/
theorem multiReduction_max_last {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun r => src (ix3 p q r)) := by
  rw [Ideal.multiReduction_maximumf_single src acc h hφ hacc (ix2 p q)]
  refine congrArg (fun f => (Finset.univ : Finset (Fin c)).fold max (Ideal.ofBits .f32 acc) f) ?_
  funext r
  refine congrArg src (funext fun ax => Fin.ext ?_)
  match ax with
  | ⟨0, _⟩ => rfl
  | ⟨1, _⟩ => rfl
  | ⟨2, _⟩ => rfl

section Products

variable {a w v n c : ℕ}

/-- The contraction's sum of a batched product that contracts both operands' last axes, re-indexed by the one
    contracted coordinate. -/
theorem contr_sum_last_last (D : DotDims ⟨3, ![a, w, n]⟩ ⟨3, ![a, v, n]⟩ ⟨3, ![a, w, v]⟩) (hr : D.contr.rank = 1)
    (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (i (2 : Fin 3)).val)
    (hr2 : ∀ i q, (D.rhsIdx i q (2 : Fin 3)).val = (q ⟨0, by omega⟩).val)
    (l : (⟨3, ![a, w, n]⟩ : Shape).Idx → EReal) (r : (⟨3, ![a, v, n]⟩ : Shape).Idx → EReal)
    (p : Fin a) (i : Fin w) (j : Fin v) :
    ∑ k : D.contr.Idx, l (D.lhsIdx (ix3 p i j) k) * r (D.rhsIdx (ix3 p i j) k)
      = ∑ k : Fin n, l (ix3 p i k) * r (ix3 p j k) := by
  rw [← Equiv.sum_comp (contrEquiv1 D n hr hs).symm]
  refine Finset.sum_congr rfl fun k _ => ?_
  have hk := contrEquiv1_symm_val D n hr hs k
  have el : D.lhsIdx (ix3 p i j) ((contrEquiv1 D n hr hs).symm k) = ix3 p i k := funext fun ax => Fin.ext (by
    match ax with
    | ⟨0, _⟩ => exact hl0 _ _
    | ⟨1, _⟩ => exact hl1 _ _
    | ⟨2, _⟩ => exact (hl2 _ _).trans hk)
  have er : D.rhsIdx (ix3 p i j) ((contrEquiv1 D n hr hs).symm k) = ix3 p j k := funext fun ax => Fin.ext (by
    match ax with
    | ⟨0, _⟩ => exact hr0 _ _
    | ⟨1, _⟩ => exact hr1 _ _
    | ⟨2, _⟩ => exact (hr2 _ _).trans hk)
  rw [el, er]

/-- A batched product into the zero accumulator, both last axes contracted, at the ideal instance, read at
    (p, i, j): the sum over k of left (p, i, k) times right (p, j, k). -/
theorem matmul_zero_last_last {φ₁ φ₂ : FTy} (D : DotDims ⟨3, ![a, w, n]⟩ ⟨3, ![a, v, n]⟩ ⟨3, ![a, w, v]⟩)
    (hr : D.contr.rank = 1) (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (i (2 : Fin 3)).val)
    (hr2 : ∀ i q, (D.rhsIdx i q (2 : Fin 3)).val = (q ⟨0, by omega⟩).val)
    (prec : Option ContractPrecision) (l : FVec Ideal ⟨3, ![a, w, n]⟩ φ₁) (r : FVec Ideal ⟨3, ![a, v, n]⟩ φ₂)
    (p : Fin a) (i : Fin w) (j : Fin v) :
    matmul D prec l r (constant ⟨3, ![a, w, v]⟩ .f32 0x00000000#32) (ix3 p i j)
      = ∑ k : Fin n, l (ix3 p i k) * r (ix3 p j k) :=
  (Ideal.matmul_constant_zero_apply D prec l r (ix3 p i j)).trans
    (contr_sum_last_last D hr hs hl0 hl1 hl2 hr0 hr1 hr2 l r p i j)

/-- The contraction's sum of a batched product that contracts the left operand's last axis with the right operand's
    middle one, re-indexed by the one contracted coordinate. -/
theorem contr_sum_last_mid (D : DotDims ⟨3, ![a, w, n]⟩ ⟨3, ![a, n, c]⟩ ⟨3, ![a, w, c]⟩) (hr : D.contr.rank = 1)
    (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (q ⟨0, by omega⟩).val)
    (hr2 : ∀ i q, (D.rhsIdx i q (2 : Fin 3)).val = (i (2 : Fin 3)).val)
    (l : (⟨3, ![a, w, n]⟩ : Shape).Idx → EReal) (r : (⟨3, ![a, n, c]⟩ : Shape).Idx → EReal)
    (p : Fin a) (i : Fin w) (j : Fin c) :
    ∑ k : D.contr.Idx, l (D.lhsIdx (ix3 p i j) k) * r (D.rhsIdx (ix3 p i j) k)
      = ∑ k : Fin n, l (ix3 p i k) * r (ix3 p k j) := by
  rw [← Equiv.sum_comp (contrEquiv1 D n hr hs).symm]
  refine Finset.sum_congr rfl fun k _ => ?_
  have hk := contrEquiv1_symm_val D n hr hs k
  have el : D.lhsIdx (ix3 p i j) ((contrEquiv1 D n hr hs).symm k) = ix3 p i k := funext fun ax => Fin.ext (by
    match ax with
    | ⟨0, _⟩ => exact hl0 _ _
    | ⟨1, _⟩ => exact hl1 _ _
    | ⟨2, _⟩ => exact (hl2 _ _).trans hk)
  have er : D.rhsIdx (ix3 p i j) ((contrEquiv1 D n hr hs).symm k) = ix3 p k j := funext fun ax => Fin.ext (by
    match ax with
    | ⟨0, _⟩ => exact hr0 _ _
    | ⟨1, _⟩ => exact (hr1 _ _).trans hk
    | ⟨2, _⟩ => exact hr2 _ _)
  rw [el, er]

/-- A batched product into the zero accumulator, the left's last axis against the right's middle one, at the ideal
    instance, read at (p, i, j): the sum over k of left (p, i, k) times right (p, k, j). -/
theorem matmul_zero_last_mid {φ₁ φ₂ : FTy} (D : DotDims ⟨3, ![a, w, n]⟩ ⟨3, ![a, n, c]⟩ ⟨3, ![a, w, c]⟩)
    (hr : D.contr.rank = 1) (hs : D.contr.size ⟨0, by omega⟩ = n)
    (hl0 : ∀ i q, (D.lhsIdx i q (0 : Fin 3)).val = (i (0 : Fin 3)).val)
    (hl1 : ∀ i q, (D.lhsIdx i q (1 : Fin 3)).val = (i (1 : Fin 3)).val)
    (hl2 : ∀ i q, (D.lhsIdx i q (2 : Fin 3)).val = (q ⟨0, by omega⟩).val)
    (hr0 : ∀ i q, (D.rhsIdx i q (0 : Fin 3)).val = (i (0 : Fin 3)).val)
    (hr1 : ∀ i q, (D.rhsIdx i q (1 : Fin 3)).val = (q ⟨0, by omega⟩).val)
    (hr2 : ∀ i q, (D.rhsIdx i q (2 : Fin 3)).val = (i (2 : Fin 3)).val)
    (prec : Option ContractPrecision) (l : FVec Ideal ⟨3, ![a, w, n]⟩ φ₁) (r : FVec Ideal ⟨3, ![a, n, c]⟩ φ₂)
    (p : Fin a) (i : Fin w) (j : Fin c) :
    matmul D prec l r (constant ⟨3, ![a, w, c]⟩ .f32 0x00000000#32) (ix3 p i j)
      = ∑ k : Fin n, l (ix3 p i k) * r (ix3 p k j) :=
  (Ideal.matmul_constant_zero_apply D prec l r (ix3 p i j)).trans
    (contr_sum_last_mid D hr hs hl0 hl1 hl2 hr0 hr1 hr2 l r p i j)

end Products

end Cert.LibRank3

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.KV0Layout.lean ====
/-
  Layout operations and sums on rank-3 blocks [a, b, c], read at an entry, and the "cross" of such a block:
  for every image p and row i, the sum of row i plus the sum of column 0 minus a constant times the entry in column 0,
  as the kernel computes it (a lane sum, a slice of column 0 summed over the rows and spread back, a scaled slice).
-/
import Idealize.ShloMosaic.Lib.Pipeline.Value
import Idealize.ShloMosaic.Lib.ValueIdx
import Idealize.ShloMosaic.Lib.ValueLayout
import Idealize.ShloMosaic.PureOps.Ideal.Laws
import proofs.«125702_j58712202936346_2_alg».proof.Proof.LibRank3
import proofs.«125702_j58712202936346_2_alg».proof.Proof.LibAxisFold

noncomputable section

open scoped BigOperators

namespace Cert.KernelIdeal.HandValue.Layout

open Idealize.ShloMosaic Idealize.ShloMosaic.ValueIdx

variable {α : Type}

/-- An [a, b, c, 1] array cast to [a, b, c] reads, at (p, q, r), the operand at (p, q, r, 0). -/
theorem shapeCast_abc1_abc_apply {a b c : ℕ} (x : (⟨4, ![a, b, c, 1]⟩ : Shape).Idx → α)
    (h : (⟨4, ![a, b, c, 1]⟩ : Shape).ShapeCasts ⟨3, ![a, b, c]⟩) (p : Fin a) (q : Fin b) (r : Fin c) :
    shapeCast ⟨3, ![a, b, c]⟩ x h (ix3 p q r) = x (ix4 p q r (0 : Fin 1)) :=
  shapeCast_apply x h _ _ (by
    rw [Shape.rowMajor_val_four, Shape.rowMajor_val_three]
    show ((p.val * b + q.val) * c + r.val) * 1 + 0 = (p.val * b + q.val) * c + r.val
    omega)

/-- A [1, b, c] array broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The slice of column 0 of an [a, b, c] array, as an [a, b, 1] array, reads, at (p, q, u), the operand at (p, q, 0). -/
theorem slice_col0_apply {a b c : ℕ} (hc : 0 < c) (x : (⟨3, ![a, b, c]⟩ : Shape).Idx → α)
    (h : (⟨3, ![a, b, c]⟩ : Shape).Slices ![0, 0, 0] ⟨3, ![a, b, 1]⟩) (p : Fin a) (q : Fin b) (u : Fin 1) :
    extractStridedSlice ⟨3, ![a, b, 1]⟩ ![0, 0, 0] x h (ix3 p q u) = x (ix3 p q ⟨0, hc⟩) :=
  extractStridedSlice_apply _ x h _ _ (fun ax => by
    match ax with
    | ⟨0, _⟩ => show p.val = 0 + p.val; omega
    | ⟨1, _⟩ => show q.val = 0 + q.val; omega
    | ⟨2, _⟩ => show 0 = 0 + u.val; omega)

/-- An [a, b, 1] array cast to [a, b] reads, at (p, q), the operand at (p, q, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (q : Fin b) :
    shapeCast ⟨2, ![a, b]⟩ x h (ix2 p q) = x (ix3 p q (0 : Fin 1)) :=
  shapeCast_apply x h _ _ (by
    rw [Shape.rowMajor_val_three, Shape.rowMajor_val_two]
    show (p.val * b + q.val) * 1 + 0 = p.val * b + q.val
    omega)

/-- An [a] vector cast to [a, 1] reads, at (p, u), the operand at p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    omega)

/-- An [a, 1] array cast to [a, 1, 1] reads, at (p, u, u'), the operand at (p, 0). -/
theorem shapeCast_a1_a11_apply {a : ℕ} (x : (⟨2, ![a, 1]⟩ : Shape).Idx → α)
    (h : (⟨2, ![a, 1]⟩ : Shape).ShapeCasts ⟨3, ![a, 1, 1]⟩) (p : Fin a) (u u' : Fin 1) :
    shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_two, Shape.rowMajor_val_three]
    show p.val * 1 + 0 = (p.val * 1 + u.val) * 1 + u'.val
    omega)

/-- An [a, 1, 1] array broadcast to [a, b, 1] reads, at (p, q, u), the operand at (p, 0, 0). -/
theorem broadcastTo_a11_ab1_apply {a b : ℕ} (v : (⟨3, ![a, 1, 1]⟩ : Shape).Idx → α)
    (h : (⟨3, ![a, 1, 1]⟩ : Shape).Broadcasts ⟨3, ![a, b, 1]⟩) (p : Fin a) (q : Fin b) (u : Fin 1) :
    broadcastTo ⟨3, ![a, b, 1]⟩ v h (ix3 p q u) = v (ix3 p (0 : Fin 1) (0 : Fin 1)) := by
  refine broadcastTo_apply v h (ix3 p q u) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- The sum over the last axis of an [a, b, 1] array is the array's one entry there. -/
theorem multiReduction_add_unit_last {a b : ℕ} (src : FVec Ideal ⟨3, ![a, b, 1]⟩ .f32)
    (h : (⟨3, ![a, b, 1]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = src (ix3 p q (0 : Fin 1)) :=
  (Cert.LibRank3.multiReduction_add_last src h hφ hacc p q).trans (Fin.sum_univ_one fun r => src (ix3 p q r))

/-- The cross of an [a, b, c] block M, as the kernel computes it, read at (p, i, u): the sum of row i of image p, plus
    the sum of column 0 of image p, minus w times the entry (p, i, 0). -/
theorem cross_apply {a b c : ℕ} (hc : 0 < c) (M : FVec Ideal ⟨3, ![a, b, c]⟩ .f32) (w : EReal)
    (hR2 : (⟨3, ![a, b, c]⟩ : Shape).Reduces [2] ⟨2, ![a, b]⟩) (hC1 : (⟨2, ![a, b]⟩ : Shape).ShapeCasts ⟨3, ![a, b, 1]⟩)
    (hS hS' : (⟨3, ![a, b, c]⟩ : Shape).Slices ![0, 0, 0] ⟨3, ![a, b, 1]⟩)
    (hC2 : (⟨3, ![a, b, 1]⟩ : Shape).ShapeCasts ⟨2, ![a, b]⟩)
    (hR1 : (⟨2, ![a, b]⟩ : Shape).Reduces [1] ⟨1, ![a]⟩) (hC3 : (⟨1, ![a]⟩ : Shape).ShapeCasts ⟨2, ![a, 1]⟩)
    (hC4 : (⟨2, ![a, 1]⟩ : Shape).ShapeCasts ⟨3, ![a, 1, 1]⟩)
    (hB : (⟨3, ![a, 1, 1]⟩ : Shape).Broadcasts ⟨3, ![a, b, 1]⟩)
    (hφ hφ' : FKind.Formats .f32) (hacc : (0x00000000#32 : BitVec 32) = FKind.add.neutral .f32 hφ)
    (hacc' : (0x00000000#32 : BitVec 32) = 0x00000000#32)
    (p : Fin a) (i : Fin b) (u : Fin 1) :
    subf (addf (shapeCast ⟨3, ![a, b, 1]⟩ (multiReduction .add [2] ⟨2, ![a, b]⟩ M 0x00000000#32 hR2 hφ hacc) hC1)
          (broadcastTo ⟨3, ![a, b, 1]⟩ (shapeCast ⟨3, ![a, 1, 1]⟩ (shapeCast ⟨2, ![a, 1]⟩
            (multiReduction .add [1] ⟨1, ![a]⟩ (shapeCast ⟨2, ![a, b]⟩ (extractStridedSlice ⟨3, ![a, b, 1]⟩ ![0, 0, 0] M hS) hC2)
              0x00000000#32 hR1 hφ' hacc') hC3) hC4) hB))
        (mulf (broadcast ⟨3, ![a, b, 1]⟩ w) (extractStridedSlice ⟨3, ![a, b, 1]⟩ ![0, 0, 0] M hS')) (ix3 p i u)
      = (∑ j : Fin c, M (ix3 p i j)) + (∑ r : Fin b, M (ix3 p r ⟨0, hc⟩)) - w * M (ix3 p i ⟨0, hc⟩) := by
  rw [subf_apply, addf_apply, mulf_apply, broadcast_apply,
    Cert.LibRank3.shapeCast_ab_ab1_apply, Cert.LibRank3.multiReduction_add_last,
    broadcastTo_a11_ab1_apply, shapeCast_a1_a11_apply, shapeCast_a_a1_apply,
    Cert.LibAxisFold.laneSum_row, slice_col0_apply hc]
  congr 2
  exact Finset.sum_congr rfl fun r _ => by rw [shapeCast_ab1_ab_apply, slice_col0_apply hc]

/-- The second stage on an [a, b, 1] column E, as the kernel computes it, read at (p, i, u): the entry, plus the sum of
    the column of image p, minus w times the entry, all times the entry. -/
theorem selfCross_apply {a b : ℕ} (E : FVec Ideal ⟨3, ![a, b, 1]⟩ .f32) (w : EReal)
    (hR2 : (⟨3, ![a, b, 1]⟩ : Shape).Reduces [2] ⟨2, ![a, b]⟩) (hC1 : (⟨2, ![a, b]⟩ : Shape).ShapeCasts ⟨3, ![a, b, 1]⟩)
    (hC2 : (⟨3, ![a, b, 1]⟩ : Shape).ShapeCasts ⟨2, ![a, b]⟩)
    (hR1 : (⟨2, ![a, b]⟩ : Shape).Reduces [1] ⟨1, ![a]⟩) (hC3 : (⟨1, ![a]⟩ : Shape).ShapeCasts ⟨2, ![a, 1]⟩)
    (hC4 : (⟨2, ![a, 1]⟩ : Shape).ShapeCasts ⟨3, ![a, 1, 1]⟩)
    (hB : (⟨3, ![a, 1, 1]⟩ : Shape).Broadcasts ⟨3, ![a, b, 1]⟩)
    (hφ hφ' : FKind.Formats .f32) (hacc : (0x00000000#32 : BitVec 32) = FKind.add.neutral .f32 hφ)
    (hacc' : (0x00000000#32 : BitVec 32) = 0x00000000#32)
    (p : Fin a) (i : Fin b) (u : Fin 1) :
    mulf (subf (addf (shapeCast ⟨3, ![a, b, 1]⟩ (multiReduction .add [2] ⟨2, ![a, b]⟩ E 0x00000000#32 hR2 hφ hacc) hC1)
          (broadcastTo ⟨3, ![a, b, 1]⟩ (shapeCast ⟨3, ![a, 1, 1]⟩ (shapeCast ⟨2, ![a, 1]⟩
            (multiReduction .add [1] ⟨1, ![a]⟩ (shapeCast ⟨2, ![a, b]⟩ E hC2) 0x00000000#32 hR1 hφ' hacc') hC3) hC4) hB))
        (mulf (broadcast ⟨3, ![a, b, 1]⟩ w) E)) E (ix3 p i u)
      = (E (ix3 p i (0 : Fin 1)) + (∑ r : Fin b, E (ix3 p r (0 : Fin 1))) - w * E (ix3 p i (0 : Fin 1))) * E (ix3 p i (0 : Fin 1)) := by
  have hu : u = 0 := Subsingleton.elim _ _
  subst hu
  rw [mulf_apply, subf_apply, addf_apply, mulf_apply, broadcast_apply,
    Cert.LibRank3.shapeCast_ab_ab1_apply, multiReduction_add_unit_last,
    broadcastTo_a11_ab1_apply, shapeCast_a1_a11_apply, shapeCast_a_a1_apply,
    Cert.LibAxisFold.laneSum_row]
  congr 3
  exact Finset.sum_congr rfl fun r _ => by rw [shapeCast_ab1_ab_apply]

end Cert.KernelIdeal.HandValue.Layout

end
-- ==== Proof.LibBitIndicator.lean ====
/-
  A one-bit word read as a number is its indicator.

  At the ideal instance a float is an extended real and a conversion from an integer word is exact: the unsigned
  conversion of a word is the natural number it denotes, the signed conversion the integer it denotes. A word of one
  bit denotes `1` when the bit is set and `0` otherwise, so converted unsigned — in any float format — it is the
  indicator of the set bit; widened with zeros to 32 bits it still denotes `1` or `0`, non-negative, so the signed
  conversion of the widened word is the same indicator. The indicator is a real number, never an infinity.
-/
import Idealize.ShloMosaic.PureOps.Ideal
import Idealize.ShloMosaic.Lib.ValueIdx

namespace Cert.LibBitIndicator

open Idealize.ShloMosaic Idealize.ShloMosaic.ValueIdx

/-- The unsigned conversion of a one-bit word, in any float format: one for the set bit, zero otherwise. -/
theorem uitofp_bit (φ : FTy) (b : BitVec 1) :
    FloatOps.uitofp (F := Ideal) φ b = if b = 1#1 then (1 : EReal) else 0 := by
  by_cases h : b = 1#1
  · subst h
    rw [if_pos rfl]
    show ((((1#1 : BitVec 1).toNat : ℝ)) : EReal) = 1
    have e : (1#1 : BitVec 1).toNat = 1 := by decide
    rw [e, Nat.cast_one, EReal.coe_one]
  · rw [if_neg h, eq_zero_of_ne_one h]
    show ((((0#1 : BitVec 1).toNat : ℝ)) : EReal) = 0
    have e : (0#1 : BitVec 1).toNat = 0 := by decide
    rw [e, Nat.cast_zero, EReal.coe_zero]

/-- A one-bit word widened with zeros to 32 bits and converted signed: one for the set bit, zero otherwise. -/
theorem sitofp_extui_bit (φ : FTy) (b : BitVec 1) :
    FloatOps.sitofp (F := Ideal) φ (BitVec.setWidth 32 b) = if b = 1#1 then (1 : EReal) else 0 := by
  by_cases h : b = 1#1
  · subst h
    rw [if_pos rfl]
    show ((((BitVec.setWidth 32 (1#1 : BitVec 1)).toInt : ℝ)) : EReal) = 1
    have e : (BitVec.setWidth 32 (1#1 : BitVec 1)).toInt = 1 := by decide
    rw [e, Int.cast_one, EReal.coe_one]
  · rw [if_neg h, eq_zero_of_ne_one h]
    show ((((BitVec.setWidth 32 (0#1 : BitVec 1)).toInt : ℝ)) : EReal) = 0
    have e : (BitVec.setWidth 32 (0#1 : BitVec 1)).toInt = 0 := by decide
    rw [e, Int.cast_zero, EReal.coe_zero]

/-- The indicator of a bit is a real number. -/
theorem bit_indicator_real (b : BitVec 1) : ∃ x : ℝ, (if b = 1#1 then (1 : EReal) else 0) = (x : EReal) := by
  by_cases h : b = 1#1
  · rw [if_pos h]; exact ⟨1, EReal.coe_one.symm⟩
  · rw [if_neg h]; exact ⟨0, EReal.coe_zero.symm⟩

end Cert.LibBitIndicator
-- ==== Proof.KV0Masks.lean ====
/-
  The two constant masks of the first kernel, read at an entry: the lower triangle (one where the column is at most the
  row, zero elsewhere), built from two iotas, a signed comparison and a conversion of the comparison's bit; and the
  mark (the word of minus one on the first row and on the first column, the word of one elsewhere), a select on
  "row is zero or column is zero".
-/
import proofs.«125702_j58712202936346_2_alg».proof.Proof.Gen.KernelIdeal.Skeleton
import proofs.«125702_j58712202936346_2_alg».proof.Proof.Spec
import proofs.«125702_j58712202936346_2_alg».proof.Proof.LibBitIndicator
import Idealize.ShloMosaic.Lib.Pipeline.Value
import Idealize.ShloMosaic.Lib.ValueIdx
import Idealize.ShloMosaic.Lib.ValueLayout

noncomputable section

namespace Cert.KernelIdeal.HandValue

open Idealize.ShloMosaic Idealize.ShloMosaic.ValueIdx
open Cert.KernelIdeal Cert.KernelIdeal.Gen

/-- Two row or column numbers below 256, as 32-bit words, compare signed as they compare as numbers. -/
theorem sle_small (i j : ℕ) (hi : i < 256) (hj : j < 256) :
    (BitVec.ofNat 32 j).sle (BitVec.ofNat 32 i) = decide (j ≤ i) := by
  have ei : (BitVec.ofNat 32 i).toInt = (i : Int) := by
    rw [BitVec.toInt_eq_toNat_cond, BitVec.toNat_ofNat]
    have : i % 2 ^ 32 = i := Nat.mod_eq_of_lt (by omega)
    rw [this]; split <;> omega
  have ej : (BitVec.ofNat 32 j).toInt = (j : Int) := by
    rw [BitVec.toInt_eq_toNat_cond, BitVec.toNat_ofNat]
    have : j % 2 ^ 32 = j := Nat.mod_eq_of_lt (by omega)
    rw [this]; split <;> omega
  show decide ((BitVec.ofNat 32 j).toInt ≤ (BitVec.ofNat 32 i).toInt) = decide (j ≤ i)
  rw [ei, ej]
  exact decide_eq_decide.mpr Int.ofNat_le

/-- A row or column number below 256, as a 32-bit word, is the zero word exactly when it is zero. -/
theorem beq_zero_small (n : ℕ) (hn : n < 256) : (BitVec.ofNat 32 n == 0#32) = decide (n = 0) := by
  by_cases h : n = 0
  · subst h; rfl
  · have hne : BitVec.ofNat 32 n ≠ 0#32 := fun e => h (by
      have e' := congrArg BitVec.toNat e
      rw [BitVec.toNat_ofNat, Nat.mod_eq_of_lt (by omega)] at e'
      exact e')
    rw [decide_eq_false h]
    exact beq_false_of_ne hne

/-- The triangle mask at (i, j). -/
theorem tri_apply (i j : Fin 256) : k0_pay4 (F := Ideal) (ix2 i j) = Cert.Spec.tri i j := by
  unfold k0_pay4
  show FloatOps.sitofp (F := Ideal) .f32 (BitVec.setWidth 32 (IntOp.cmpi .sle
      (iota .tc S256x256 32 [1] iota_S256x256_d1_w32 (ix2 i j)) (iota .tc S256x256 32 [0] iota_S256x256_d0_w32 (ix2 i j)))) = _
  rw [Cert.LibBitIndicator.sitofp_extui_bit, iota_single_apply, iota_single_apply]
  show (if BitVec.ofBool ((BitVec.ofNat 32 j.val).sle (BitVec.ofNat 32 i.val)) = 1#1 then (1 : EReal) else 0) = _
  rw [sle_small i.val j.val i.isLt j.isLt]
  unfold Cert.Spec.tri
  by_cases h : j.val ≤ i.val
  · rw [decide_eq_true h, if_pos h]; exact if_pos (by decide)
  · rw [decide_eq_false h, if_neg h]; exact if_neg (by decide)

/-- The triangle mask laid out as a one-image stack [1, 256, 256], at (u, i, j). -/
theorem tri1_apply (u : Fin 1) (i j : Fin 256) : k0_pay7 (F := Ideal) (ix3 u i j) = Cert.Spec.tri i j := by
  unfold k0_pay7
  exact (shapeCast_ab_1ab_apply _ _ u i j).trans (tri_apply i j)

/-- The mark at (i, j). -/
theorem mark_apply (i j : Fin 256) : k0_pay5 (F := Ideal) (ix2 i j) = Cert.Spec.mark i j := by
  unfold k0_pay5
  show Scalar.select (IntOp.ori
      (IntOp.cmpi .eq (iota .tc S256x256 32 [0] iota_S256x256_d0_w32 (ix2 i j)) (0#32))
      (IntOp.cmpi .eq (iota .tc S256x256 32 [1] iota_S256x256_d1_w32 (ix2 i j)) (0#32)))
      (Ideal.ofBits .f32 0xBF800000#32) (Ideal.ofBits .f32 0x3F800000#32) = _
  rw [iota_single_apply, iota_single_apply]
  show Scalar.select (BitVec.ofBool (BitVec.ofNat 32 i.val == 0#32) ||| BitVec.ofBool (BitVec.ofNat 32 j.val == 0#32))
      (Ideal.ofBits .f32 0xBF800000#32) (Ideal.ofBits .f32 0x3F800000#32) = _
  rw [beq_zero_small i.val i.isLt, beq_zero_small j.val j.isLt]
  unfold Cert.Spec.mark
  by_cases hi : i.val = 0
  · rw [decide_eq_true hi, if_pos (Or.inl hi)]
    by_cases hj : j.val = 0
    · rw [decide_eq_true hj]; rfl
    · rw [decide_eq_false hj]; rfl
  · rw [decide_eq_false hi]
    by_cases hj : j.val = 0
    · rw [decide_eq_true hj, if_pos (Or.inr hj)]; rfl
    · rw [decide_eq_false hj, if_neg (by rintro (h | h); exact hi h; exact hj h)]; rfl

end Cert.KernelIdeal.HandValue

end
-- ==== Proof.KV0Cross.lean ====
/-
  The first kernel's payloads read at an entry of a block of 16 images.

  For one image x (256 by 256) the chain is, with tri the lower-triangle mask and "cross" of an image f at row i the sum
  of row i plus the sum of column 0 minus twice f[i,0]:
      xe = cross (x * tri),  xe2 = (xe + (sum over the rows of xe) - 2 * xe) * xe,  x4 = cross (xe2 spread over the
  columns, times tri);  beside it y = (x * mark)^2 and z = x * x.  The kernel computes each of these for the 16 images
  of a block at once; here every payload is read at (image p, row i, column j) as the one-image chain of image p.
-/
import proofs.«125702_j58712202936346_2_alg».proof.Proof.Gen.KernelIdeal.Skeleton
import proofs.«125702_j58712202936346_2_alg».proof.Proof.Spec
import proofs.«125702_j58712202936346_2_alg».proof.Proof.KV0Layout
import proofs.«125702_j58712202936346_2_alg».proof.Proof.KV0Masks

set_option maxRecDepth 16384

noncomputable section

open scoped BigOperators

namespace Cert.KernelIdeal.HandValue

open Idealize.ShloMosaic Idealize.ShloMosaic.ValueIdx
open Cert.KernelIdeal Cert.KernelIdeal.Gen

/-! ## The chain of one image -/

/-- One image: row, column. -/
abbrev Img1 := Fin 256 → Fin 256 → EReal

/-- Row sum plus the sum of column 0 minus twice the entry in column 0. -/
def cross1 (f : Img1) (i : Fin 256) : EReal :=
  (∑ j : Fin 256, f i j) + (∑ r : Fin 256, f r 0) - Cert.Spec.two * f i 0
def x1 (x : Img1) : Img1 := fun i j => x i j * Cert.Spec.tri i j
def xe (x : Img1) (i : Fin 256) : EReal := cross1 (x1 x) i
def xe2 (x : Img1) (i : Fin 256) : EReal := (xe x i + (∑ r : Fin 256, xe x r) - Cert.Spec.two * xe x i) * xe x i
def x3 (x : Img1) : Img1 := fun i j => xe2 x i * Cert.Spec.tri i j
def x4 (x : Img1) (i : Fin 256) : EReal := cross1 (x3 x) i
def y1 (x : Img1) : Img1 := fun i j => (x i j * Cert.Spec.mark i j) * (x i j * Cert.Spec.mark i j)
def z1 (x : Img1) : Img1 := fun i j => x i j * x i j

/-- The 513 features of row i of one image. -/
def cat1 (x : Img1) (i : Fin 256) (col : Fin 513) : EReal :=
  if h0 : col.val = 0 then x4 x i
  else if h1 : col.val ≤ 256 then y1 x i ⟨col.val - 1, by omega⟩
  else z1 x i ⟨col.val - 257, by have := col.isLt; omega⟩

/-- The specification's features of image b of a stack are the one-image features of that image: the chain never looks
    at another image. -/
theorem cat_eq_cat1 (x : Cert.Spec.Img) (b : Fin 128) (i : Fin 256) (col : Fin 513) :
    Cert.Spec.cat x b i col = cat1 (x b) i col := rfl

/-! ## The kernel's stages on a block -/

/-- Image p of a block of 16 images whose last axis has extent one. -/
def blkImg (x0 : Vec Ideal S16x256x256x1 .f32) (p : Fin 16) : Img1 := fun i j => x0 (ix4 p i j (0 : Fin 1))

/-- A block times the triangle mask spread over its images. -/
def masked (M : FVec Ideal S16x256x256 .f32) : FVec Ideal S16x256x256 .f32 :=
  mulf M (broadcastTo S16x256x256 (k0_pay7 (F := Ideal)) broadcasts_S1x256x256_S16x256x256)

theorem masked_apply (M : FVec Ideal S16x256x256 .f32) (p : Fin 16) (i j : Fin 256) :
    masked M (ix3 p i j) = M (ix3 p i j) * Cert.Spec.tri i j := by
  unfold masked
  rw [mulf_apply, Layout.broadcastTo_1bc_abc_apply, tri1_apply]

/-- The cross of every image of a block, as an [16, 256, 1] column. -/
def crossV (M : FVec Ideal S16x256x256 .f32) : FVec Ideal S16x256x1 .f32 :=
  subf (addf (shapeCast S16x256x1 (multiReduction .add [2] S16x256 M 0x00000000#32 reduces_S16x256x256_S16x256 (.inl rfl) rfl) shapeCasts_S16x256_S16x256x1)
        (broadcastTo S16x256x1 (shapeCast S16x1x1 (shapeCast S16x1
          (multiReduction .add [1] S16 (shapeCast S16x256 (extractStridedSlice S16x256x1 ![0, 0, 0] M slices_S16x256x256_o0_0_0_S16x256x1) shapeCasts_S16x256x1_S16x256)
            0x00000000#32 reduces_S16x256_S16 (.inl rfl) rfl) shapeCasts_S16_S16x1) shapeCasts_S16x1_S16x1x1) broadcasts_S16x1x1_S16x256x1))
    (mulf (broadcast S16x256x1 (Scalar.ofBits .f32 0x40000000#32)) (extractStridedSlice S16x256x1 ![0, 0, 0] M slices_S16x256x256_o0_0_0_S16x256x1))

theorem crossV_apply (M : FVec Ideal S16x256x256 .f32) (p : Fin 16) (i : Fin 256) (u : Fin 1) :
    crossV M (ix3 p i u)
      = (∑ j : Fin 256, M (ix3 p i j)) + (∑ r : Fin 256, M (ix3 p r (0 : Fin 256))) - Cert.Spec.two * M (ix3 p i (0 : Fin 256)) :=
  Layout.cross_apply (by decide) M _ _ _ _ _ _ _ _ _ _ _ _ _ _ p i u

/-- The second stage on the column of crosses. -/
def selfCrossV (E : FVec Ideal S16x256x1 .f32) : FVec Ideal S16x256x1 .f32 :=
  mulf (subf (addf (shapeCast S16x256x1 (multiReduction .add [2] S16x256 E 0x00000000#32 reduces_S16x256x1_S16x256 (.inl rfl) rfl) shapeCasts_S16x256_S16x256x1)
        (broadcastTo S16x256x1 (shapeCast S16x1x1 (shapeCast S16x1
          (multiReduction .add [1] S16 (shapeCast S16x256 E shapeCasts_S16x256x1_S16x256) 0x00000000#32 reduces_S16x256_S16 (.inl rfl) rfl)
            shapeCasts_S16_S16x1) shapeCasts_S16x1_S16x1x1) broadcasts_S16x1x1_S16x256x1))
      (mulf (broadcast S16x256x1 (Scalar.ofBits .f32 0x40000000#32)) E)) E

theorem selfCrossV_apply (E : FVec Ideal S16x256x1 .f32) (p : Fin 16) (i : Fin 256) (u : Fin 1) :
    selfCrossV E (ix3 p i u)
      = (E (ix3 p i (0 : Fin 1)) + (∑ r : Fin 256, E (ix3 p r (0 : Fin 1))) - Cert.Spec.two * E (ix3 p i (0 : Fin 1))) * E (ix3 p i (0 : Fin 1)) :=
  Layout.selfCross_apply E _ _ _ _ _ _ _ _ _ _ _ _ p i u

/-! ## The payloads are these stages -/

theorem pay8_eq (x0 : Vec Ideal S16x256x256x1 .f32) :
    k0_pay8 (F := Ideal) x0 = broadcastTo S16x256x256 (selfCrossV (crossV (masked (k0_pay6 x0)))) broadcasts_S16x256x1_S16x256x256 := rfl

theorem pay1_eq (V : FVec Ideal S16x256x256 .f32) :
    k0_pay1 (F := Ideal) (k0_pay7 (F := Ideal)) V = truncf .bf16 (crossV (masked V)) bitsLt_bf16_f32 := rfl

theorem pay2_eq (V : FVec Ideal S16x256x256 .f32) :
    k0_pay2 (F := Ideal) (k0_pay5 (F := Ideal)) V
      = truncf .bf16 (mulf (mulf V (broadcastTo S16x256x256 (shapeCast S1x256x256 (k0_pay5 (F := Ideal)) shapeCasts_S256x256_S1x256x256) broadcasts_S1x256x256_S16x256x256))
          (mulf V (broadcastTo S16x256x256 (shapeCast S1x256x256 (k0_pay5 (F := Ideal)) shapeCasts_S256x256_S1x256x256) broadcasts_S1x256x256_S16x256x256))) bitsLt_bf16_f32 := rfl

theorem pay3_eq (V : FVec Ideal S16x256x256 .f32) :
    k0_pay3 (F := Ideal) V = truncf .bf16 (mulf V V) bitsLt_bf16_f32 := rfl

/-! ## The payloads at an entry -/

/-- The block with its unit last axis dropped. -/
theorem pay6_apply (x0 : Vec Ideal S16x256x256x1 .f32) (p : Fin 16) (i j : Fin 256) :
    k0_pay6 (F := Ideal) x0 (ix3 p i j) = blkImg x0 p i j := by
  unfold k0_pay6 blkImg
  exact Layout.shapeCast_abc1_abc_apply _ _ p i j

/-- The column of crosses of the masked block is xe of each image. -/
theorem xeV_apply (x0 : Vec Ideal S16x256x256x1 .f32) (p : Fin 16) (i : Fin 256) (u : Fin 1) :
    crossV (masked (k0_pay6 x0)) (ix3 p i u) = xe (blkImg x0 p) i := by
  rw [crossV_apply]
  simp only [masked_apply, pay6_apply]
  rfl

/-- xe2 of each image, spread over the columns. -/
theorem pay8_apply (x0 : Vec Ideal S16x256x256x1 .f32) (p : Fin 16) (i j : Fin 256) :
    k0_pay8 (F := Ideal) x0 (ix3 p i j) = xe2 (blkImg x0 p) i := by
  rw [pay8_eq, Cert.LibRank3.broadcastTo_ab1_abc_apply, selfCrossV_apply]
  simp only [xeV_apply]
  rfl

/-- The first store's payload: x4 of each image. -/
theorem pay1_apply (x0 : Vec Ideal S16x256x256x1 .f32) (p : Fin 16) (i : Fin 256) (u : Fin 1) :
    k0_pay1 (F := Ideal) (k0_pay7 (F := Ideal)) (k0_pay8 x0) (ix3 p i u) = x4 (blkImg x0 p) i := by
  rw [pay1_eq, truncf_apply, crossV_apply]
  simp only [masked_apply, pay8_apply]
  rfl

/-- The second store's payload: y of each image. -/
theorem pay2_apply (x0 : Vec Ideal S16x256x256x1 .f32) (p : Fin 16) (i j : Fin 256) :
    k0_pay2 (F := Ideal) (k0_pay5 (F := Ideal)) (k0_pay6 x0) (ix3 p i j) = y1 (blkImg x0 p) i j := by
  rw [pay2_eq, truncf_apply, mulf_apply, mulf_apply, Layout.broadcastTo_1bc_abc_apply, shapeCast_ab_1ab_apply, mark_apply,
    pay6_apply]
  rfl

/-- The third store's payload: z of each image. -/
theorem pay3_apply (x0 : Vec Ideal S16x256x256x1 .f32) (p : Fin 16) (i j : Fin 256) :
    k0_pay3 (F := Ideal) (k0_pay6 x0) (ix3 p i j) = z1 (blkImg x0 p) i j := by
  rw [pay3_eq, truncf_apply, mulf_apply, pay6_apply]
  rfl

end Cert.KernelIdeal.HandValue

end
-- ==== Proof.KV0Block.lean ====
/-
  What the first kernel leaves in its output block [16, 256, 513], read at (image p, row i, column col): the three
  stores fill column 0 with x4, columns 1..256 with y and columns 257..512 with z of each image, which is the
  specification's row of 513 features of image p.
-/
import proofs.«125702_j58712202936346_2_alg».proof.Proof.KI.Region0
import proofs.«125702_j58712202936346_2_alg».proof.Proof.KV0Cross

set_option maxRecDepth 16384

noncomputable section

namespace Cert.KernelIdeal.HandValue

open Idealize.ShloMosaic Idealize.ShloMosaic.ValueIdx
open Cert.KernelIdeal Cert.KernelIdeal.Gen

theorem hz4 : (![0, 0, 0, 0] : Fin 4 → Nat) = fun _ => 0 := funext fun a => by fin_cases a <;> rfl

/-- An entry of the block in column 0 is the first store's entry of the same image and row. -/
theorem emb_a (p : Fin 16) (i : Fin 256) (col : Fin 513) (h : col.val = 0) :
    (ix3 p i col : S16x256x513.Idx) = Hand.r0_a.emb (ix3 p i (0 : Fin 1)) :=
  funext fun a => Fin.ext (by
    match a with
    | ⟨0, _⟩ => show p.val = 0 + 1 * p.val; omega
    | ⟨1, _⟩ => show i.val = 0 + 1 * i.val; omega
    | ⟨2, _⟩ => show col.val = 0 + 1 * 0; omega)

/-- An entry in columns 1..256 is the second store's entry one column to the left. -/
theorem emb_b (p : Fin 16) (i : Fin 256) (col : Fin 513) (j : Fin 256) (h : col.val = j.val + 1) :
    (ix3 p i col : S16x256x513.Idx) = Hand.r0_b.emb (ix3 p i j) :=
  funext fun a => Fin.ext (by
    match a with
    | ⟨0, _⟩ => show p.val = 0 + 1 * p.val; omega
    | ⟨1, _⟩ => show i.val = 0 + 1 * i.val; omega
    | ⟨2, _⟩ => show col.val = 1 + 1 * j.val; omega)

/-- An entry in columns 257..512 is the third store's entry 257 columns to the left. -/
theorem emb_c (p : Fin 16) (i : Fin 256) (col : Fin 513) (j : Fin 256) (h : col.val = j.val + 257) :
    (ix3 p i col : S16x256x513.Idx) = Hand.r0_c.emb (ix3 p i j) :=
  funext fun a => Fin.ext (by
    match a with
    | ⟨0, _⟩ => show p.val = 0 + 1 * p.val; omega
    | ⟨1, _⟩ => show i.val = 0 + 1 * i.val; omega
    | ⟨2, _⟩ => show col.val = 257 + 1 * j.val; omega)

/-- Columns below 257 are outside the third store. -/
theorem not_mem_c (p : Fin 16) (i : Fin 256) (col : Fin 513) (h : col.val < 257) :
    (ix3 p i col : S16x256x513.Idx) ∉ Hand.r0_c.set := fun hm => by
  have h2 := (Rect.mem_set_unit (s := S16x256x513)).mp hm (2 : Fin 3)
  have : 257 ≤ col.val := h2.1
  omega

/-- Column 0 is outside the second store. -/
theorem not_mem_b (p : Fin 16) (i : Fin 256) (col : Fin 513) (h : col.val = 0) :
    (ix3 p i col : S16x256x513.Idx) ∉ Hand.r0_b.set := fun hm => by
  have h2 := (Rect.mem_set_unit (s := S16x256x513)).mp hm (2 : Fin 3)
  have : 1 ≤ col.val := h2.1
  omega

/-- The body's one load reads the whole input block. -/
theorem ld_rin0 (x0 : Vec Ideal S16x256x256x1 .f32) : View.ld x0 Hand.rin0 = x0 :=
  View.ld_unit_zero (Val := Elt Ideal) (S := S16x256x256x1) (e := .f32) hz4 inb_S16x256x256x1_S16x256x256x1_0_0_0_0 x0

/-- The three stores over the payloads of the block itself. -/
theorem out0_1_eq (x0 : Vec Ideal S16x256x256x1 .f32) :
    Hand.out0_1 (F := Ideal) x0
      = View.canon [⟨Hand.r0_c, k0_pay3 (k0_pay6 x0)⟩, ⟨Hand.r0_b, k0_pay2 (k0_pay5 (F := Ideal)) (k0_pay6 x0)⟩,
          ⟨Hand.r0_a, k0_pay1 (k0_pay7 (F := Ideal)) (k0_pay8 x0)⟩] := by
  unfold Hand.out0_1
  rw [ld_rin0]

/-- Off a store's rectangle the block is what the earlier stores left. -/
theorem canon_skip (r : Rect S16x256x513) (w : r.shape.Idx → Elt Ideal .bf16) (L : List (View.Piece (Elt Ideal) S16x256x513 .bf16))
    {y : S16x256x513.Idx} (h : y ∉ r.set) : View.canon (⟨r, w⟩ :: L) y = View.canon L y :=
  View.canon_cons_of_not_mem ⟨r, w⟩ L h

/-- Under a store's rectangle the block is the store's payload. -/
theorem canon_hit (r : Rect S16x256x513) (w : r.shape.Idx → Elt Ideal .bf16) (L : List (View.Piece (Elt Ideal) S16x256x513 .bf16))
    (x : r.shape.Idx) : View.canon (⟨r, w⟩ :: L) (r.emb x) = w x :=
  View.canon_cons_emb r w L x

/-- THE BLOCK the body leaves, at (p, i, col): the features of row i of image p of the input block. -/
theorem out0_1_apply (x0 : Vec Ideal S16x256x256x1 .f32) (p : Fin 16) (i : Fin 256) (col : Fin 513) :
    Hand.out0_1 (F := Ideal) x0 (ix3 p i col) = cat1 (blkImg x0 p) i col := by
  rw [out0_1_eq]
  unfold cat1
  by_cases h0 : col.val = 0
  · rw [dif_pos h0]
    refine (canon_skip Hand.r0_c _ _ (not_mem_c p i col (by omega))).trans ?_
    refine (canon_skip Hand.r0_b _ _ (not_mem_b p i col h0)).trans ?_
    rw [emb_a p i col h0]
    exact (canon_hit Hand.r0_a _ _ _).trans (pay1_apply x0 p i 0)
  · rw [dif_neg h0]
    by_cases h1 : col.val ≤ 256
    · rw [dif_pos h1]
      refine (canon_skip Hand.r0_c _ _ (not_mem_c p i col (by omega))).trans ?_
      rw [emb_b p i col ⟨col.val - 1, by omega⟩ (by show col.val = col.val - 1 + 1; omega)]
      exact (canon_hit Hand.r0_b _ _ _).trans (pay2_apply x0 p i _)
    · rw [dif_neg h1, emb_c p i col ⟨col.val - 257, by have := col.isLt; omega⟩ (by show col.val = col.val - 257 + 257; omega)]
      exact (canon_hit Hand.r0_c _ _ _).trans (pay3_apply x0 p i _)

end Cert.KernelIdeal.HandValue

end
-- ==== Proof.KV0Final.lean ====
/-
  From blocks to the array: the first kernel's output array [128, 256, 513] after its 8 grid points.

  Point t loads images 16 t .. 16 t + 15 and writes back the block of their feature rows at the same images; every
  entry of that block is the specification's feature of its image, row and column, and the 8 blocks cover the 128
  images. So the array ends holding the specification's feature block of the input array as the region finds it.
-/
import proofs.«125702_j58712202936346_2_alg».proof.Proof.KI.Region0
import proofs.«125702_j58712202936346_2_alg».proof.Proof.KV0Block
import proofs.«125702_j58712202936346_2_alg».proof.Proof.Spec
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-- The printed index maps, decided over the grid: both windows sit at the block of images the point names, at block 0
    on every other axis; there are 8 such blocks. -/
theorem idx_facts0 : ∀ t : Fin cfg0.N, win0_0.index t (0 : Fin 4) = win0_1.index t (0 : Fin 3)
    ∧ win0_0.index t (1 : Fin 4) = 0 ∧ win0_0.index t (2 : Fin 4) = 0 ∧ win0_0.index t (3 : Fin 4) = 0
    ∧ win0_1.index t (1 : Fin 3) = 0 ∧ win0_1.index t (2 : Fin 3) = 0
    ∧ win0_1.index t (0 : Fin 3) ≤ 7 :=
  (by decide +kernel : ∀ t : Fin grid0.N, _)

/-- Every block of 16 images is some point's. -/
theorem idx_onto0 : ∀ q : Fin 8, ∃ t : Fin cfg0.N, win0_1.index t = ![q.val, 0, 0] :=
  (by decide +kernel : ∀ q : Fin 8, ∃ t : Fin grid0.N, win0_1.index t = ![q.val, 0, 0])

/-- A block of 16 images that reads images 16 b0 .. 16 b0 + 15 of an array A leaves, at each entry, the specification's
    feature of A at the entry's place in the whole array. -/
theorem blk_eq (x0 : Vec Ideal S16x256x256x1 .f32) (A : S128x256x256x1.Idx → EReal) (b0 : ℕ) (hb0 : b0 ≤ 7)
    (hx : ∀ (p : Fin 16) (r s : Fin 256), x0 (ix4 p r s (0 : Fin 1)) = A (ix4 (⟨b0 * 16 + p.val, by omega⟩ : Fin 128) r s (0 : Fin 1)))
    (j : S16x256x513.Idx) (k : S128x256x513.Idx) (hk0 : (k 0).val = b0 * 16 + (j 0).val) (hk1 : (k 1).val = (j 1).val)
    (hk2 : (k 2).val = (j 2).val) :
    Hand.out0_1 (F := Ideal) x0 j = Cert.Spec.catArr A k := by
  obtain ⟨p, i, col, rfl⟩ : ∃ (p : Fin 16) (i : Fin 256) (col : Fin 513), j = ix3 p i col := ⟨j 0, j 1, j 2, eq_ix3 j⟩
  obtain ⟨b, i', col', rfl⟩ : ∃ (b : Fin 128) (i' : Fin 256) (col' : Fin 513), k = ix3 b i' col' := ⟨k 0, k 1, k 2, eq_ix3 k⟩
  have hb : b.val = b0 * 16 + p.val := hk0
  obtain rfl : i' = i := Fin.ext hk1
  obtain rfl : col' = col := Fin.ext hk2
  rw [out0_1_apply]
  show cat1 (blkImg x0 p) i' col' = cat1 (Cert.Spec.img A b) i' col'
  have e : blkImg x0 p = Cert.Spec.img A b := by
    funext r s
    show x0 (ix4 p r s (0 : Fin 1)) = A (ix4 b r s (0 : Fin 1))
    rw [hx p r s]
    exact congrArg (fun q : Fin 128 => A (ix4 q r s (0 : Fin 1))) (Fin.ext hb.symm)
  rw [e]

variable (V : (c : Dev nD) → (b : Ref sig .tc) → Buf (Elt Ideal) ((c : Thread nD τ).loc b))

/-- What point t writes back is block t of the specification's feature block of the input array. -/
theorem flushed0_eq (c : Dev nD) (t : Fin cfg0.N) :
    (Hand.dat0 (F := Ideal) V c).flushed 1 t = ((cfg0.win 1).blk t).view.read (Elt Ideal) (Cert.Spec.catArr (V c main_arg0)) := by
  show (cfg0.win 1).cut (grid0.coords t) ((Hand.dat0 (F := Ideal) V c).after 1 t) = _
  rw [Hand.after0_1]
  obtain ⟨e0, e1, e2, e3, e4, e5, e6⟩ := idx_facts0 t
  funext j
  show Hand.out0_1 (F := Ideal) (Hand.iblk0 V c 0 t) j = Cert.Spec.catArr (V c main_arg0) (((cfg0.win 1).blk t).view.emb j)
  refine blk_eq (Hand.iblk0 V c 0 t) (V c main_arg0) (win0_1.index t (0 : Fin 3)) e6 ?_ j _ ?_ ?_ ?_
  · intro p r s
    show V c main_arg0 (((cfg0.win 0).blk t).view.emb (ix4 p r s (0 : Fin 1))) = _
    refine congrArg (V c main_arg0) (funext fun a => Fin.ext ?_)
    match a with
    | ⟨0, _⟩ => show win0_0.index t (0 : Fin 4) * 16 + 1 * p.val = win0_1.index t (0 : Fin 3) * 16 + p.val; omega
    | ⟨1, _⟩ => show win0_0.index t (1 : Fin 4) * 256 + 1 * r.val = r.val; omega
    | ⟨2, _⟩ => show win0_0.index t (2 : Fin 4) * 256 + 1 * s.val = s.val; omega
    | ⟨3, _⟩ => show win0_0.index t (3 : Fin 4) * 1 + 1 * 0 = 0; omega
  · show win0_1.index t (0 : Fin 3) * 16 + 1 * (j 0).val = win0_1.index t (0 : Fin 3) * 16 + (j 0).val; omega
  · show win0_1.index t (1 : Fin 3) * 256 + 1 * (j 1).val = (j 1).val; omega
  · show win0_1.index t (2 : Fin 3) * 513 + 1 * (j 2).val = (j 2).val; omega

/-- An entry of the array is in point t's block iff each coordinate is in the block's range on its axis. -/
theorem mem_blk0 (t : Fin cfg0.N) (i : S128x256x513.Idx) :
    i ∈ ((cfg0.win 1).blk t).view.set ↔ ∀ a : Fin 3, win0_1.index t a * S16x256x513.size a ≤ (i a).val ∧ (i a).val < win0_1.index t a * S16x256x513.size a + S16x256x513.size a := by
  show i ∈ ((View.whole main_v0).slice (win0_1.rect t)).set ↔ _
  rw [View.set_slice_whole, Rect.mem_set_unit]
  exact Iff.rfl

/-- Every entry of the array is in some point's block: image b is in the block of point b / 16. -/
theorem cover0 (i : S128x256x513.Idx) :
    ∃ t : Fin cfg0.N, (cfg0.win 1).flush t = true ∧ i ∈ ((cfg0.win 1).blk t).view.set := by
  have hi0 : (i 0).val < 128 := (i 0).isLt
  have hi1 : (i 1).val < 256 := (i 1).isLt
  have hi2 : (i 2).val < 513 := (i 2).isLt
  obtain ⟨t, ht⟩ := idx_onto0 ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [mem_blk0]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 256 ≤ (i 1).val ∧ (i 1).val < win0_1.index t (1 : Fin 3) * 256 + 256; omega
  | ⟨2, _⟩ => show win0_1.index t (2 : Fin 3) * 513 ≤ (i 2).val ∧ (i 2).val < win0_1.index t (2 : Fin 3) * 513 + 513; omega

/-- THE ARRAY after the first kernel: the specification's feature block of the input array as the region finds it. -/
theorem arr0_final (c : Dev nD) :
    ((Hand.dat0 (F := Ideal) V c).arrAt 1 cfg0.N : S128x256x513.Idx → EReal) = Cert.Spec.catArr (V c main_arg0) :=
  (Hand.dat0 (F := Ideal) V c).arrAt_eq_of_cover 1 (Cert.Spec.catArr (V c main_arg0)) (fun t _ => flushed0_eq V c t) cover0

end Cert.KernelIdeal.HandValue

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.LibMatmulCols.lean ====
/-
  A matrix product that contracts BOTH operands' leading axes, read at one entry.

  For dimension numbers that contract the left operand's first axis with the right operand's first axis — the left
  operand [n, a], the right operand [n, b], the result [a, b], no batch axes: the product of the left operand's
  transpose with the right operand, no transpose formed — the entry (p, q) of the product is the sum over k of
  left (k, p) times right (k, q).

  `matmul_zero_cols`   a `tpu.matmul` into the zero accumulator at the ideal instance.
-/
import Idealize.ShloMosaic.PureOps.Ideal.Laws
import Idealize.ShloMosaic.Lib.ValueIdx

noncomputable section

open scoped BigOperators

namespace Cert.Lib.MatmulCols

open Idealize.ShloMosaic Idealize.ShloMosaic.ValueIdx

variable {a n b : ℕ}

/-- A `tpu.matmul` of an [n, a] by an [n, b] operand contracting the two leading axes, into the zero accumulator, at
    the ideal instance, read at `(p, q)`: the sum over `k` of left `(k, p)` times right `(k, q)`. -/
theorem matmul_zero_cols {φ₁ φ₂ : FTy}
    (w : DotDims.WF ⟨2, ![n, a]⟩ ⟨2, ![n, b]⟩ ⟨2, ![a, b]⟩ [0] [0] [1] [1] [] [])
    (prec : Option ContractPrecision) (l : FVec Ideal ⟨2, ![n, a]⟩ φ₁) (r : FVec Ideal ⟨2, ![n, b]⟩ φ₂)
    (p : Fin a) (q : Fin b) :
    matmul (⟨[0], [0], [1], [1], [], [], w⟩ : DotDims ⟨2, ![n, a]⟩ ⟨2, ![n, b]⟩ ⟨2, ![a, b]⟩) prec l r
        (constant ⟨2, ![a, b]⟩ .f32 0x00000000#32) (ix2 p q)
      = ∑ k : Fin n, l (ix2 k p) * r (ix2 k q) := by
  refine (Ideal.matmul_constant_zero_apply (⟨[0], [0], [1], [1], [], [], w⟩ : DotDims ⟨2, ![n, a]⟩ ⟨2, ![n, b]⟩ ⟨2, ![a, b]⟩) prec l r (ix2 p q)).trans ?_
  rw [← Equiv.sum_comp (contrEquiv1 (⟨[0], [0], [1], [1], [], [], w⟩ : DotDims ⟨2, ![n, a]⟩ ⟨2, ![n, b]⟩ ⟨2, ![a, b]⟩) n rfl rfl).symm]
  refine Finset.sum_congr rfl fun k _ => ?_
  have c2 := contrEquiv1_symm_val
    (⟨[0], [0], [1], [1], [], [], w⟩ : DotDims ⟨2, ![n, a]⟩ ⟨2, ![n, b]⟩ ⟨2, ![a, b]⟩) n rfl rfl k
  have l2 : (⟨[0], [0], [1], [1], [], [], w⟩ : DotDims ⟨2, ![n, a]⟩ ⟨2, ![n, b]⟩ ⟨2, ![a, b]⟩).lhsIdx (ix2 p q)
      ((contrEquiv1 _ n rfl rfl).symm k) = ix2 k p := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![n, a]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

/-- The plain product of an [a, n] by an [n, b] operand as a `tpu.matmul` into the zero accumulator, at the ideal
    instance, read at `(p, q)`: the sum over `k` of left `(p, k)` times right `(k, q)`. -/
theorem matmul_zero_plain {φ₁ φ₂ : FTy}
    (w : DotDims.WF ⟨2, ![a, n]⟩ ⟨2, ![n, b]⟩ ⟨2, ![a, b]⟩ [1] [0] [0] [1] [] [])
    (prec : Option ContractPrecision) (l : FVec Ideal ⟨2, ![a, n]⟩ φ₁) (r : FVec Ideal ⟨2, ![n, b]⟩ φ₂)
    (p : Fin a) (q : Fin b) :
    matmul (⟨[1], [0], [0], [1], [], [], w⟩ : DotDims ⟨2, ![a, n]⟩ ⟨2, ![n, b]⟩ ⟨2, ![a, b]⟩) prec l r
        (constant ⟨2, ![a, b]⟩ .f32 0x00000000#32) (ix2 p q)
      = ∑ k : Fin n, l (ix2 p k) * r (ix2 k q) := by
  refine (Ideal.matmul_constant_zero_apply (⟨[1], [0], [0], [1], [], [], w⟩ : DotDims ⟨2, ![a, n]⟩ ⟨2, ![n, b]⟩ ⟨2, ![a, b]⟩) prec l r (ix2 p q)).trans ?_
  rw [← Equiv.sum_comp (contrEquiv1 (⟨[1], [0], [0], [1], [], [], w⟩ : DotDims ⟨2, ![a, n]⟩ ⟨2, ![n, b]⟩ ⟨2, ![a, b]⟩) n rfl rfl).symm]
  refine Finset.sum_congr rfl fun k _ => ?_
  have c2 := contrEquiv1_symm_val
    (⟨[1], [0], [0], [1], [], [], w⟩ : DotDims ⟨2, ![a, n]⟩ ⟨2, ![n, b]⟩ ⟨2, ![a, b]⟩) n rfl rfl k
  have l2 : (⟨[1], [0], [0], [1], [], [], w⟩ : DotDims ⟨2, ![a, n]⟩ ⟨2, ![n, b]⟩ ⟨2, ![a, b]⟩).lhsIdx (ix2 p q)
      ((contrEquiv1 _ n rfl rfl).symm k) = ix2 p k := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![a, n]⟩ ⟨2, ![n, b]⟩ ⟨2, ![a, b]⟩).rhsIdx (ix2 p q)
      ((contrEquiv1 _ n rfl rfl).symm k) = ix2 k q := by
    funext ax; apply Fin.ext
    match ax with
    | ⟨0, _⟩ => simp [DotDims.rhsIdx]; exact c2
    | ⟨1, _⟩ => simp [DotDims.rhsIdx]; rfl
  rw [l2, r2]

end Cert.Lib.MatmulCols

end
-- ==== Proof.KV1Pay.lean ====
/-
  The second kernel's arithmetic, entry by entry, at the ideal instance.

  What the body stores is one of three values.  At the first point it first fills the accumulator with the zero word.
  At every point it stores  acc + A . B  over the accumulator, A the [128, 3456] block of features and B the
  [3456, 768] block of weights: entry (p, q) gains the sum over the block's 3456 positions of A (p, k) * B (k, q).
  At the last point it stores the two small layers of the accumulator: the bias row added and clamped at the zero
  word, times the second weights, the second bias row added and clamped, times the third weights, the third bias row
  added.  A change of float format is the identity here, and a cast to the same shape changes nothing.
-/
import proofs.«125702_j58712202936346_2_alg».proof.Proof.Gen.KernelIdeal.Skeleton
import proofs.«125702_j58712202936346_2_alg».proof.Proof.Spec
import proofs.«125702_j58712202936346_2_alg».proof.Proof.LibMatmulCols
import Idealize.ShloMosaic.Lib.ValueIdx
import Idealize.ShloMosaic.Lib.Pipeline.Value
import Idealize.ShloMosaic.Lib.ValueLayout

noncomputable section

open scoped BigOperators

namespace Cert.KernelIdeal.HandValue

open Idealize.ShloMosaic Idealize.ShloMosaic.ValueIdx
open Cert.KernelIdeal Cert.KernelIdeal.Gen

/-! ## The three products into the zero accumulator -/

theorem mm1 (l : FVec Ideal S128x3456 .bf16) (r : FVec Ideal S3456x768 .bf16) (p : Fin 128) (q : Fin 768) :
    matmul dot_S128x3456_S3456x768_S128x768_1_0_0_1_n_n none l r (constant S128x768 .f32 0x00000000#32) (ix2 p q)
      = ∑ k : Fin 3456, l (ix2 p k) * r (ix2 k q) :=
  Cert.Lib.MatmulCols.matmul_zero_plain dot_S128x3456_S3456x768_S128x768_1_0_0_1_n_n.wf none l r p q
theorem mm2 (l : FVec Ideal S128x768 .bf16) (r : FVec Ideal S768x10 .bf16) (p : Fin 128) (q : Fin 10) :
    matmul dot_S128x768_S768x10_S128x10_1_0_0_1_n_n none l r (constant S128x10 .f32 0x00000000#32) (ix2 p q)
      = ∑ k : Fin 768, l (ix2 p k) * r (ix2 k q) :=
  Cert.Lib.MatmulCols.matmul_zero_plain dot_S128x768_S768x10_S128x10_1_0_0_1_n_n.wf none l r p q
theorem mm3 (l : FVec Ideal S128x10 .bf16) (r : FVec Ideal S10x10 .bf16) (p : Fin 128) (q : Fin 10) :
    matmul dot_S128x10_S10x10_S128x10_1_0_0_1_n_n none l r (constant S128x10 .f32 0x00000000#32) (ix2 p q)
      = ∑ k : Fin 10, l (ix2 p k) * r (ix2 k q) :=
  Cert.Lib.MatmulCols.matmul_zero_plain dot_S128x10_S10x10_S128x10_1_0_0_1_n_n.wf none l r p q

/-! ## The payloads -/

/-- The fill of the first point: the zero word everywhere. -/
theorem pay1_at (p : Fin 128) (q : Fin 768) : k1_pay1 (F := Ideal) (ix2 p q) = Cert.Spec.zero := by
  unfold k1_pay1
  rw [shapeCast_self]
  rfl

/-- The accumulation: the entry found plus the block product's entry. -/
theorem pay2_at (v3 : Vec Ideal S128x3456 .bf16) (v5 : Vec Ideal S3456x768 .f32) (v7 : Vec Ideal S128x768 .f32)
    (p : Fin 128) (q : Fin 768) :
    k1_pay2 v3 v5 v7 (ix2 p q) = v7 (ix2 p q) + ∑ k : Fin 3456, v3 (ix2 p k) * v5 (ix2 k q) := by
  unfold k1_pay2
  rw [shapeCast_self, shapeCast_self]
  rw [addf_apply, mm1]
  rfl

/-- The two small layers of the accumulator. -/
theorem pay3_at (v16 : Vec Ideal S128x768 .f32) (v17 : Vec Ideal S1x768 .f32) (v24 : Vec Ideal S768x10 .f32)
    (v27 : Vec Ideal S1x10 .f32) (v34 : Vec Ideal S10x10 .f32) (v37 : Vec Ideal S1x10 .f32) (p : Fin 128) (q : Fin 10) :
    k1_pay3 v16 v17 v24 v27 v34 v37 (ix2 p q)
      = (∑ k : Fin 10,
          max ((∑ j : Fin 768, max (v16 (ix2 p j) + v17 (ix2 0 j)) Cert.Spec.zero * v24 (ix2 j k)) + v27 (ix2 0 k)) Cert.Spec.zero
            * v34 (ix2 k q))
        + v37 (ix2 0 q) := by
  unfold k1_pay3
  simp only [shapeCast_self]
  rw [addf_apply, mm3, broadcastTo_1b_ab_apply]
  refine congrArg (· + v37 (ix2 0 q)) (Finset.sum_congr rfl fun k _ => ?_)
  rw [truncf_apply, truncf_apply, maximumf_apply, addf_apply, mm2, broadcastTo_1b_ab_apply, broadcast_apply]
  refine congrArg (fun t => max (t + v27 (ix2 0 k)) _ * v34 (ix2 k q)) (Finset.sum_congr rfl fun j _ => ?_)
  rw [truncf_apply, truncf_apply, maximumf_apply, addf_apply, broadcastTo_1b_ab_apply, broadcast_apply]
  rfl

end Cert.KernelIdeal.HandValue

end
-- ==== Proof.KV1Final.lean ====
/-
  What the second kernel leaves in its result array, at the ideal instance.

  Point n of the grid adds to entry (p, q) of the accumulator the products of the n-th run of 3456 features of image p
  with their weights for unit q: its two blocks are columns 3456 n .. 3456 n + 3455 of the feature matrix and the same
  rows of the weight matrix.  The accumulator starts at the zero word, so after the 38 points entry (p, q) is the sum
  over all 38 * 3456 = 131328 features; only that addition is commutative and associative is used.  The last point stores
  the two small layers of the accumulator into the output's buffer, whose block is the whole result array and is written
  back once, there.
-/
import proofs.«125702_j58712202936346_2_alg».proof.Proof.KI.Region1
import proofs.«125702_j58712202936346_2_alg».proof.Proof.Spec
import proofs.«125702_j58712202936346_2_alg».proof.Proof.LibSumChunks
import proofs.«125702_j58712202936346_2_alg».proof.Proof.KV1Pay
import Idealize.ShloMosaic.Lib.Pipeline.Value
import Idealize.ShloMosaic.Lib.ValueIdx

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

/-! ## The arrays and the blocks as matrices of extended reals -/

abbrev Fm : S128x131328.Idx → EReal := V c main_v1
abbrev W1 : S131328x768.Idx → EReal := V c main_arg1
abbrev R2 : S1x768.Idx → EReal := V c main_v2
abbrev W3 : S768x10.Idx → EReal := V c main_arg3
abbrev R4 : S1x10.Idx → EReal := V c main_v3
abbrev W5 : S10x10.Idx → EReal := V c main_arg5
abbrev R6 : S1x10.Idx → EReal := V c main_v4
abbrev B0 (t : Fin cfg1.N) : S128x3456.Idx → EReal := Hand.iblk1 V c 0 t
abbrev B1 (t : Fin cfg1.N) : S3456x768.Idx → EReal := Hand.iblk1 V c 1 t
abbrev B2 (t : Fin cfg1.N) : S1x768.Idx → EReal := Hand.iblk1 V c 2 t
abbrev B3 (t : Fin cfg1.N) : S768x10.Idx → EReal := Hand.iblk1 V c 3 t
abbrev B4 (t : Fin cfg1.N) : S1x10.Idx → EReal := Hand.iblk1 V c 4 t
abbrev B5 (t : Fin cfg1.N) : S10x10.Idx → EReal := Hand.iblk1 V c 5 t
abbrev B6 (t : Fin cfg1.N) : S1x10.Idx → EReal := Hand.iblk1 V c 6 t
/-- The accumulator after point n. -/
abbrev ACC (n : ℕ) (hn : n < cfg1.N) : S128x768.Idx → EReal := (Hand.outsAt1 V c n hn).2

/-! ## Where a block's entry sits in its array -/

/-- The block indices over the grid: the feature window moves along the columns, the weight window along the rows, the
    other windows stay. -/
theorem idx1_0 : ∀ t : Fin cfg1.N, win1_0.index t 0 = 0 ∧ win1_0.index t 1 = t.val :=
  (by decide +kernel : ∀ t : Fin grid1.N, win1_0.index t 0 = 0 ∧ win1_0.index t 1 = t.val)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = 0 ∧ win1_2.index t 1 = 0 :=
  (by decide +kernel : ∀ t : Fin grid1.N, win1_2.index t 0 = 0 ∧ win1_2.index t 1 = 0)
theorem idx1_3 : ∀ t : Fin cfg1.N, win1_3.index t 0 = 0 ∧ win1_3.index t 1 = 0 :=
  (by decide +kernel : ∀ t : Fin grid1.N, win1_3.index t 0 = 0 ∧ win1_3.index t 1 = 0)
theorem idx1_4 : ∀ t : Fin cfg1.N, win1_4.index t 0 = 0 ∧ win1_4.index t 1 = 0 :=
  (by decide +kernel : ∀ t : Fin grid1.N, win1_4.index t 0 = 0 ∧ win1_4.index t 1 = 0)
theorem idx1_5 : ∀ t : Fin cfg1.N, win1_5.index t 0 = 0 ∧ win1_5.index t 1 = 0 :=
  (by decide +kernel : ∀ t : Fin grid1.N, win1_5.index t 0 = 0 ∧ win1_5.index t 1 = 0)
theorem idx1_6 : ∀ t : Fin cfg1.N, win1_6.index t 0 = 0 ∧ win1_6.index t 1 = 0 :=
  (by decide +kernel : ∀ t : Fin grid1.N, win1_6.index t 0 = 0 ∧ win1_6.index t 1 = 0)
theorem idx1_7 : ∀ t : Fin cfg1.N, win1_7.index t 0 = 0 ∧ win1_7.index t 1 = 0 :=
  (by decide +kernel : ∀ t : Fin grid1.N, win1_7.index t 0 = 0 ∧ win1_7.index t 1 = 0)

theorem blk0_raw (t : Fin cfg1.N) (p : Fin 128) (k : Fin 3456) (hk : k.val + 3456 * t.val < 131328) :
    (Hand.iblk1 V c 0 t : Vec Ideal S128x3456 .bf16) (ix2 p k) = V c main_v1 (ix2 p ⟨k.val + 3456 * t.val, hk⟩) := by
  have hi := idx1_0 t
  unfold Hand.iblk1
  rw [View.read_apply]
  show V c main_v1 _ = V c main_v1 _
  congr 1
  funext a
  apply Fin.ext
  match a with
  | ⟨0, _⟩ => show win1_0.index t 0 * 128 + 1 * p.val = p.val; rw [hi.1]; omega
  | ⟨1, _⟩ => show win1_0.index t 1 * 3456 + 1 * k.val = k.val + 3456 * t.val; rw [hi.2]; omega

theorem blk1_raw (t : Fin cfg1.N) (k : Fin 3456) (q : Fin 768) (hk : k.val + 3456 * t.val < 131328) :
    (Hand.iblk1 V c 1 t : Vec Ideal S3456x768 .f32) (ix2 k q) = V c main_arg1 (ix2 ⟨k.val + 3456 * t.val, hk⟩ q) := by
  have hi := idx1_1 t
  unfold Hand.iblk1
  rw [View.read_apply]
  show V c main_arg1 _ = V c main_arg1 _
  congr 1
  funext a
  apply Fin.ext
  match a with
  | ⟨0, _⟩ => show win1_1.index t 0 * 3456 + 1 * k.val = k.val + 3456 * t.val; rw [hi.1]; omega
  | ⟨1, _⟩ => show win1_1.index t 1 * 768 + 1 * q.val = q.val; rw [hi.2]; omega

theorem blk2_raw (t : Fin cfg1.N) (i : Fin 1) (j : Fin 768) :
    (Hand.iblk1 V c 2 t : Vec Ideal S1x768 .f32) (ix2 i j) = V c main_v2 (ix2 i j) := by
  have hi := idx1_2 t
  unfold Hand.iblk1
  rw [View.read_apply]
  show V c main_v2 _ = V c main_v2 _
  congr 1
  funext a
  apply Fin.ext
  match a with
  | ⟨0, _⟩ => show win1_2.index t 0 * 1 + 1 * i.val = i.val; rw [hi.1]; omega
  | ⟨1, _⟩ => show win1_2.index t 1 * 768 + 1 * j.val = j.val; rw [hi.2]; omega
theorem blk3_raw (t : Fin cfg1.N) (i : Fin 768) (j : Fin 10) :
    (Hand.iblk1 V c 3 t : Vec Ideal S768x10 .f32) (ix2 i j) = V c main_arg3 (ix2 i j) := by
  have hi := idx1_3 t
  unfold Hand.iblk1
  rw [View.read_apply]
  show V c main_arg3 _ = V c main_arg3 _
  congr 1
  funext a
  apply Fin.ext
  match a with
  | ⟨0, _⟩ => show win1_3.index t 0 * 768 + 1 * i.val = i.val; rw [hi.1]; omega
  | ⟨1, _⟩ => show win1_3.index t 1 * 10 + 1 * j.val = j.val; rw [hi.2]; omega
theorem blk4_raw (t : Fin cfg1.N) (i : Fin 1) (j : Fin 10) :
    (Hand.iblk1 V c 4 t : Vec Ideal S1x10 .f32) (ix2 i j) = V c main_v3 (ix2 i j) := by
  have hi := idx1_4 t
  unfold Hand.iblk1
  rw [View.read_apply]
  show V c main_v3 _ = V c main_v3 _
  congr 1
  funext a
  apply Fin.ext
  match a with
  | ⟨0, _⟩ => show win1_4.index t 0 * 1 + 1 * i.val = i.val; rw [hi.1]; omega
  | ⟨1, _⟩ => show win1_4.index t 1 * 10 + 1 * j.val = j.val; rw [hi.2]; omega
theorem blk5_raw (t : Fin cfg1.N) (i : Fin 10) (j : Fin 10) :
    (Hand.iblk1 V c 5 t : Vec Ideal S10x10 .f32) (ix2 i j) = V c main_arg5 (ix2 i j) := by
  have hi := idx1_5 t
  unfold Hand.iblk1
  rw [View.read_apply]
  show V c main_arg5 _ = V c main_arg5 _
  congr 1
  funext a
  apply Fin.ext
  match a with
  | ⟨0, _⟩ => show win1_5.index t 0 * 10 + 1 * i.val = i.val; rw [hi.1]; omega
  | ⟨1, _⟩ => show win1_5.index t 1 * 10 + 1 * j.val = j.val; rw [hi.2]; omega
theorem blk6_raw (t : Fin cfg1.N) (i : Fin 1) (j : Fin 10) :
    (Hand.iblk1 V c 6 t : Vec Ideal S1x10 .f32) (ix2 i j) = V c main_v4 (ix2 i j) := by
  have hi := idx1_6 t
  unfold Hand.iblk1
  rw [View.read_apply]
  show V c main_v4 _ = V c main_v4 _
  congr 1
  funext a
  apply Fin.ext
  match a with
  | ⟨0, _⟩ => show win1_6.index t 0 * 1 + 1 * i.val = i.val; rw [hi.1]; omega
  | ⟨1, _⟩ => show win1_6.index t 1 * 10 + 1 * j.val = j.val; rw [hi.2]; omega

/-- Entry (p, k) of the feature block at point t is feature k + 3456 t of image p. -/
theorem blk0_at (t : Fin cfg1.N) (p : Fin 128) (k : Fin 3456) (hk : k.val + 3456 * t.val < 131328) :
    B0 V c t (ix2 p k) = Fm V c (ix2 p ⟨k.val + 3456 * t.val, hk⟩) := blk0_raw V c t p k hk
/-- Entry (k, q) of the weight block at point t is the weight of feature k + 3456 t for unit q. -/
theorem blk1_at (t : Fin cfg1.N) (k : Fin 3456) (q : Fin 768) (hk : k.val + 3456 * t.val < 131328) :
    B1 V c t (ix2 k q) = W1 V c (ix2 ⟨k.val + 3456 * t.val, hk⟩ q) := blk1_raw V c t k q hk
/-- The other inputs' blocks are their whole arrays. -/
theorem blk2_at (t : Fin cfg1.N) (i : Fin 1) (j : Fin 768) : B2 V c t (ix2 i j) = R2 V c (ix2 i j) := blk2_raw V c t i j
theorem blk3_at (t : Fin cfg1.N) (i : Fin 768) (j : Fin 10) : B3 V c t (ix2 i j) = W3 V c (ix2 i j) := blk3_raw V c t i j
theorem blk4_at (t : Fin cfg1.N) (i : Fin 1) (j : Fin 10) : B4 V c t (ix2 i j) = R4 V c (ix2 i j) := blk4_raw V c t i j
theorem blk5_at (t : Fin cfg1.N) (i : Fin 10) (j : Fin 10) : B5 V c t (ix2 i j) = W5 V c (ix2 i j) := blk5_raw V c t i j
theorem blk6_at (t : Fin cfg1.N) (i : Fin 1) (j : Fin 10) : B6 V c t (ix2 i j) = R6 V c (ix2 i j) := blk6_raw V c t i j

/-! ## The accumulator, point by point -/

/-- Entry (p, q)'s term at feature k: the feature of image p times its weight for unit q. -/
def term (p : Fin 128) (q : Fin 768) (k : Fin 131328) : EReal := Fm V c (ix2 p k) * W1 V c (ix2 k q)

/-- Entry (p, q) of the accumulator after m points: the zero word before the first. -/
def accSeq (p : Fin 128) (q : Fin 768) : ℕ → EReal
  | 0 => Cert.Spec.zero
  | m + 1 => if h : m < cfg1.N then ACC V c m h (ix2 p q) else 0

/-- One point adds its run of 3456 terms. -/
theorem accSeq_step (p : Fin 128) (q : Fin 768) (n : Fin 38) :
    accSeq V c p q (n.val + 1) = accSeq V c p q n.val
      + ∑ j : Fin 3456, term V c p q ⟨j.val + 3456 * n.val, (show 38 * 3456 = 131328 by norm_num) ▸ Cert.Lib.SumChunks.chunk_lt n j⟩ := by
  obtain ⟨n, hn⟩ := n
  have hN : n < cfg1.N := lt_of_lt_of_eq hn N_1.symm
  show (if h : n < cfg1.N then ACC V c n h (ix2 p q) else 0) = _
  rw [dif_pos hN]
  cases n with
  | zero =>
    have e := Hand.outsAt1_zero V c ⟨0, hN⟩ rfl
    refine (congrArg (fun x => x.2 (ix2 p q)) e).trans ?_
    refine (pay2_at _ _ _ p q).trans ?_
    rw [pay1_at]
    refine congrArg (Cert.Spec.zero + ·) (Finset.sum_congr rfl fun j _ => ?_)
    exact congrArg₂ (· * ·) (blk0_at V c ⟨0, hN⟩ p j _) (blk1_at V c ⟨0, hN⟩ j q _)
  | succ m =>
    have e := Hand.outsAt1_pos V c ⟨m + 1, hN⟩ (Nat.succ_ne_zero m)
    refine (congrArg (fun x => x.2 (ix2 p q)) e).trans ?_
    refine (pay2_at _ _ _ p q).trans ?_
    show _ = (if h : m < cfg1.N then ACC V c m h (ix2 p q) else 0) + _
    rw [dif_pos (Nat.lt_of_succ_lt hN)]
    refine congrArg (ACC V c m (Nat.lt_of_succ_lt hN) (ix2 p q) + ·) (Finset.sum_congr rfl fun j _ => ?_)
    exact congrArg₂ (· * ·) (blk0_at V c ⟨m + 1, hN⟩ p j _) (blk1_at V c ⟨m + 1, hN⟩ j q _)

theorem accSeq_succ (p : Fin 128) (q : Fin 768) (m : ℕ) (h : m < cfg1.N) :
    accSeq V c p q (m + 1) = ACC V c m h (ix2 p q) := by
  show (if h : m < cfg1.N then ACC V c m h (ix2 p q) else 0) = _
  exact dif_pos h

/-- After the last point entry (p, q) of the accumulator is the sum over all 131328 features. -/
theorem acc_last (h : 37 < cfg1.N) (p : Fin 128) (q : Fin 768) :
    ACC V c 37 h (ix2 p q) = ∑ k : Fin 131328, Fm V c (ix2 p k) * W1 V c (ix2 k q) := by
  have e := Cert.Lib.SumChunks.fold_chunks_eq_sum 38 3456 (by norm_num) (term V c p q) Cert.Spec.zero (accSeq V c p q) rfl
    (accSeq_step V c p q)
  refine (accSeq_succ V c p q 37 h).symm.trans ?_
  refine (e : accSeq V c p q (37 + 1) = _).trans ?_
  unfold Cert.Spec.zero
  rw [Ideal.ofBits_zero_f32, zero_add]
  exact Finset.sum_congr rfl fun k _ => rfl

/-! ## The output's buffer at the last point, and the result array -/

/-- At every point the output component is the two small layers of that point's accumulator. -/
theorem outsAt1_fst (n : ℕ) (hn : n < cfg1.N) :
    (Hand.outsAt1 V c n hn).1 = k1_pay3 (Hand.outsAt1 V c n hn).2 (Hand.iblk1 V c 2 ⟨n, hn⟩) (Hand.iblk1 V c 3 ⟨n, hn⟩)
      (Hand.iblk1 V c 4 ⟨n, hn⟩) (Hand.iblk1 V c 5 ⟨n, hn⟩) (Hand.iblk1 V c 6 ⟨n, hn⟩) := by
  cases n <;> rfl

/-- The three dense layers over the arrays, read at (p, q), written out. -/
theorem tail_at (p : Fin 128) (q : Fin 10) :
    Cert.Spec.tailArr (V c main_v1) (V c main_arg1) (V c main_v2) (V c main_arg3) (V c main_v3) (V c main_arg5) (V c main_v4) (ix2 p q)
      = (∑ k : Fin 10,
          max ((∑ j : Fin 768, max ((∑ n : Fin 131328, Fm V c (ix2 p n) * W1 V c (ix2 n j)) + R2 V c (ix2 0 j)) Cert.Spec.zero * W3 V c (ix2 j k)) + R4 V c (ix2 0 k)) Cert.Spec.zero
            * W5 V c (ix2 k q))
        + R6 V c (ix2 0 q) := by
  unfold Cert.Spec.tailArr Cert.Spec.out Cert.Spec.h2 Cert.Spec.h1
  rfl

/-- After the last point the output's buffer holds the three dense layers. -/
theorem out_last (h : 37 < cfg1.N) (p : Fin 128) (q : Fin 10) :
    (Hand.outsAt1 V c 37 h).1 (ix2 p q) = Cert.Spec.tailArr (V c main_v1) (V c main_arg1) (V c main_v2) (V c main_arg3) (V c main_v3) (V c main_arg5) (V c main_v4) (ix2 p q) := by
  refine (congrFun (outsAt1_fst V c 37 h) (ix2 p q)).trans ?_
  refine (pay3_at _ _ _ _ _ _ p q).trans ?_
  rw [tail_at]
  refine congrArg₂ (· + ·) (Finset.sum_congr rfl fun k _ => ?_) (blk6_at V c ⟨37, h⟩ 0 q)
  refine congrArg₂ (· * ·) (congrArg (fun x => max x Cert.Spec.zero)
    (congrArg₂ (· + ·) (Finset.sum_congr rfl fun j _ => ?_) (blk4_at V c ⟨37, h⟩ 0 k))) (blk5_at V c ⟨37, h⟩ k q)
  exact congrArg₂ (· * ·) (congrArg (fun x => max x Cert.Spec.zero)
    (congrArg₂ (· + ·) (acc_last V c h p j) (blk2_at V c ⟨37, h⟩ 0 j))) (blk3_at V c ⟨37, h⟩ j k)

/-- The last point. -/
def t37 : Fin cfg1.N := ⟨37, by rw [show cfg1.N = 38 from N_1]; decide⟩

/-- The result as contents of the result array. -/
abbrev result : Buf (Elt Ideal) ((c : Thread nD τ).loc main_v5) := Cert.Spec.tailArr (V c main_v1) (V c main_arg1) (V c main_v2) (V c main_arg3) (V c main_v3) (V c main_arg5) (V c main_v4)

/-- The one write-back, at the last point, writes the result: block (0, 0) of the [128, 10] array is the array. -/
theorem flushed7 (t : Fin cfg1.N) (hf : (cfg1.win 7).flush t = true) :
    (Hand.dat1 V c).flushed 7 t = ((cfg1.win 7).blk t).view.read (Elt Ideal) (result V c) := by
  have hN : cfg1.N = 38 := N_1
  have h37 : t.val = 37 := by have := (flush1_7 t).mp hf; have := t.isLt; omega
  obtain rfl : t = t37 := Fin.ext h37
  show (cfg1.win 7).cut (grid1.coords t37) ((Hand.dat1 V c).after 7 t37) = _
  rw [Hand.after1_7]
  have hz' : (fun a => win1_7.index t37 a * main_v5.ty.shape.size a) = fun _ => 0 := funext fun a => by
    have hi := idx1_7 t37
    match a with
    | ⟨0, _⟩ => show win1_7.index t37 0 * _ = 0; rw [hi.1, Nat.zero_mul]
    | ⟨1, _⟩ => show win1_7.index t37 1 * _ = 0; rw [hi.2, Nat.zero_mul]
  refine Eq.trans ?_ (Memref.read_access_unit_zero (Elt Ideal) main_v5 hz' (fun a => by rw [congrFun hz' a]; simp) (result V c)).symm
  funext j
  obtain ⟨p, q, rfl⟩ : ∃ p q, j = ix2 p q := ⟨j 0, j 1, eq_ix2 j⟩
  exact out_last V c t37.isLt p q

/-- THE RESULT ARRAY after the region: the three dense layers over the arrays the region found. -/
theorem arr1_final (V : (c : Dev nD) → (b : Ref sig .tc) → Buf (Elt Ideal) ((c : Thread nD τ).loc b)) (c : Dev nD) :
    ((Hand.dat1 (F := Ideal) V c).arrAt 7 cfg1.N : S128x10.Idx → EReal) = Cert.Spec.tailArr (V c main_v1) (V c main_arg1) (V c main_v2) (V c main_arg3) (V c main_v3) (V c main_arg5) (V c main_v4) :=
  (Hand.dat1 V c).arrAt_eq_of_cover 7 (result V c) (flushed7 V c) fun i =>
    ⟨t37, (flush1_7 t37).mpr rfl, by
      show i ∈ ((View.whole main_v5).slice (win1_7.rect t37)).set
      rw [View.set_slice_whole, Rect.mem_set_unit]
      intro a
      have h0 : (i 0 : Nat) < 128 := (i 0).isLt
      have h1 : (i 1 : Nat) < 10 := (i 1).isLt
      match a with
      | ⟨0, _⟩ => show win1_7.index t37 0 * win1_7.size 0 ≤ (i 0 : Nat) ∧ (i 0 : Nat) < win1_7.index t37 0 * win1_7.size 0 + win1_7.xsize (grid1.coords t37) 0
                  rw [show win1_7.index t37 0 * win1_7.size 0 = 0 from by decide +kernel, show win1_7.xsize (grid1.coords t37) 0 = 128 from by decide +kernel]; omega
      | ⟨1, _⟩ => show win1_7.index t37 1 * win1_7.size 1 ≤ (i 1 : Nat) ∧ (i 1 : Nat) < win1_7.index t37 1 * win1_7.size 1 + win1_7.xsize (grid1.coords t37) 1
                  rw [show win1_7.index t37 1 * win1_7.size 1 = 0 from by decide +kernel, show win1_7.xsize (grid1.coords t37) 1 = 10 from by decide +kernel]; omega⟩

end Cert.KernelIdeal.HandValue

end
-- ==== Proof.RefTail.lean ====
/-
  The reference's three dense layers, entry by entry, over whatever flattened feature matrix its earlier operations
  produced: each matrix product is a sum over the contracted index, each bias vector is laid down as a row and
  repeated over the 128 images, each clamp is the maximum against the zero word.
-/
import proofs.«125702_j58712202936346_2_alg».proof.Proof.Gen.ReferenceIdeal.Read
import proofs.«125702_j58712202936346_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index maps of the products and of the bias rows, at an entry -/

theorem lidx54 (b : Fin 128) (c : Fin 768) (k : Fin 131328) : lidx_main_v54 (ix2 b c) k = ix2 b k :=
  funext fun a => Fin.ext (by match a with | ⟨0, _⟩ => rfl | ⟨1, _⟩ => rfl)
theorem ridx54 (b : Fin 128) (c : Fin 768) (k : Fin 131328) : ridx_main_v54 (ix2 b c) k = ix2 k c :=
  funext fun a => Fin.ext (by match a with | ⟨0, _⟩ => rfl | ⟨1, _⟩ => rfl)
theorem bias56 (b : Fin 128) (c : Fin 768) : idx_main_v55 (idx_main_v56 (ix2 b c)) = ix1 c :=
  funext fun a => Fin.ext (by match a with | ⟨0, _⟩ => rfl)
theorem lidx59 (b : Fin 128) (c : Fin 10) (k : Fin 768) : lidx_main_v59 (ix2 b c) k = ix2 b k :=
  funext fun a => Fin.ext (by match a with | ⟨0, _⟩ => rfl | ⟨1, _⟩ => rfl)
theorem ridx59 (b : Fin 128) (c : Fin 10) (k : Fin 768) : ridx_main_v59 (ix2 b c) k = ix2 k c :=
  funext fun a => Fin.ext (by match a with | ⟨0, _⟩ => rfl | ⟨1, _⟩ => rfl)
theorem bias61 (b : Fin 128) (c : Fin 10) : idx_main_v60 (idx_main_v61 (ix2 b c)) = ix1 c :=
  funext fun a => Fin.ext (by match a with | ⟨0, _⟩ => rfl)
theorem lidx64 (b : Fin 128) (c : Fin 10) (k : Fin 10) : lidx_main_v64 (ix2 b c) k = ix2 b k :=
  funext fun a => Fin.ext (by match a with | ⟨0, _⟩ => rfl | ⟨1, _⟩ => rfl)
theorem ridx64 (b : Fin 128) (c : Fin 10) (k : Fin 10) : ridx_main_v64 (ix2 b c) k = ix2 k c :=
  funext fun a => Fin.ext (by match a with | ⟨0, _⟩ => rfl | ⟨1, _⟩ => rfl)
theorem bias66 (b : Fin 128) (c : Fin 10) : idx_main_v65 (idx_main_v66 (ix2 b c)) = ix1 c :=
  funext fun a => Fin.ext (by match a with | ⟨0, _⟩ => rfl)

/-- The reference's flattened feature matrix by coordinates. -/
abbrev refFeat (x0 : (⟨S128x256x256x1, .f32⟩ : BufTy).Contents (Elt Ideal)) : Fin 128 → Fin 131328 → EReal :=
  fun b k => val_main_v53 (F := Ideal) x0 (ix2 b k)

/-- The first layer. -/
theorem h1_at (x0 : (⟨S128x256x256x1, .f32⟩ : BufTy).Contents (Elt Ideal)) (x1 : (⟨S131328x768, .f32⟩ : BufTy).Contents (Elt Ideal)) (x2 : (⟨S768, .f32⟩ : BufTy).Contents (Elt Ideal)) (b : Fin 128) (c : Fin 768) :
    val_main_v58 (F := Ideal) x0 x1 x2 (ix2 b c)
      = Cert.Spec.h1 (refFeat x0) (fun k c => x1 (ix2 k c)) (fun c => x2 (ix1 c)) b c := by
  rw [val_main_v58_apply, val_main_v57_apply, val_main_v54_apply, val_main_v56_apply, val_main_v55_apply,
    val_main_call1_v0_apply, val_main_call1_cst_apply]
  unfold Cert.Spec.h1 Cert.Spec.zero
  simp only [lidx54, ridx54, bias56]
  rfl

/-- The second layer. -/
theorem h2_at (x0 : (⟨S128x256x256x1, .f32⟩ : BufTy).Contents (Elt Ideal)) (x1 : (⟨S131328x768, .f32⟩ : BufTy).Contents (Elt Ideal)) (x2 : (⟨S768, .f32⟩ : BufTy).Contents (Elt Ideal)) (x3 : (⟨S768x10, .f32⟩ : BufTy).Contents (Elt Ideal)) (x4 : (⟨S10, .f32⟩ : BufTy).Contents (Elt Ideal)) (b : Fin 128) (c : Fin 10) :
    val_main_v63 (F := Ideal) x0 x1 x2 x3 x4 (ix2 b c)
      = Cert.Spec.h2 (refFeat x0) (fun k c => x1 (ix2 k c)) (fun c => x2 (ix1 c)) (fun k c => x3 (ix2 k c)) (fun c => x4 (ix1 c)) b c := by
  rw [val_main_v63_apply, val_main_v62_apply, val_main_v59_apply, val_main_v61_apply, val_main_v60_apply,
    val_main_call2_v0_apply, val_main_call2_cst_apply]
  unfold Cert.Spec.h2 Cert.Spec.zero
  simp only [lidx59, ridx59, bias61, h1_at]
  rfl

/-- The third layer: the result. -/
theorem out_at (x0 : (⟨S128x256x256x1, .f32⟩ : BufTy).Contents (Elt Ideal)) (x1 : (⟨S131328x768, .f32⟩ : BufTy).Contents (Elt Ideal)) (x2 : (⟨S768, .f32⟩ : BufTy).Contents (Elt Ideal)) (x3 : (⟨S768x10, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal)) (b : Fin 128) (c : Fin 10) :
    val_main_v67 (F := Ideal) x0 x1 x2 x3 x4 x5 x6 (ix2 b c)
      = Cert.Spec.out (refFeat x0) (fun k c => x1 (ix2 k c)) (fun c => x2 (ix1 c)) (fun k c => x3 (ix2 k c)) (fun c => x4 (ix1 c))
          (fun k c => x5 (ix2 k c)) (fun c => x6 (ix1 c)) b c := by
  rw [val_main_v67_apply, val_main_v64_apply, val_main_v66_apply, val_main_v65_apply]
  unfold Cert.Spec.out
  simp only [lidx64, ridx64, bias66, h2_at]
  rfl

/-- The reference's result is the specification's, once its feature matrix is the specification's. -/
theorem result_of_feat (x0 : (⟨S128x256x256x1, .f32⟩ : BufTy).Contents (Elt Ideal)) (x1 : (⟨S131328x768, .f32⟩ : BufTy).Contents (Elt Ideal)) (x2 : (⟨S768, .f32⟩ : BufTy).Contents (Elt Ideal)) (x3 : (⟨S768x10, .f32⟩ : BufTy).Contents (Elt Ideal)) (x4 : (⟨S10, .f32⟩ : BufTy).Contents (Elt Ideal)) (x5 : (⟨S10x10, .f32⟩ : BufTy).Contents (Elt Ideal)) (x6 : (⟨S10, .f32⟩ : BufTy).Contents (Elt Ideal))
    (hfeat : ∀ (b : Fin 128) (k : Fin 131328), val_main_v53 (F := Ideal) x0 (ix2 b k) = Cert.Spec.feat (Cert.Spec.img x0) b k) :
    val_main_v67 (F := Ideal) x0 x1 x2 x3 x4 x5 x6 = Cert.Spec.G x0 x1 x2 x3 x4 x5 x6 := by
  funext i
  obtain ⟨b, c, rfl⟩ : ∃ (b : Fin 128) (c : Fin 10), i = ix2 b c := ⟨i 0, i 1, eq_ix2 i⟩
  rw [out_at]
  have e : refFeat x0 = Cert.Spec.feat (Cert.Spec.img x0) := funext fun b => funext fun k => hfeat b k
  rw [e]
  rfl

end Cert.ReferenceIdeal.RefValue

end
-- ==== Proof.LibScatterConst.lean ====
/-
  A scatter that overwrites, with one value. `Host.scatter` with the body "return the update" replaces, update index
  by update index, the operand's element at the update's result index by the update's element. When every update
  index has a result index inside the operand (`g` of it) and every update element is the same value `v`, the order
  of the updates does not matter: the result is `v` at every index some update lands on and the operand at every other.
-/
import Idealize.ShloMosaic.PureOps.ShapeOps

namespace Cert.Lib

open Idealize.ShloMosaic

variable {α : Type} {w : Nat} {s si u : Shape}

/-- An update index whose start plus window coordinate is, on every operand axis, the coordinate of `i` lands at `i`. -/
theorem resultIdx?_eq_some (d : ScatterDims s si u) (j : u.Idx) (idx : IVec si w) (i : s.Idx)
    (h : ∀ a, d.start j idx a + (d.window j a : Int) = ((i a).val : Int)) : d.resultIdx? j idx = some i := by
  have hb : ∀ a, 0 ≤ d.start j idx a + (d.window j a : Int) ∧ d.start j idx a + (d.window j a : Int) < s.size a :=
    fun a => by rw [h a]; exact ⟨Int.natCast_nonneg _, by exact_mod_cast (i a).isLt⟩
  unfold ScatterDims.resultIdx?
  rw [dif_pos hb]
  congr 1
  funext a
  apply Fin.ext
  show (d.start j idx a + (d.window j a : Int)).toNat = (i a).val
  rw [h a]; exact Int.toNat_natCast _

/-- The scatter's step at update number `n`, for the overwriting body. -/
abbrev setStep (d : ScatterDims s si u) (idx : IVec si w) (upd : u.Idx → α) (r : s.Idx → α) (n : Fin u.numel) : s.Idx → α :=
  match d.resultIdx? (u.rowMajor.symm n) idx with
  | some i => fun i' => if i' = i then (fun (_ b : α) => b) (r i) (upd (u.rowMajor.symm n)) else r i'
  | none => r

/-- The scatter is the left fold of that step over the update numbers. -/
theorem scatter_eq_foldl (d : ScatterDims s si u) (x : s.Idx → α) (idx : IVec si w) (upd : u.Idx → α) :
    Host.scatter d (fun _ b => b) x idx upd = (List.finRange u.numel).foldl (setStep d idx upd) x := rfl

/-- With every result index inside the operand and every update the value `v`, a step writes `v` at one index. -/
theorem setStep_const (d : ScatterDims s si u) (idx : IVec si w) (upd : u.Idx → α) (g : u.Idx → s.Idx) (v : α)
    (hg : ∀ j, d.resultIdx? j idx = some (g j)) (hv : ∀ j, upd j = v) (r : s.Idx → α) (n : Fin u.numel) (i : s.Idx) :
    setStep d idx upd r n i = if i = g (u.rowMajor.symm n) then v else r i := by
  unfold setStep
  rw [hg (u.rowMajor.symm n), hv]

/-- An index no update of the list lands on keeps its element. -/
theorem foldl_setStep_miss (d : ScatterDims s si u) (idx : IVec si w) (upd : u.Idx → α) (g : u.Idx → s.Idx) (v : α)
    (hg : ∀ j, d.resultIdx? j idx = some (g j)) (hv : ∀ j, upd j = v) (i : s.Idx) :
    ∀ (l : List (Fin u.numel)) (x : s.Idx → α), (∀ n ∈ l, g (u.rowMajor.symm n) ≠ i) →
      l.foldl (setStep d idx upd) x i = x i
  | [], _, _ => rfl
  | n :: l, x, h => by
    rw [List.foldl_cons, foldl_setStep_miss d idx upd g v hg hv i l _ (fun m hm => h m (List.mem_cons_of_mem _ hm)),
      setStep_const d idx upd g v hg hv, if_neg (fun e => h n List.mem_cons_self e.symm)]

/-- An index some update of the list lands on holds `v`. -/
theorem foldl_setStep_hit (d : ScatterDims s si u) (idx : IVec si w) (upd : u.Idx → α) (g : u.Idx → s.Idx) (v : α)
    (hg : ∀ j, d.resultIdx? j idx = some (g j)) (hv : ∀ j, upd j = v) (i : s.Idx) :
    ∀ (l : List (Fin u.numel)) (x : s.Idx → α), (∃ n ∈ l, g (u.rowMajor.symm n) = i) →
      l.foldl (setStep d idx upd) x i = v
  | [], _, h => by obtain ⟨n, hn, _⟩ := h; cases hn
  | n :: l, x, h => by
    rw [List.foldl_cons]
    by_cases hl : ∃ m ∈ l, g (u.rowMajor.symm m) = i
    · exact foldl_setStep_hit d idx upd g v hg hv i l _ hl
    · have hn : g (u.rowMajor.symm n) = i := by
        obtain ⟨m, hm, e⟩ := h
        rcases List.mem_cons.1 hm with rfl | hm'
        · exact e
        · exact absurd ⟨m, hm', e⟩ hl
      rw [foldl_setStep_miss d idx upd g v hg hv i l _ (fun m hm e => hl ⟨m, hm, e⟩),
        setStep_const d idx upd g v hg hv, if_pos hn.symm]

/-- THE OVERWRITING SCATTER OF ONE VALUE, where some update lands: the value. -/
theorem scatter_set_const_hit (d : ScatterDims s si u) (x : s.Idx → α) (idx : IVec si w) (upd : u.Idx → α)
    (g : u.Idx → s.Idx) (v : α) (hg : ∀ j, d.resultIdx? j idx = some (g j)) (hv : ∀ j, upd j = v) (i : s.Idx)
    (h : ∃ j, g j = i) : Host.scatter d (fun _ b => b) x idx upd i = v := by
  rw [scatter_eq_foldl]
  obtain ⟨j, hj⟩ := h
  exact foldl_setStep_hit d idx upd g v hg hv i _ x
    ⟨u.rowMajor j, List.mem_finRange _, by rw [Equiv.symm_apply_apply]; exact hj⟩

/-- THE OVERWRITING SCATTER OF ONE VALUE, where no update lands: the operand. -/
theorem scatter_set_const_miss (d : ScatterDims s si u) (x : s.Idx → α) (idx : IVec si w) (upd : u.Idx → α)
    (g : u.Idx → s.Idx) (v : α) (hg : ∀ j, d.resultIdx? j idx = some (g j)) (hv : ∀ j, upd j = v) (i : s.Idx)
    (h : ∀ j, g j ≠ i) : Host.scatter d (fun _ b => b) x idx upd i = x i := by
  rw [scatter_eq_foldl]
  exact foldl_setStep_miss d idx upd g v hg hv i _ x (fun n _ => h _)

/-- Both cases as one `if`. -/
theorem scatter_set_const (d : ScatterDims s si u) (x : s.Idx → α) (idx : IVec si w) (upd : u.Idx → α)
    (g : u.Idx → s.Idx) (v : α) (hg : ∀ j, d.resultIdx? j idx = some (g j)) (hv : ∀ j, upd j = v) (i : s.Idx)
    [Decidable (∃ j, g j = i)] :
    Host.scatter d (fun _ b => b) x idx upd i = if ∃ j, g j = i then v else x i := by
  split
  · next h => exact scatter_set_const_hit d x idx upd g v hg hv i h
  · next h => exact scatter_set_const_miss d x idx upd g v hg hv i (fun j e => h ⟨j, e⟩)

end Cert.Lib
-- ==== Proof.RefMask.lean ====
/-
  The two constant masks of the reference, read at an entry.

  tri is built by comparing a row counter with a column counter: entry (i, j) is the word of one where i + 0 >= j as
  signed 32-bit words, the word of zero elsewhere; both counters stay below 256, so the comparison is the comparison
  of the natural numbers and the entry is 1 for j <= i and 0 otherwise.

  mark starts as the all-ones matrix; a first scatter overwrites row 0 with the word of minus one (its single start
  index is 0 on axis 0, its 256 updates run along axis 1), a second overwrites column 0 the same way.  Every update
  carries the same word, so the order of the updates is immaterial: an entry holds minus one exactly when it lies
  on row 0 or on column 0, and one elsewhere.
-/
import proofs.«125702_j58712202936346_2_alg».proof.Proof.Gen.ReferenceIdeal.Read
import proofs.«125702_j58712202936346_2_alg».proof.Proof.Spec
import proofs.«125702_j58712202936346_2_alg».proof.Proof.LibScatterConst
import Idealize.ShloMosaic.Lib.IdealHost
import Idealize.ShloMosaic.Lib.Affine

noncomputable section

open scoped BigOperators

namespace Cert.ReferenceIdeal.RefValue

open Cert.ReferenceIdeal Cert.ReferenceIdeal.Gen Cert.ReferenceIdeal.Read Idealize.ShloMosaic Idealize.ShloMosaic.ValueIdx

/-- Two index functions into a literal shape are equal when they agree coordinate by coordinate. -/
local macro "idx_eq2" : tactic => `(tactic| (funext a; apply Fin.ext; match a with | ⟨0, _⟩ => rfl | ⟨1, _⟩ => rfl))
local macro "idx_eq3" : tactic => `(tactic| (funext a; apply Fin.ext; match a with | ⟨0, _⟩ => rfl | ⟨1, _⟩ => rfl | ⟨2, _⟩ => rfl))
local macro "idx_eq4" : tactic => `(tactic| (funext a; apply Fin.ext; match a with | ⟨0, _⟩ => rfl | ⟨1, _⟩ => rfl | ⟨2, _⟩ => rfl | ⟨3, _⟩ => rfl))

/-- A word counter below 256 read as a signed integer is the number itself. -/
theorem toInt_ofNat_small (n : Nat) (h : n < 256) : (BitVec.ofNat 32 n).toInt = (n : Int) := by
  have h32 : (2 : Nat) ^ 32 = 4294967296 := by norm_num
  rw [BitVec.toInt_eq_toNat_cond, BitVec.toNat_ofNat, Nat.mod_eq_of_lt (by omega), if_pos (by omega)]

/-- The lower-triangle mask at (i, j): one for j <= i, zero above the diagonal. -/
theorem tri_at (i j : Fin 256) : val_main_v1 (F := Ideal) (ix2 i j) = Cert.Spec.tri i j := by
  rw [val_main_v1_apply, val_main_call0_v4_apply, val_main_call0_v2_apply, val_main_call0_v0_apply,
    val_main_call0_v1_apply, val_main_call0_c_apply, val_main_call0_v3_apply, val_main_v0_apply, val_main_cst_apply,
    val_main_call0_v5_apply, val_main_call0_cst_apply]
  show Scalar.select (IntOp.cmpi .sge (IntOp.addi (BitVec.ofNat 32 i.val) 0#32) (BitVec.ofNat 32 j.val))
    (Ideal.ofBits .f32 0x3F800000#32) (Ideal.ofBits .f32 0x00000000#32) = _
  rw [Ideal.ofBits_one_f32, Ideal.ofBits_zero_f32]
  have key : IntOp.cmpi .sge (IntOp.addi (BitVec.ofNat 32 i.val) 0#32) (BitVec.ofNat 32 j.val) = 1#1 ↔ j.val ≤ i.val := by
    rw [IntOp.cmpi_sge, show IntOp.addi (BitVec.ofNat 32 i.val) 0#32 = BitVec.ofNat 32 i.val from BitVec.add_zero _,
      toInt_ofNat_small _ i.isLt, toInt_ofNat_small _ j.isLt]
    exact Int.ofNat_le
  unfold Scalar.select Cert.Spec.tri
  by_cases h : j.val ≤ i.val
  · exact (if_pos (key.mpr h)).trans (if_pos h).symm
  · exact (if_neg (fun e => h (key.mp e))).trans (if_neg h).symm

/-- The mask spread over the batch: entry (b, i, j, 0) of either broadcast copy is tri i j. -/
theorem v11_at (b : Fin 128) (i j : Fin 256) : val_main_v11 (F := Ideal) (ix4 b i j 0) = Cert.Spec.tri i j := by
  rw [val_main_v11_apply, val_main_v2_apply]
  exact (congrArg (val_main_v1 (F := Ideal)) (show idx_main_v2 (idx_main_v11 (ix4 b i j 0)) = ix2 i j by idx_eq2)).trans (tri_at i j)

theorem v35_at (b : Fin 128) (i j : Fin 256) : val_main_v35 (F := Ideal) (ix4 b i j 0) = Cert.Spec.tri i j := by
  rw [val_main_v35_apply, val_main_v2_apply]
  exact (congrArg (val_main_v1 (F := Ideal)) (show idx_main_v2 (idx_main_v35 (ix4 b i j 0)) = ix2 i j by idx_eq2)).trans (tri_at i j)

/-! ## mark: the two overwriting scatters -/

section scatter
variable {s si u : Shape} {w : Nat}

/-- With every scatter index the zero word, every window starts at 0 on every operand axis. -/
theorem start_zero (d : ScatterDims s si u) (j : u.Idx) (idx : IVec si w) (hidx : ∀ k, idx k = 0#w) (a : Fin s.rank) :
    d.start j idx a = 0 := by
  unfold ScatterDims.start
  split
  · rw [hidx]; exact BitVec.toInt_zero
  · rfl
end scatter

theorem v4_zero (k : S1.Idx) : val_main_v4 (F := Ideal) k = 0#32 := by
  rw [val_main_v4_apply, val_main_c_apply]
theorem v7_zero (k : S1.Idx) : val_main_v7 (F := Ideal) k = 0#32 := by
  rw [val_main_v7_apply, val_main_c_2_apply]
theorem v5_const (j : S256.Idx) : val_main_v5 (F := Ideal) j = Ideal.ofBits .f32 0xBF800000#32 := by
  rw [val_main_v5_apply, val_main_cst_1_apply]; rfl
theorem v8_const (j : S256.Idx) : val_main_v8 (F := Ideal) j = Ideal.ofBits .f32 0xBF800000#32 := by
  rw [val_main_v8_apply, val_main_cst_3_apply]; rfl
theorem v3_at (i : S256x256.Idx) : val_main_v3 (F := Ideal) i = Ideal.ofBits .f32 0x3F800000#32 := by
  rw [val_main_v3_apply, val_main_cst_0_apply]; rfl

/-- Update j of the first scatter lands on row 0, column j. -/
theorem land_row (j : S256.Idx) :
    scatter_S256x256_S1_S256_0_0_0_0.resultIdx? j (val_main_v4 (F := Ideal)) = some (ix2 (0 : Fin 256) (j 0)) := by
  refine Cert.Lib.resultIdx?_eq_some _ j _ _ (fun a => ?_)
  rw [start_zero _ j _ v4_zero, zero_add]
  match a with
  | ⟨0, _⟩ => rfl
  | ⟨1, _⟩ => rfl

/-- Update j of the second scatter lands on row j, column 0. -/
theorem land_col (j : S256.Idx) :
    scatter_S256x256_S1_S256_0_1_1_0.resultIdx? j (val_main_v7 (F := Ideal)) = some (ix2 (j 0) (0 : Fin 256)) := by
  refine Cert.Lib.resultIdx?_eq_some _ j _ _ (fun a => ?_)
  rw [start_zero _ j _ v7_zero, zero_add]
  match a with
  | ⟨0, _⟩ => rfl
  | ⟨1, _⟩ => rfl

/-- mark at (i, j): minus one on row 0 and on column 0, one elsewhere. -/
theorem mark_at (i j : Fin 256) : val_main_v9 (F := Ideal) (ix2 i j) = Cert.Spec.mark i j := by
  unfold Cert.Spec.mark
  by_cases hj : j.val = 0
  · rw [if_pos (Or.inr hj)]
    refine Cert.Lib.scatter_set_const_hit _ _ _ _ (fun j' => ix2 (j' 0) (0 : Fin 256)) _ land_col v8_const _ ⟨ix1 i, ?_⟩
    have : j = 0 := Fin.ext hj
    subst this
    idx_eq2
  · have miss : ∀ j' : S256.Idx, ix2 (j' 0) (0 : Fin 256) ≠ ix2 i j := fun j' e => hj (congrArg (fun f => (f 1).val) e).symm
    refine (Cert.Lib.scatter_set_const_miss _ _ _ _ (fun j' => ix2 (j' 0) (0 : Fin 256)) _ land_col v8_const _ miss).trans ?_
    by_cases hi : i.val = 0
    · rw [if_pos (Or.inl hi)]
      refine Cert.Lib.scatter_set_const_hit _ _ _ _ (fun j' => ix2 (0 : Fin 256) (j' 0)) _ land_row v5_const _ ⟨ix1 j, ?_⟩
      have : i = 0 := Fin.ext hi
      subst this
      idx_eq2
    · rw [if_neg (fun h => h.elim hi hj)]
      have miss0 : ∀ j' : S256.Idx, ix2 (0 : Fin 256) (j' 0) ≠ ix2 i j := fun j' e => hi (congrArg (fun f => (f 0).val) e).symm
      exact (Cert.Lib.scatter_set_const_miss _ _ _ _ (fun j' => ix2 (0 : Fin 256) (j' 0)) _ land_row v5_const _ miss0).trans (v3_at _)

/-- The mask spread over the batch: entry (b, i, j, 0) is mark i j. -/
theorem v48_at (b : Fin 128) (i j : Fin 256) : val_main_v48 (F := Ideal) (ix4 b i j 0) = Cert.Spec.mark i j := by
  rw [val_main_v48_apply, val_main_v10_apply]
  exact (congrArg (val_main_v9 (F := Ideal)) (show idx_main_v10 (idx_main_v48 (ix4 b i j 0)) = ix2 i j by idx_eq2)).trans (mark_at i j)

end Cert.ReferenceIdeal.RefValue

end
-- ==== Proof.RefCross.lean ====
/-
  The cross-sum chain of the reference, read at an entry.

  With X the image stack behind the first argument and x1 = X * tri, the reference forms, over the whole
  [128, 256, 256, 1] block, (row sum of x1, spread along the columns) + (column sum of x1, spread along the rows)
  - 2 * x1, and keeps column 0: that is cross x1 = xe, one number per image row.  On the [128, 256, 1, 1] block xe it
  forms the same expression again: the sum over the axis of extent 1 is xe itself, the sum over the rows is one number
  per image, so the result is xe + (sum of xe over the rows) - 2 * xe, which it multiplies by xe: xe2.  Spread along the
  columns and masked again this is x3, and column 0 of its cross expression is x4.
  Every host sum arrives as (word of zero) + sum; the word of zero is 0 and drops out.
-/
import proofs.«125702_j58712202936346_2_alg».proof.Proof.RefMask

noncomputable section

open scoped BigOperators

namespace Cert.ReferenceIdeal.RefValue

open Cert.ReferenceIdeal Cert.ReferenceIdeal.Gen Cert.ReferenceIdeal.Read Idealize.ShloMosaic Idealize.ShloMosaic.ValueIdx

/-- Two index functions into a literal shape are equal when they agree coordinate by coordinate. -/
local macro "idx_eq2" : tactic => `(tactic| (funext a; apply Fin.ext; match a with | ⟨0, _⟩ => rfl | ⟨1, _⟩ => rfl))
local macro "idx_eq3" : tactic => `(tactic| (funext a; apply Fin.ext; match a with | ⟨0, _⟩ => rfl | ⟨1, _⟩ => rfl | ⟨2, _⟩ => rfl))
local macro "idx_eq4" : tactic => `(tactic| (funext a; apply Fin.ext; match a with | ⟨0, _⟩ => rfl | ⟨1, _⟩ => rfl | ⟨2, _⟩ => rfl | ⟨3, _⟩ => rfl))

variable (x0 : (⟨S128x256x256x1, .f32⟩ : BufTy).Contents (Elt Ideal))

local notation "X" => Cert.Spec.img x0

/-- The word of 2.0 spread over a block reads as Spec.two. -/
theorem v20_at (i : S128x256x256x1.Idx) : val_main_v20 (F := Ideal) i = Cert.Spec.two := by
  rw [val_main_v20_apply, val_main_cst_6_apply]; rfl
theorem v30_at (i : S128x256x1x1.Idx) : val_main_v30 (F := Ideal) i = Cert.Spec.two := by
  rw [val_main_v30_apply, val_main_cst_9_apply]; rfl
theorem v44_at (i : S128x256x256x1.Idx) : val_main_v44 (F := Ideal) i = Cert.Spec.two := by
  rw [val_main_v44_apply, val_main_cst_12_apply]; rfl

/-- The masked image. -/
theorem v12_at (b : Fin 128) (i j : Fin 256) :
    val_main_v12 (F := Ideal) x0 (ix4 b i j 0) = Cert.Spec.x1 X b i j := by
  rw [val_main_v12_apply, v11_at]; rfl

/-- Its row sums. -/
theorem v13_at (b : Fin 128) (i : Fin 256) :
    val_main_v13 (F := Ideal) x0 (ix3 b i 0) = ∑ j : Fin 256, Cert.Spec.x1 X b i j := by
  rw [val_main_v13_apply, val_main_cst_4_apply]
  show Ideal.ofBits .f32 0x00000000#32 + _ = _
  rw [Ideal.ofBits_zero_f32, zero_add]
  refine Finset.sum_congr rfl fun k _ => ?_
  exact (congrArg (val_main_v12 (F := Ideal) x0) (show idx_main_v13 (ix3 b i 0) k = ix4 b i k 0 by idx_eq4)).trans (v12_at x0 b i k)

/-- Its column sums. -/
theorem v15_at (b : Fin 128) (j : Fin 256) :
    val_main_v15 (F := Ideal) x0 (ix3 b j 0) = ∑ r : Fin 256, Cert.Spec.x1 X b r j := by
  rw [val_main_v15_apply, val_main_cst_5_apply]
  show Ideal.ofBits .f32 0x00000000#32 + _ = _
  rw [Ideal.ofBits_zero_f32, zero_add]
  refine Finset.sum_congr rfl fun k _ => ?_
  exact (congrArg (val_main_v12 (F := Ideal) x0) (show idx_main_v15 (ix3 b j 0) k = ix4 b k j 0 by idx_eq4)).trans (v12_at x0 b k j)

/-- The cross expression over the whole block. -/
theorem v22_at (b : Fin 128) (i j : Fin 256) :
    val_main_v22 (F := Ideal) x0 (ix4 b i j 0)
      = (∑ j' : Fin 256, Cert.Spec.x1 X b i j') + (∑ r : Fin 256, Cert.Spec.x1 X b r j) - Cert.Spec.two * Cert.Spec.x1 X b i j := by
  rw [val_main_v22_apply, val_main_v19_apply, val_main_v21_apply, val_main_v17_apply, val_main_v14_apply,
    val_main_v18_apply, val_main_v16_apply, v20_at, v12_at]
  rw [show idx_main_v14 (idx_main_v17 (ix4 b i j 0)) = ix3 b i 0 by idx_eq3,
    show idx_main_v16 (idx_main_v18 (ix4 b i j 0)) = ix3 b j 0 by idx_eq3, v13_at, v15_at]
  rfl

/-- Column 0 of it: xe. -/
theorem v23_at (b : Fin 128) (i : Fin 256) :
    val_main_v23 (F := Ideal) x0 (ix4 b i 0 0) = Cert.Spec.xe X b i := by
  rw [val_main_v23_apply, show idx_main_v23 (ix4 b i (0 : Fin 1) (0 : Fin 1)) = ix4 b i (0 : Fin 256) (0 : Fin 1) by idx_eq4, v22_at]
  rfl

/-- The sum of xe over the axis of extent one is xe. -/
theorem v24_at (b : Fin 128) (i : Fin 256) :
    val_main_v24 (F := Ideal) x0 (ix3 b i 0) = Cert.Spec.xe X b i := by
  rw [val_main_v24_apply, val_main_cst_7_apply]
  show Ideal.ofBits .f32 0x00000000#32 + _ = _
  rw [Ideal.ofBits_zero_f32, zero_add, Fin.sum_univ_one]
  exact (congrArg (val_main_v23 (F := Ideal) x0) (show idx_main_v24 (ix3 b i 0) 0 = ix4 b i 0 0 by idx_eq4)).trans (v23_at x0 b i)

/-- The sum of xe over the rows of an image. -/
theorem v26_at (b : Fin 128) :
    val_main_v26 (F := Ideal) x0 (ix3 b 0 0) = ∑ r : Fin 256, Cert.Spec.xe X b r := by
  rw [val_main_v26_apply, val_main_cst_8_apply]
  show Ideal.ofBits .f32 0x00000000#32 + _ = _
  rw [Ideal.ofBits_zero_f32, zero_add]
  refine Finset.sum_congr rfl fun k _ => ?_
  exact (congrArg (val_main_v23 (F := Ideal) x0) (show idx_main_v26 (ix3 b 0 0) k = ix4 b k 0 0 by idx_eq4)).trans (v23_at x0 b k)

/-- xe2. -/
theorem v33_at (b : Fin 128) (i : Fin 256) :
    val_main_v33 (F := Ideal) x0 (ix4 b i 0 0) = Cert.Spec.xe2 X b i := by
  rw [val_main_v33_apply, val_main_v32_apply, val_main_v29_apply, val_main_v31_apply, val_main_v25_apply,
    val_main_v28_apply, val_main_v27_apply, v30_at, v23_at]
  rw [show idx_main_v25 (ix4 b i (0 : Fin 1) (0 : Fin 1)) = ix3 b i 0 by idx_eq3,
    show idx_main_v27 (idx_main_v28 (ix4 b i (0 : Fin 1) (0 : Fin 1))) = ix3 b 0 0 by idx_eq3, v24_at, v26_at]
  rfl

/-- x3: xe2 spread along the columns and masked. -/
theorem v36_at (b : Fin 128) (i j : Fin 256) :
    val_main_v36 (F := Ideal) x0 (ix4 b i j 0) = Cert.Spec.x3 X b i j := by
  rw [val_main_v36_apply, val_main_v34_apply, v35_at,
    show idx_main_v34 (ix4 b i j (0 : Fin 1)) = ix4 b i (0 : Fin 1) (0 : Fin 1) by idx_eq4, v33_at]
  rfl

theorem v37_at (b : Fin 128) (i : Fin 256) :
    val_main_v37 (F := Ideal) x0 (ix3 b i 0) = ∑ j : Fin 256, Cert.Spec.x3 X b i j := by
  rw [val_main_v37_apply, val_main_cst_10_apply]
  show Ideal.ofBits .f32 0x00000000#32 + _ = _
  rw [Ideal.ofBits_zero_f32, zero_add]
  refine Finset.sum_congr rfl fun k _ => ?_
  exact (congrArg (val_main_v36 (F := Ideal) x0) (show idx_main_v37 (ix3 b i 0) k = ix4 b i k 0 by idx_eq4)).trans (v36_at x0 b i k)

theorem v39_at (b : Fin 128) (j : Fin 256) :
    val_main_v39 (F := Ideal) x0 (ix3 b j 0) = ∑ r : Fin 256, Cert.Spec.x3 X b r j := by
  rw [val_main_v39_apply, val_main_cst_11_apply]
  show Ideal.ofBits .f32 0x00000000#32 + _ = _
  rw [Ideal.ofBits_zero_f32, zero_add]
  refine Finset.sum_congr rfl fun k _ => ?_
  exact (congrArg (val_main_v36 (F := Ideal) x0) (show idx_main_v39 (ix3 b j 0) k = ix4 b k j 0 by idx_eq4)).trans (v36_at x0 b k j)

theorem v46_at (b : Fin 128) (i j : Fin 256) :
    val_main_v46 (F := Ideal) x0 (ix4 b i j 0)
      = (∑ j' : Fin 256, Cert.Spec.x3 X b i j') + (∑ r : Fin 256, Cert.Spec.x3 X b r j) - Cert.Spec.two * Cert.Spec.x3 X b i j := by
  rw [val_main_v46_apply, val_main_v43_apply, val_main_v45_apply, val_main_v41_apply, val_main_v38_apply,
    val_main_v42_apply, val_main_v40_apply, v44_at, v36_at]
  rw [show idx_main_v38 (idx_main_v41 (ix4 b i j 0)) = ix3 b i 0 by idx_eq3,
    show idx_main_v40 (idx_main_v42 (ix4 b i j 0)) = ix3 b j 0 by idx_eq3, v37_at, v39_at]
  rfl

/-- x4: column 0 of the second cross expression. -/
theorem v47_at (b : Fin 128) (i : Fin 256) :
    val_main_v47 (F := Ideal) x0 (ix4 b i 0 0) = Cert.Spec.x4 X b i := by
  rw [val_main_v47_apply, show idx_main_v47 (ix4 b i (0 : Fin 1) (0 : Fin 1)) = ix4 b i (0 : Fin 256) (0 : Fin 1) by idx_eq4, v46_at]
  rfl

end Cert.ReferenceIdeal.RefValue

end
-- ==== Proof.RefFeat.lean ====
/-
  The flattened feature matrix of the reference is Spec.feat of the image stack.

  Beside the cross-sum chain the reference forms y = (X * mark)^2 and z = X * X over the whole block, joins
  x4 (one column), y (256 columns) and z (256 columns) along the column axis into a [128, 256, 513, 1] block, and
  flattens it to [128, 131328]: entry (b, k) of the flat matrix is entry (b, k / 513, k % 513, 0) of the block, since the
  row-major number of (b, k) is b * 131328 + k and 131328 = 256 * 513.  Column c of the joined block comes from the piece
  whose span holds c: x4 for c = 0, column c - 1 of y for 1 <= c <= 256, column c - 257 of z above.
-/
import proofs.«125702_j58712202936346_2_alg».proof.Proof.RefCross

noncomputable section

open scoped BigOperators

namespace Cert.ReferenceIdeal.RefValue

open Cert.ReferenceIdeal Cert.ReferenceIdeal.Gen Cert.ReferenceIdeal.Read Idealize.ShloMosaic Idealize.ShloMosaic.ValueIdx

/-- Two index functions into a literal shape are equal when they agree coordinate by coordinate. -/
local macro "idx_eq2" : tactic => `(tactic| (funext a; apply Fin.ext; match a with | ⟨0, _⟩ => rfl | ⟨1, _⟩ => rfl))
local macro "idx_eq3" : tactic => `(tactic| (funext a; apply Fin.ext; match a with | ⟨0, _⟩ => rfl | ⟨1, _⟩ => rfl | ⟨2, _⟩ => rfl))
local macro "idx_eq4" : tactic => `(tactic| (funext a; apply Fin.ext; match a with | ⟨0, _⟩ => rfl | ⟨1, _⟩ => rfl | ⟨2, _⟩ => rfl | ⟨3, _⟩ => rfl))

variable (x0 : (⟨S128x256x256x1, .f32⟩ : BufTy).Contents (Elt Ideal))

local notation "X" => Cert.Spec.img x0

theorem v50_at (b : Fin 128) (i j : Fin 256) :
    val_main_v50 (F := Ideal) x0 (ix4 b i j 0) = Cert.Spec.y X b i j := by
  rw [val_main_v50_apply, val_main_v49_apply, v48_at]; rfl

theorem v51_at (b : Fin 128) (i j : Fin 256) :
    val_main_v51 (F := Ideal) x0 (ix4 b i j 0) = Cert.Spec.z X b i j := by
  rw [val_main_v51_apply]; rfl

/-- The joined block at (b, i, c, 0). -/
theorem v52_at (b : Fin 128) (i : Fin 256) (c : Fin 513) :
    val_main_v52 (F := Ideal) x0 (ix4 b i c 0) = Cert.Spec.cat X b i c := by
  have hc := c.isLt
  unfold val_main_v52 Cert.Spec.cat
  split
  · next h0 =>
    refine (concatenate_apply_piece _ _ _ (ix4 b i c 0) 0 (by show (0 : Nat) < 3; omega) S128x256x1x1 (val_main_v47 (F := Ideal) x0) rfl rfl 0 rfl
      (ix4 b i 0 0) ?_ ?_).trans (v47_at x0 b i)
    · intro a ha
      match a with
      | ⟨0, _⟩ => rfl
      | ⟨1, _⟩ => rfl
      | ⟨2, _⟩ => exact absurd rfl ha
      | ⟨3, _⟩ => rfl
    · show 0 + 0 = c.val
      omega
  · next h0 =>
    split
    · next h1 =>
      refine (concatenate_apply_piece _ _ _ (ix4 b i c 0) 1 (by show (1 : Nat) < 3; omega) S128x256x256x1 (val_main_v50 (F := Ideal) x0) rfl rfl 1 rfl
        (ix4 b i (⟨c.val - 1, by omega⟩ : Fin 256) 0) ?_ ?_).trans (v50_at x0 b i _)
      · intro a ha
        match a with
        | ⟨0, _⟩ => rfl
        | ⟨1, _⟩ => rfl
        | ⟨2, _⟩ => exact absurd rfl ha
        | ⟨3, _⟩ => rfl
      · show 1 + (c.val - 1) = c.val
        omega
    · next h1 =>
      refine (concatenate_apply_piece _ _ _ (ix4 b i c 0) 2 (by show (2 : Nat) < 3; omega) S128x256x256x1 (val_main_v51 (F := Ideal) x0) rfl rfl 257 rfl
        (ix4 b i (⟨c.val - 257, by omega⟩ : Fin 256) 0) ?_ ?_).trans (v51_at x0 b i _)
      · intro a ha
        match a with
        | ⟨0, _⟩ => rfl
        | ⟨1, _⟩ => rfl
        | ⟨2, _⟩ => exact absurd rfl ha
        | ⟨3, _⟩ => rfl
      · show 257 + (c.val - 257) = c.val
        omega

/-- THE FLAT FEATURE MATRIX at (b, k). -/
theorem feat_at (b : Fin 128) (k : Fin 131328) :
    val_main_v53 (F := Ideal) x0 (ix2 b k) = Cert.Spec.feat (Cert.Spec.img x0) b k := by
  rw [val_main_v53_apply]
  have e : idx_main_v53 (ix2 b k)
      = ix4 b (⟨k.val / 513, by have := k.isLt; omega⟩ : Fin 256) (⟨k.val % 513, Nat.mod_lt _ (by decide)⟩ : Fin 513) (0 : Fin 1) := by
    funext a
    apply Fin.ext
    have hb := b.isLt
    have hk := k.isLt
    match a with
    | ⟨0, _⟩ => show (b.val * 131328 + k.val) / 131328 = b.val; omega
    | ⟨1, _⟩ => show (b.val * 131328 + k.val) / 513 % 256 = k.val / 513; omega
    | ⟨2, _⟩ => show (b.val * 131328 + k.val) / 1 % 513 = k.val % 513; omega
    | ⟨3, _⟩ => rfl
  rw [e, v52_at]
  rfl

/-- The same as an equation of arrays. -/
theorem feat_eq : val_main_v53 (F := Ideal) x0 = Cert.Spec.featArr x0 := by
  funext i
  obtain ⟨p, q, rfl⟩ : ∃ (p : Fin 128) (q : Fin 131328), i = ix2 p q := ⟨i 0, i 1, eq_ix2 i⟩
  exact feat_at x0 p q

end Cert.ReferenceIdeal.RefValue

end
-- ==== Proof.RefRun.lean ====
/-
  The reference program's run, with its result named by the specification: the run read back gives the result as the
  composition of its operations; the early operations build the flattened feature matrix, the last ones are the three
  dense layers.
-/
import proofs.«125702_j58712202936346_2_alg».proof.Defs
import proofs.«125702_j58712202936346_2_alg».proof.Proof.Gen.Pre_finite_inputs
import proofs.«125702_j58712202936346_2_alg».proof.Proof.RefTail
import proofs.«125702_j58712202936346_2_alg».proof.Proof.RefFeat

noncomputable section

namespace Cert.ReferenceIdeal.RefValue

open Cert.ReferenceIdeal Cert.ReferenceIdeal.Gen Idealize.ShloMosaic Idealize.ShloMosaic.TcCoe Idealize.SL.Sem

/-- Every weakly fair execution of the reference terminates with the specification's function of its arguments in its
    result array, and its arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v67)
          = Cert.Spec.G (m' ((c.tc : Thread nD τ).loc main_arg0)) (m' ((c.tc : Thread nD τ).loc main_arg1))
              (m' ((c.tc : Thread nD τ).loc main_arg2)) (m' ((c.tc : Thread nD τ).loc main_arg3))
              (m' ((c.tc : Thread nD τ).loc main_arg4)) (m' ((c.tc : Thread nD τ).loc main_arg5))
              (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) :=
  (θ_run defs _ _).mono (fun _ h c =>
    ⟨(h c).1.trans ((Cert.ReferenceIdeal.Read.val_main_v67_eq m' c).trans
        (result_of_feat _ _ _ _ _ _ _ (fun b k => feat_at _ b k))), (h c).2⟩)
    (Cert.ReferenceIdeal.Value.run (F := Ideal) m' ρ')

/-- The reference's frame: its run with the result forgotten. -/
theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate: the kernel program (a cross-shaped filter chain that builds 513 features per image row, then three
  dense layers whose first product is accumulated over 38 blocks of 3456 features) computes what the plain reference
  computes, over the extended reals.

  Frames.  The kernel program is two kernel regions with four reshapes between them.  Each region's frame is its body's
  run at every grid point: the first region rewrites its output block at each of 8 points; the second keeps an
  accumulator between its 38 points, zeroes it at the first, and writes its output once, at the last.  The whole run
  follows the buffers' contents from the launch through the three items; no item writes an argument.  The same proof
  serves the program read over words and read over the extended reals.  The reference's frame is its run read back.

  Values.  Both programs are shown to end at one function of the arguments (Spec.lean): the kernel program by its two
  regions' write-backs (the feature block, then the dense layers with the blocked sum regrouped — a sum over
  38 * 3456 consecutive positions is the sum of its 38 chunk sums, which needs only that addition is commutative and
  associative, so no finiteness of the inputs is used), the reference operation by operation.  Nothing was rewritten
  between the kernel as printed and its idealization, so that conjunct is trivial.
-/
import proofs.«125702_j58712202936346_2_alg».proof.Defs
import proofs.«125702_j58712202936346_2_alg».proof.Proof.KI.Run
import proofs.«125702_j58712202936346_2_alg».proof.Proof.K.Run
import proofs.«125702_j58712202936346_2_alg».proof.Proof.KernelValue
import proofs.«125702_j58712202936346_2_alg».proof.Proof.KV0Final
import proofs.«125702_j58712202936346_2_alg».proof.Proof.KV1Final
import proofs.«125702_j58712202936346_2_alg».proof.Proof.RefRun
import proofs.«125702_j58712202936346_2_alg».proof.Proof.Gen.Kernel
import proofs.«125702_j58712202936346_2_alg».proof.Proof.Gen.KernelIdeal
import proofs.«125702_j58712202936346_2_alg».proof.Proof.Gen.ReferenceIdeal
import proofs.«125702_j58712202936346_2_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- Both idealized programs end with the specification's function of the arguments in their result arrays: the kernel
    program by its run through the two regions, the reference by its run read back; the arguments agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v5 (by decide))).trans
        (Cert.KernelIdeal.HandValue.value m Cert.KernelIdeal.HandValue.arr0_final Cert.KernelIdeal.HandValue.arr1_final c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c)⟩
  · refine (θ_run Cert.ReferenceIdeal.defs _ _).mono (fun r h c => ⟨(h c).1.trans ?_, (h c).2⟩) (Cert.ReferenceIdeal.RefValue.ref_run m' ρ')
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    Cert.ReferenceIdeal.RefValue.ref_frame,
    trivial,
    algebraic⟩

end Cert.Proof

end
